-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S32 : Shape := ⟨1, ![32]⟩
abbrev S512x128 : Shape := ⟨2, ![512, 128]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_arg1 : IVec S32 32) (main_arg12 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S32 32 := broadcastInDim S32 ![] bcast_S_S32 main_c_22
  let main_v60 : IVec S32 1 := cmpi .sge main_arg1 main_v59
  let main_c_23 : IVec S_ 32 := constantI S_ 32 512#32
  let main_v61 : IVec S32 32 := broadcastInDim S32 ![] bcast_S_S32 main_c_23
  let main_v62 : IVec S32 1 := cmpi .slt main_arg1 main_v61
  let main_v63 : IVec S32 1 := andi main_v60 main_v62
  let main_c_24 : IVec S_ 1 := constantI S_ 1 1#1
  let main_v64 : IVec S_ 1 := (fun x v => Host.reduce IntOp.andi x v reducesTo_S32_S_d0 h_S_) main_v63 main_c_24
  let main_v65 : IVec S_ 1 := andi main_v58 main_v64
  main_v65

def fn_part2 {F : FTy → Type} [FloatOps F] (main_arg1 : IVec S32 32) (main_arg8 : FVec F S2x128x128 .f32) (main_arg9 : FVec F S2x128x128 .f32) (main_arg10 : FVec F S2x128 .f32) (main_arg11 : FVec F S128x256 .f32) (main_arg12 : FVec F S256 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg1 main_arg12 main_v48 main_v49 main_v50

def fn_part1 {F : FTy → Type} [FloatOps F] (main_arg1 : IVec S32 32) (main_arg5 : FVec F S2x128x128 .f32) (main_arg6 : FVec F S2x128x128 .f32) (main_arg7 : FVec F S2x128 .f32) (main_arg8 : FVec F S2x128x128 .f32) (main_arg9 : FVec F S2x128x128 .f32) (main_arg10 : FVec F S2x128 .f32) (main_arg11 : FVec F S128x256 .f32) (main_arg12 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S10000x256 .f32) (main_arg1 : IVec S32 32) (main_arg2 : FVec F S512x128 .f32) (main_arg3 : FVec F S256x128 .f32) (main_arg4 : FVec F S128 .f32) (main_arg5 : FVec F S2x128x128 .f32) (main_arg6 : FVec F S2x128x128 .f32) (main_arg7 : FVec F S2x128 .f32) (main_arg8 : FVec F S2x128x128 .f32) (main_arg9 : FVec F S2x128x128 .f32) (main_arg10 : FVec F S2x128 .f32) (main_arg11 : FVec F S128x256 .f32) (main_arg12 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S10000x256 : Shape := ⟨2, ![10000, 256]⟩
abbrev S32 : Shape := ⟨1, ![32]⟩
abbrev S512x128 : Shape := ⟨2, ![512, 128]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S32x1 : Shape := ⟨2, ![32, 1]⟩
abbrev S1x128 : Shape := ⟨2, ![1, 128]⟩
abbrev S1x256 : Shape := ⟨2, ![1, 256]⟩
abbrev S1x128x128 : Shape := ⟨3, ![1, 128, 128]⟩
abbrev S128x128 : Shape := ⟨2, ![128, 128]⟩
abbrev S5000x256 : Shape := ⟨2, ![5000, 256]⟩
abbrev S10000x128 : Shape := ⟨2, ![10000, 128]⟩
abbrev S32x128 : Shape := ⟨2, ![32, 128]⟩
abbrev S32x512 : Shape := ⟨2, ![32, 512]⟩
abbrev S5000x128 : Shape := ⟨2, ![5000, 128]⟩

abbrev nBuf : Space → Nat
  | .hbm => 32
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S32, .i32⟩
  | .hbm, ⟨2, _⟩ => ⟨S512x128, .f32⟩
  | .hbm, ⟨3, _⟩ => ⟨S256x128, .f32⟩
  | .hbm, ⟨4, _⟩ => ⟨S128, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128x128, .f32⟩
  | .hbm, ⟨10, _⟩ => ⟨S2x128, .f32⟩
  | .hbm, ⟨11, _⟩ => ⟨S128x256, .f32⟩
  | .hbm, ⟨12, _⟩ => ⟨S256, .f32⟩
  | .hbm, ⟨13, _⟩ => ⟨S32x1, .i32⟩
  | .hbm, ⟨14, _⟩ => ⟨S1x128, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S1x256, .f32⟩
  | .hbm, ⟨19, _⟩ => ⟨S1x128x128, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S1x128x128, .f32⟩
  | .hbm, ⟨30, _⟩ => ⟨S128x128, .f32⟩
  | .hbm, ⟨31, _⟩ => ⟨S10000x256, .f32⟩
  | .local _ .vmem, ⟨0, _⟩ => ⟨S5000x256, .f32⟩
  | .local _ .vmem, ⟨1, _⟩ => ⟨S5000x256, .f32⟩
  | .local _ .vmem, ⟨2, _⟩ => ⟨S32x1, .i32⟩
  | .local _ .vmem, ⟨3, _⟩ => ⟨S512x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S2x128, .f32⟩
  | .local _ .vmem, ⟨12, _⟩ => ⟨S128x128, .f32⟩
  | .local _ .vmem, ⟨13, _⟩ => ⟨S128x128, .f32⟩
  | .local _ .vmem, ⟨14, _⟩ => ⟨S128x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S10000x128, .bf16⟩
  | .local _ .vmem, ⟨19, _⟩ => ⟨S1x128, .f32⟩
  | .local _ .vmem, ⟨20, _⟩ => ⟨S2x128, .f32⟩
  | .local _ .vmem, ⟨21, _⟩ => ⟨S32x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c5000_i32 : BitVec 32 := 5000#32
  let v39 : BitVec 32 := Scalar.muli arg0 c5000_i32
  let v40 : Index := Scalar.indexCast v39
  let c0_22 : Index := 0#32
  ![v40.toNat, 0]
def k0_cond4 (i : grid0.Coords) : BitVec 1 :=
  let arg0 : BitVec 32 := BitVec.ofNat 32 (i 0).val
  let c2_i32_4 : BitVec 32 := 2#32
  let v9 : BitVec 1 := Scalar.cmpi .sge arg0 c2_i32_4
  let v10 : BitVec 32 := Scalar.extui v9
  let c0_i32_5 : BitVec 32 := 0#32
  let v11 : BitVec 1 := Scalar.cmpi .ne v10 c0_i32_5
  v11

def k0_off2 (i : grid0.Coords) : Fin 2 → Nat :=
  let arg0 : BitVec 32 := BitVec.ofNat 32 (i 0).val
  let c2_i32_6 : BitVec 32 := 2#32
  let v12 : BitVec 32 := Scalar.subi arg0 c2_i32_6
  let c5000_i32 : BitVec 32 := 5000#32
  let v13 : BitVec 32 := Scalar.muli v12 c5000_i32
  let v14 : Index := Scalar.indexCast v13
  let c0 : Index := 0#32
  ![v14.toNat, 0]
def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5000x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S32_S32x1 : S32.ShapeCasts S32x1
  shapeCasts_S128_S1x128 : S128.ShapeCasts S1x128
  slices_S2x128_S1x128_0_0 : S2x128.Slices ![0, 0] S1x128
  shapeCasts_S1x128_S128 : S1x128.ShapeCasts S128
  shapeCasts_S256_S1x256 : S256.ShapeCasts S1x256
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S32x512_d1_w32 : S32x512.Iotas .tc 32 [1]
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x512 : S32x1.Broadcasts S32x512
  natLt_1_32 : 1 < 32
  inb_S512x128_S512x128_0_0 : ∀ a, (![0, 0] : Fin 2 → Nat) a + S512x128.size a ≤ S512x128.size a
  h_S512x128 : 0 < S512x128.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x128_S128 : S32x128.Reduces [0] S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128_S1x128_0_0 : ∀ a, (![0, 0] : Fin 2 → Nat) a + S1x128.size a ≤ S2x128.size a
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  broadcasts_S1x128_S5000x128 : S1x128.Broadcasts S5000x128
  reduces_S5000x128_S128 : S5000x128.Reduces [0] S128
  h_S5000x128 : 0 < S5000x128.numel
  shapeCasts_S5000x128_S5000x128 : S5000x128.ShapeCasts S5000x128
  broadcasts_S1x128_S32x128 : S1x128.Broadcasts S32x128
  inb_S2x128_S1x128_1_0 : ∀ a, (![1, 0] : Fin 2 → Nat) a + S1x128.size a ≤ S2x128.size a
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  dot_S32x512_S512x128_S32x128_1_0_0_1_n_n_wf : DotDims.WF S32x512 S512x128 S32x128 [1] [0] [0] [1] [] []
  dot_S1x128_S128x128_S1x128_1_0_0_1_n_n_wf : DotDims.WF S1x128 S128x128 S1x128 [1] [0] [0] [1] [] []
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S32x128_S128x128_S32x128_1_0_0_1_n_n_wf : DotDims.WF S32x128 S128x128 S32x128 [1] [0] [0] [1] [] []
  dot_S5000x128_S128x256_S5000x256_1_0_0_1_n_n_wf : DotDims.WF S5000x128 S128x256 S5000x256 [1] [0] [0] [1] [] []
  hrank0 : 0 < grid0.rank
  k0_off1_inb : ∀ i : grid0.Coords, ∀ (k0_h2 : k0_cond2 i = 1#1), ∀ a, (k0_off1 i) a + S5000x128.size a ≤ S10000x128.size a
  k0_off1_packedbf16 : ∀ i : grid0.Coords, ∀ (k0_h2 : k0_cond2 i = 1#1), (Rect.unit (s := S10000x128) (k0_off1 i) S5000x128.size (k0_off1_inb i k0_h2)).PackedRows (EltTy.packing .bf16)
  k0_off2_inb : ∀ i : grid0.Coords, ∀ (k0_h4 : k0_cond4 i = 1#1), ∀ a, (k0_off2 i) a + S5000x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S10000x256.size a
  hwx0_0 : ∀ i : grid0.Coords, EltTy.bits .f32 = 32 ∨ (Rect.block (s := S10000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .i32 = 32 ∨ (Rect.block (s := S32x1) S32x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128.size a ≤ S2x128.size a
  hwx0_10 : ∀ i : grid0.Coords, EltTy.bits .f32 = 32 ∨ (Rect.block (s := S2x128) S2x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .f32 = 32 ∨ (Rect.block (s := S128x256) S128x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x256.size a ≤ S10000x256.size a
  hwx0_15 : ∀ i : grid0.Coords, EltTy.bits .f32 = 32 ∨ (Rect.block (s := S10000x256) S5000x256.size (cc0_transform_15 i) (hinb0_15 i)).WholeWords (EltTy.packing .f32)

variable [Facts₀]

def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v15) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v17) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v5) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S5000x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond4 i == 1#1) | ⟨_ + 16, h⟩ => absurd h (Nat.not_lt.2 (Nat.le_add_left _ _))

class Facts : Prop extends Facts₀ where

variable [Facts]
-- ==== ReferenceIdeal.lean ====
abbrev S10000x256 : Shape := ⟨2, ![10000, 256]⟩
abbrev S32 : Shape := ⟨1, ![32]⟩
abbrev S512x128 : Shape := ⟨2, ![512, 128]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x128 : Shape := ⟨2, ![32, 128]⟩
abbrev S10000 : Shape := ⟨1, ![10000]⟩
abbrev S10000x32 : Shape := ⟨2, ![10000, 32]⟩
abbrev S320000 : Shape := ⟨1, ![320000]⟩
abbrev S1x32 : Shape := ⟨2, ![1, 32]⟩
abbrev S10000x128 : Shape := ⟨2, ![10000, 128]⟩
abbrev S1x128 : Shape := ⟨2, ![1, 128]⟩
abbrev S320000x1 : Shape := ⟨2, ![320000, 1]⟩
abbrev S320000x128 : Shape := ⟨2, ![320000, 128]⟩
abbrev S1x128x128 : Shape := ⟨3, ![1, 128, 128]⟩
abbrev S128x128 : Shape := ⟨2, ![128, 128]⟩
abbrev S1x256 : Shape := ⟨2, ![1, 256]⟩

abbrev nBuf : Space → Nat
  | .hbm => 231
  | .vmem => 0
  | .smem => 0
  | _ => 0

abbrev hbmTy0_0 (i : Nat) : BufTy := match i % 128 with
  | 0 => ⟨S10000x256, .f32⟩
  | 1 => ⟨S32, .i32⟩
  | 2 => ⟨S512x128, .f32⟩
  | 3 => ⟨S256x128, .f32⟩
  | 4 => ⟨S128, .f32⟩
  | 5 => ⟨S2x128x128, .f32⟩
  | 6 => ⟨S2x128x128, .f32⟩
  | 7 => ⟨S2x128, .f32⟩
  | 8 => ⟨S2x128x128, .f32⟩
  | 9 => ⟨S2x128x128, .f32⟩
  | 10 => ⟨S2x128, .f32⟩
  | 11 => ⟨S128x256, .f32⟩
  | 12 => ⟨S256, .f32⟩
  | 13 => ⟨S_, .i32⟩
  | 14 => ⟨S32, .i32⟩
  | 15 => ⟨S32, .i1⟩
  | 16 => ⟨S_, .i32⟩
  | 17 => ⟨S32, .i32⟩
  | 18 => ⟨S32, .i32⟩
  | 19 => ⟨S32, .i32⟩
  | 20 => ⟨S32x1, .i32⟩
  | 21 => ⟨S1, .i32⟩
  | 22 => ⟨S_, .i32⟩
  | 23 => ⟨S32x1, .i32⟩
  | 24 => ⟨S32x1, .i1⟩
  | 25 => ⟨S1x1, .i32⟩
  | 26 => ⟨S32x1, .i32⟩
  | 27 => ⟨S32x1, .i1⟩
  | 28 => ⟨S32x1, .i1⟩
  | 29 => ⟨S_, .i1⟩
  | 30 => ⟨S32, .i1⟩
  | 31 => ⟨S32x128, .f32⟩
  | 32 => ⟨S32x128, .i1⟩
  | 33 => ⟨S_, .f32⟩
  | 34 => ⟨S32x128, .f32⟩
  | 35 => ⟨S32x128, .f32⟩
  | 36 => ⟨S10000, .i32⟩
  | 37 => ⟨S10000x32, .i32⟩
  | 38 => ⟨S320000, .i32⟩
  | 39 => ⟨S32, .i32⟩
  | 40 => ⟨S1x32, .i32⟩
  | 41 => ⟨S10000x32, .i32⟩
  | 42 => ⟨S320000, .i32⟩
  | 43 => ⟨S10000x128, .f32⟩
  | 44 => ⟨S1x128, .f32⟩
  | 45 => ⟨S10000x128, .f32⟩
  | 46 => ⟨S10000x128, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S1, .i32⟩
  | 56 => ⟨S_, .i32⟩
  | 57 => ⟨S320000x1, .i32⟩
  | 58 => ⟨S320000x1, .i1⟩
  | 59 => ⟨S1x1, .i32⟩
  | 60 => ⟨S320000x1, .i32⟩
  | 61 => ⟨S320000x1, .i1⟩
  | 62 => ⟨S320000x1, .i1⟩
  | 63 => ⟨S_, .i1⟩
  | 64 => ⟨S320000, .i1⟩
  | 65 => ⟨S320000x128, .f32⟩
  | 66 => ⟨S320000x128, .i1⟩
  | 67 => ⟨S_, .f32⟩
  | 68 => ⟨S320000x128, .f32⟩
  | 69 => ⟨S320000x128, .f32⟩
  | 70 => ⟨S_, .f32⟩
  | 71 => ⟨S32x128, .f32⟩
  | 72 => ⟨S320000x1, .i32⟩
  | 73 => ⟨S32x128, .f32⟩
  | 74 => ⟨S_, .f32⟩
  | 75 => ⟨S32x128, .f32⟩
  | 76 => ⟨S32x128, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1, .i32⟩
  | 86 => ⟨S_, .i32⟩
  | 87 => ⟨S320000x1, .i32⟩
  | 88 => ⟨S320000x1, .i1⟩
  | 89 => ⟨S1x1, .i32⟩
  | 90 => ⟨S320000x1, .i32⟩
  | 91 => ⟨S320000x1, .i1⟩
  | 92 => ⟨S320000x1, .i1⟩
  | 93 => ⟨S_, .i1⟩
  | 94 => ⟨S320000, .i1⟩
  | 95 => ⟨S320000x128, .f32⟩
  | 96 => ⟨S320000x128, .i1⟩
  | 97 => ⟨S_, .f32⟩
  | 98 => ⟨S320000x128, .f32⟩
  | 99 => ⟨S320000x128, .f32⟩
  | 100 => ⟨S_, .f32⟩
  | 101 => ⟨S10000x128, .f32⟩
  | 102 => ⟨S320000x1, .i32⟩
  | 103 => ⟨S10000x128, .f32⟩
  | 104 => ⟨S_, .f32⟩
  | 105 => ⟨S10000x128, .f32⟩
  | 106 => ⟨S10000x128, .f32⟩
  | 107 => ⟨S1x128x128, .f32⟩
  | 108 => ⟨S128x128, .f32⟩
  | 109 => ⟨S32x128, .f32⟩
  | 110 => ⟨S1x128x128, .f32⟩
  | 111 => ⟨S128x128, .f32⟩
  | 112 => ⟨S32x128, .f32⟩
  | 113 => ⟨S32x128, .f32⟩
  | 114 => ⟨S1x128, .f32⟩
  | 115 => ⟨S128, .f32⟩
  | 116 => ⟨S1x128, .f32⟩
  | 117 => ⟨S32x128, .f32⟩
  | 118 => ⟨S32x128, .f32⟩
  | 119 => ⟨S_, .f32⟩
  | 120 => ⟨S32x128, .f32⟩
  | 121 => ⟨S32x128, .f32⟩
  | 122 => ⟨S1x128x128, .f32⟩
  | 123 => ⟨S128x128, .f32⟩
  | 124 => ⟨S10000x128, .f32⟩
  | 125 => ⟨S1x128x128, .f32⟩
  | 126 => ⟨S128x128, .f32⟩
  | 127 => ⟨S10000x128, .f32⟩
  | _ => ⟨S10000x256, .f32⟩

abbrev hbmTy0_1 (i : Nat) : BufTy := match i % 128 with
  | 0 => ⟨S10000x128, .f32⟩
  | 1 => ⟨S1x128, .f32⟩
  | 2 => ⟨S128, .f32⟩
  | 3 => ⟨S1x128, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S1, .i32⟩
  | 18 => ⟨S_, .i32⟩
  | 19 => ⟨S320000x1, .i32⟩
  | 20 => ⟨S320000x1, .i1⟩
  | 21 => ⟨S1x1, .i32⟩
  | 22 => ⟨S320000x1, .i32⟩
  | 23 => ⟨S320000x1, .i1⟩
  | 24 => ⟨S320000x1, .i1⟩
  | 25 => ⟨S_, .i1⟩
  | 26 => ⟨S320000, .i1⟩
  | 27 => ⟨S320000x128, .f32⟩
  | 28 => ⟨S320000x128, .i1⟩
  | 29 => ⟨S_, .f32⟩
  | 30 => ⟨S320000x128, .f32⟩
  | 31 => ⟨S320000x128, .f32⟩
  | 32 => ⟨S_, .f32⟩
  | 33 => ⟨S32x128, .f32⟩
  | 34 => ⟨S320000x1, .i32⟩
  | 35 => ⟨S32x128, .f32⟩
  | 36 => ⟨S_, .f32⟩
  | 37 => ⟨S32x128, .f32⟩
  | 38 => ⟨S32x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S1, .i32⟩
  | 48 => ⟨S_, .i32⟩
  | 49 => ⟨S320000x1, .i32⟩
  | 50 => ⟨S320000x1, .i1⟩
  | 51 => ⟨S1x1, .i32⟩
  | 52 => ⟨S320000x1, .i32⟩
  | 53 => ⟨S320000x1, .i1⟩
  | 54 => ⟨S320000x1, .i1⟩
  | 55 => ⟨S_, .i1⟩
  | 56 => ⟨S320000, .i1⟩
  | 57 => ⟨S320000x128, .f32⟩
  | 58 => ⟨S320000x128, .i1⟩
  | 59 => ⟨S_, .f32⟩
  | 60 => ⟨S320000x128, .f32⟩
  | 61 => ⟨S320000x128, .f32⟩
  | 62 => ⟨S_, .f32⟩
  | 63 => ⟨S10000x128, .f32⟩
  | 64 => ⟨S320000x1, .i32⟩
  | 65 => ⟨S10000x128, .f32⟩
  | 66 => ⟨S_, .f32⟩
  | 67 => ⟨S10000x128, .f32⟩
  | 68 => ⟨S10000x128, .f32⟩
  | 69 => ⟨S1x128x128, .f32⟩
  | 70 => ⟨S128x128, .f32⟩
  | 71 => ⟨S32x128, .f32⟩
  | 72 => ⟨S1x128x128, .f32⟩
  | 73 => ⟨S128x128, .f32⟩
  | 74 => ⟨S32x128, .f32⟩
  | 75 => ⟨S32x128, .f32⟩
  | 76 => ⟨S1x128, .f32⟩
  | 77 => ⟨S128, .f32⟩
  | 78 => ⟨S1x128, .f32⟩
  | 79 => ⟨S32x128, .f32⟩
  | 80 => ⟨S32x128, .f32⟩
  | 81 => ⟨S_, .f32⟩
  | 82 => ⟨S32x128, .f32⟩
  | 83 => ⟨S32x128, .f32⟩
  | 84 => ⟨S1x128x128, .f32⟩
  | 85 => ⟨S128x128, .f32⟩
  | 86 => ⟨S10000x128, .f32⟩
  | 87 => ⟨S1x128x128, .f32⟩
  | 88 => ⟨S128x128, .f32⟩
  | 89 => ⟨S10000x128, .f32⟩
  | 90 => ⟨S10000x128, .f32⟩
  | 91 => ⟨S1x128, .f32⟩
  | 92 => ⟨S128, .f32⟩
  | 93 => ⟨S1x128, .f32⟩
  | 94 => ⟨S10000x128, .f32⟩
  | 95 => ⟨S10000x128, .f32⟩
  | 96 => ⟨S_, .f32⟩
  | 97 => ⟨S10000x128, .f32⟩
  | 98 => ⟨S10000x128, .f32⟩
  | 99 => ⟨S10000x256, .f32⟩
  | 100 => ⟨S1x256, .f32⟩
  | 101 => ⟨S10000x256, .f32⟩
  | 102 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v12 : Ref sig .tc := ⟨.hbm, 69, rfl⟩
abbrev main_cst : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_0 : Ref sig .tc := ⟨.hbm, 74, rfl⟩
abbrev main_v16 : Ref sig .tc := ⟨.hbm, 75, rfl⟩
abbrev main_v17 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v18 : Ref sig .tc := ⟨.hbm, 99, rfl⟩
abbrev main_cst_1 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_cst_2 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_call3_cst : Ref sig .tc := ⟨.hbm, 119, rfl⟩
abbrev main_call3_v0 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_call4_cst : Ref sig .tc := ⟨.hbm, 134, rfl⟩
abbrev main_call4_v0 : Ref sig .tc := ⟨.hbm, 135, rfl⟩
abbrev main_v49 : Ref sig .tc := ⟨.hbm, 136, rfl⟩
abbrev main_call5_c : Ref sig .tc := ⟨.hbm, 137, rfl⟩
abbrev main_call5_v0 : Ref sig .tc := ⟨.hbm, 138, rfl⟩
abbrev main_call5_v1 : Ref sig .tc := ⟨.hbm, 139, rfl⟩
abbrev main_call5_c_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_c_1 : Ref sig .tc := ⟨.hbm, 145, rfl⟩
abbrev main_call5_c_2 : Ref sig .tc := ⟨.hbm, 146, rfl⟩
abbrev main_call5_v6 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_c_3 : Ref sig .tc := ⟨.hbm, 153, rfl⟩
abbrev main_call5_v12 : Ref sig .tc := ⟨.hbm, 154, rfl⟩
abbrev main_call5_v13 : Ref sig .tc := ⟨.hbm, 155, rfl⟩
abbrev main_call5_v14 : Ref sig .tc := ⟨.hbm, 156, rfl⟩
abbrev main_call5_cst : Ref sig .tc := ⟨.hbm, 157, rfl⟩
abbrev main_call5_v15 : Ref sig .tc := ⟨.hbm, 158, rfl⟩
abbrev main_v50 : Ref sig .tc := ⟨.hbm, 159, rfl⟩
abbrev main_cst_3 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_cst_4 : Ref sig .tc := ⟨.hbm, 164, rfl⟩
abbrev main_v54 : Ref sig .tc := ⟨.hbm, 165, rfl⟩
abbrev main_v55 : Ref sig .tc := ⟨.hbm, 166, rfl⟩
abbrev main_call6_c : Ref sig .tc := ⟨.hbm, 167, rfl⟩
abbrev main_call6_v0 : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_c_1 : Ref sig .tc := ⟨.hbm, 175, rfl⟩
abbrev main_call6_c_2 : Ref sig .tc := ⟨.hbm, 176, rfl⟩
abbrev main_call6_v6 : Ref sig .tc := ⟨.hbm, 177, rfl⟩
abbrev main_call6_v7 : Ref sig .tc := ⟨.hbm, 178, rfl⟩
abbrev main_call6_v8 : Ref sig .tc := ⟨.hbm, 179, rfl⟩
abbrev main_call6_v9 : Ref sig .tc := ⟨.hbm, 180, rfl⟩
abbrev main_call6_v10 : Ref sig .tc := ⟨.hbm, 181, rfl⟩
abbrev main_call6_v11 : Ref sig .tc := ⟨.hbm, 182, rfl⟩
abbrev main_call6_c_3 : Ref sig .tc := ⟨.hbm, 183, rfl⟩
abbrev main_call6_v12 : Ref sig .tc := ⟨.hbm, 184, rfl⟩
abbrev main_call6_v13 : Ref sig .tc := ⟨.hbm, 185, rfl⟩
abbrev main_call6_v14 : Ref sig .tc := ⟨.hbm, 186, rfl⟩
abbrev main_call6_cst : Ref sig .tc := ⟨.hbm, 187, rfl⟩
abbrev main_call6_v15 : Ref sig .tc := ⟨.hbm, 188, rfl⟩
abbrev main_v56 : Ref sig .tc := ⟨.hbm, 189, rfl⟩
abbrev main_cst_5 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_cst_6 : Ref sig .tc := ⟨.hbm, 194, rfl⟩
abbrev main_v60 : Ref sig .tc := ⟨.hbm, 195, rfl⟩
abbrev main_v61 : Ref sig .tc := ⟨.hbm, 196, rfl⟩
abbrev main_v62 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_call7_cst : Ref sig .tc := ⟨.hbm, 209, rfl⟩
abbrev main_call7_v0 : Ref sig .tc := ⟨.hbm, 210, rfl⟩
abbrev main_v74 : Ref sig .tc := ⟨.hbm, 211, rfl⟩
abbrev main_v75 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_call8_cst : Ref sig .tc := ⟨.hbm, 224, rfl⟩
abbrev main_call8_v0 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x128_0 : S32.BroadcastsInDim S32x128 (![0] : Fin 1 → Fin S32x128.rank)
  bcast_S_S32x128 : S_.BroadcastsInDim S32x128 (![] : Fin 0 → Fin S32x128.rank)
  bcast_S10000_S10000x32_0 : S10000.BroadcastsInDim S10000x32 (![0] : Fin 1 → Fin S10000x32.rank)
  shapeCasts_S10000x32_S320000 : S10000x32.ShapeCasts S320000
  shapeCasts_S32_S1x32 : S32.ShapeCasts S1x32
  bcast_S1x32_S10000x32_0_1 : S1x32.BroadcastsInDim S10000x32 (![0, 1] : Fin 2 → Fin S10000x32.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S1x128_S32x128_0_1 : S1x128.BroadcastsInDim S32x128 (![0, 1] : Fin 2 → Fin S32x128.rank)
  slices_S2x128x128_S1x128x128_1_0_0 : S2x128x128.Slices ![1, 0, 0] S1x128x128
  slices_S2x128_S1x128_1_0 : S2x128.Slices ![1, 0] S1x128
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S512x128_S32x1_S32x128_1_0_n_n_0_1_1128_wf : GatherDims.WF S512x128 S32x1 S32x128 [1] [0] [] [0] [] 1 ![1, 128]
  dot_S10000x256_S256x128_S10000x128_1_0_0_1_n_n_wf : DotDims.WF S10000x256 S256x128 S10000x128 [1] [0] [0] [1] [] []
  gather_S10000x128_S320000x1_S320000x128_1_0_n_n_0_1_1128_wf : GatherDims.WF S10000x128 S320000x1 S320000x128 [1] [0] [] [0] [] 1 ![1, 128]
  scatter_S32x128_S320000x1_S320000x128_1_0_0_1_wf : ScatterDims.WF S32x128 S320000x1 S320000x128 [1] [0] [0] 1
  gather_S32x128_S320000x1_S320000x128_1_0_n_n_0_1_1128_wf : GatherDims.WF S32x128 S320000x1 S320000x128 [1] [0] [] [0] [] 1 ![1, 128]
  scatter_S10000x128_S320000x1_S320000x128_1_0_0_1_wf : ScatterDims.WF S10000x128 S320000x1 S320000x128 [1] [0] [0] 1
  dot_S32x128_S128x128_S32x128_1_0_0_1_n_n_wf : DotDims.WF S32x128 S128x128 S32x128 [1] [0] [0] [1] [] []
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []

variable [Facts₀]

def gather_S512x128_S32x1_S32x128_1_0_n_n_0_1_1128 : GatherDims S512x128 S32x1 S32x128 where
  offsetDims := [1]
  collapsedSliceDims := [0]
  operandBatchingDims := []
  startIndicesBatchingDims := []
  startIndexMap := [0]
  indexVectorDim := 1
  sliceSizes := ![1, 128]
  wf := gather_S512x128_S32x1_S32x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S32x128_S320000x1_S320000x128_1_0_0_1 : ScatterDims S32x128 S320000x1 S320000x128 where
  updateWindowDims := [1]
  insertedWindowDims := [0]
  scatterDimsToOperandDims := [0]
  indexVectorDim := 1
  wf := scatter_S32x128_S320000x1_S320000x128_1_0_0_1_wf
def gather_S32x128_S320000x1_S320000x128_1_0_n_n_0_1_1128 : GatherDims S32x128 S320000x1 S320000x128 where
  offsetDims := [1]
  collapsedSliceDims := [0]
  operandBatchingDims := []
  startIndicesBatchingDims := []
  startIndexMap := [0]
  indexVectorDim := 1
  sliceSizes := ![1, 128]
  wf := gather_S32x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

class Facts : Prop extends Facts₀ where

variable [Facts]
-- ==== Proof.KBRuns.lean ====
import proofs.«119914_g24988119728772_cont_9to1_1483_19_alg».proof.Proof.Gen.Kernel.Frame
import proofs.«119914_g24988119728772_cont_9to1_1483_19_alg».proof.Proof.Gen.Kernel.Skeleton
import proofs.«119914_g24988119728772_cont_9to1_1483_19_alg».proof.Proof.Gen.Kernel.Points
import proofs.«119914_g24988119728772_cont_9to1_1483_19_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions of the body, as the skeleton spells them, decided over the four grid points

Point 0 resets the accumulator and looks the embeddings up; points 0 and 1 stream the two blocks of rows in;
point 2 finishes the attribute side; points 2 and 3 stream the two blocks of results out. -/

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := (Scalar.cmpi .ne (Scalar.extui (Scalar.cmpi .eq (BitVec.ofNat 32 (i 0).val) 2#32)) 0#32) = 1#1
abbrev cond3 (i : grid0.Coords) : Prop := k0_cond4 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 2 :=
  (by decide +kernel : ∀ t : Fin grid0.N, cond1 (grid0.coords t) ↔ t.val < 2)
theorem hcond2 : ∀ t : Fin cfg0.N, cond2 (grid0.coords t) ↔ t.val = 2 :=
  (by decide +kernel : ∀ t : Fin grid0.N, cond2 (grid0.coords t) ↔ t.val = 2)
theorem hcond3 : ∀ t : Fin cfg0.N, cond3 (grid0.coords t) ↔ 2 ≤ t.val :=
  (by decide +kernel : ∀ t : Fin grid0.N, cond3 (grid0.coords t) ↔ 2 ≤ t.val)

/-- No input window is ever idle. -/
theorem liveAt : ∀ (w : Fin 16), w.val < 15 → ∀ t : Fin cfg0.N, cfg0.idle w (grid0.coords t) = false := by decide +kernel

/-! ## The staging memrefs the pipeline passes the body at point `t`, and the four scratch operands -/
abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x256 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S5000x256 .f32 := win0_15.stage (cfg0.slots t 15)
abbrev hs15 (t : Fin cfg0.N) : (ms15 t).IsWhole := hstage0_15 ((cfg0.slots t 15).cast nbuf0_15)
abbrev sc0 : Memref sig .tc .vmem S10000x128 .bf16 := Memref.whole cc0_scratch0
abbrev sc1 : Memref sig .tc .vmem S1x128 .f32 := Memref.whole cc0_scratch1
abbrev sc2 : Memref sig .tc .vmem S2x128 .f32 := Memref.whole cc0_scratch2
abbrev sc3 : Memref sig .tc .vmem S32x128 .f32 := Memref.whole cc0_scratch3

/-- What the launch hands the body besides the windows: the four scratch buffers, each whole at some contents, and the
    generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The frame claim's post from a run of relational proof data whose arrays are the region-entry contents: a staged
    argument array is unchanged because no input block is ever written back, an argument no window stages because
    the region does not touch it. -/
theorem frame_of' (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Eq.mp (congrFun ((rdat c).ArrAt_in 0 rfl _) _) ((h c).1 0)).trans ((hA c 0).trans (V_main_arg0 m c)),
      ((h c).2 main_arg1 (Pipeline.mem_restRefs_of main_arg1 (by decide) (by decide))).trans (V_main_arg1 m c),
      (Eq.mp (congrFun ((rdat c).ArrAt_in 2 rfl _) _) ((h c).1 2)).trans ((hA c 2).trans (V_main_arg2 m c)),
      (Eq.mp (congrFun ((rdat c).ArrAt_in 3 rfl _) _) ((h c).1 3)).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Eq.mp (congrFun ((rdat c).ArrAt_in 10 rfl _) _) ((h c).1 10)).trans ((hA c 10).trans (V_main_arg10 m c)),
      (Eq.mp (congrFun ((rdat c).ArrAt_in 13 rfl _) _) ((h c).1 13)).trans ((hA c 13).trans (V_main_arg11 m c)),
      ((h c).2 main_arg12 (Pipeline.mem_restRefs_of main_arg12 (by decide) (by decide))).trans (V_main_arg12 m c)⟩) h

end Cert.Kernel.Hand

end
-- ==== Proof.KBRunA.lean ====
import proofs.«119914_g24988119728772_cont_9to1_1483_19_alg».proof.Proof.KBRuns
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the control case of grid point A: on whole staging memrefs — the fifteen inputs' at their contents, the
    output's and the four scratch buffers at anything — it runs, faults nowhere, and hands every input back as it was,
    the output's buffer and the scratch buffers at some contents. Each branch is decided by the case's hypotheses. -/
theorem runA (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : cond0 i) (hc1 : cond1 i) (hc2 : ¬cond2 i) (hc3 : ¬cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Hand

end
-- ==== Proof.KBRunB.lean ====
import proofs.«119914_g24988119728772_cont_9to1_1483_19_alg».proof.Proof.KBRuns
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the control case of grid point B: on whole staging memrefs — the fifteen inputs' at their contents, the
    output's and the four scratch buffers at anything — it runs, faults nowhere, and hands every input back as it was,
    the output's buffer and the scratch buffers at some contents. Each branch is decided by the case's hypotheses. -/
theorem runB (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : ¬cond0 i) (hc1 : cond1 i) (hc2 : ¬cond2 i) (hc3 : ¬cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Hand

end
-- ==== Proof.KBRunC.lean ====
import proofs.«119914_g24988119728772_cont_9to1_1483_19_alg».proof.Proof.KBRuns
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the control case of grid point C: on whole staging memrefs — the fifteen inputs' at their contents, the
    output's and the four scratch buffers at anything — it runs, faults nowhere, and hands every input back as it was,
    the output's buffer and the scratch buffers at some contents. Each branch is decided by the case's hypotheses. -/
theorem runC (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : ¬cond0 i) (hc1 : ¬cond1 i) (hc2 : cond2 i) (hc3 : cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Hand

end
-- ==== Proof.KBRunD.lean ====
import proofs.«119914_g24988119728772_cont_9to1_1483_19_alg».proof.Proof.KBRuns
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the control case of grid point D: on whole staging memrefs — the fifteen inputs' at their contents, the
    output's and the four scratch buffers at anything — it runs, faults nowhere, and hands every input back as it was,
    the output's buffer and the scratch buffers at some contents. Each branch is decided by the case's hypotheses. -/
theorem runD (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : ¬cond0 i) (hc1 : ¬cond1 i) (hc2 : ¬cond2 i) (hc3 : cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Hand

end
-- ==== Proof.KBFrame.lean ====
import proofs.«119914_g24988119728772_cont_9to1_1483_19_alg».proof.Proof.KBRunA
import proofs.«119914_g24988119728772_cont_9to1_1483_19_alg».proof.Proof.KBRunB
import proofs.«119914_g24988119728772_cont_9to1_1483_19_alg».proof.Proof.KBRunC
import proofs.«119914_g24988119728772_cont_9to1_1483_19_alg».proof.Proof.KBRunD
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame: the program runs to the end, faults nowhere, and leaves its argument arrays unchanged

For the frame nothing the body computes needs a name: at every grid point the body runs from ANY contents of the
output's staging buffer and of the four scratch buffers (its loads of them are within bounds whatever they hold), reads its
fifteen input blocks and hands them back untouched. So the output window is forgotten and the region's invariant is the
launch's own at every point. -/

/-- The one output window: nothing of what the kernel leaves in it is named here. -/
def forgets0 : Fin 16 → Bool := fun w => w.val == 15

/-- The proof data on core `c`: the arrays as the region finds them; every input's buffer at its block after the body;
    the output unnamed; the launch's invariant throughout; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

theorem leaves0 (c : Dev nD) (t : Fin cfg0.N) : (dats m 0 c).leavesExact 0 t = owns (c : Thread nD τ) (ms0 t) fullShare (iblk m c 0 t) := by
  unfold Dat.leavesExact; rw [liveAt 0 (by decide) t, after0]
theorem leaves1 (c : Dev nD) (t : Fin cfg0.N) : (dats m 0 c).leavesExact 1 t = owns (c : Thread nD τ) (ms1 t) fullShare (iblk m c 1 t) := by
  unfold Dat.leavesExact; rw [liveAt 1 (by decide) t, after1]
theorem leaves2 (c : Dev nD) (t : Fin cfg0.N) : (dats m 0 c).leavesExact 2 t = owns (c : Thread nD τ) (ms2 t) fullShare (iblk m c 2 t) := by
  unfold Dat.leavesExact; rw [liveAt 2 (by decide) t, after2]
theorem leaves3 (c : Dev nD) (t : Fin cfg0.N) : (dats m 0 c).leavesExact 3 t = owns (c : Thread nD τ) (ms3 t) fullShare (iblk m c 3 t) := by
  unfold Dat.leavesExact; rw [liveAt 3 (by decide) t, after3]
theorem leaves4 (c : Dev nD) (t : Fin cfg0.N) : (dats m 0 c).leavesExact 4 t = owns (c : Thread nD τ) (ms4 t) fullShare (iblk m c 4 t) := by
  unfold Dat.leavesExact; rw [liveAt 4 (by decide) t, after4]
theorem leaves5 (c : Dev nD) (t : Fin cfg0.N) : (dats m 0 c).leavesExact 5 t = owns (c : Thread nD τ) (ms5 t) fullShare (iblk m c 5 t) := by
  unfold Dat.leavesExact; rw [liveAt 5 (by decide) t, after5]
theorem leaves6 (c : Dev nD) (t : Fin cfg0.N) : (dats m 0 c).leavesExact 6 t = owns (c : Thread nD τ) (ms6 t) fullShare (iblk m c 6 t) := by
  unfold Dat.leavesExact; rw [liveAt 6 (by decide) t, after6]
theorem leaves7 (c : Dev nD) (t : Fin cfg0.N) : (dats m 0 c).leavesExact 7 t = owns (c : Thread nD τ) (ms7 t) fullShare (iblk m c 7 t) := by
  unfold Dat.leavesExact; rw [liveAt 7 (by decide) t, after7]
theorem leaves8 (c : Dev nD) (t : Fin cfg0.N) : (dats m 0 c).leavesExact 8 t = owns (c : Thread nD τ) (ms8 t) fullShare (iblk m c 8 t) := by
  unfold Dat.leavesExact; rw [liveAt 8 (by decide) t, after8]
theorem leaves9 (c : Dev nD) (t : Fin cfg0.N) : (dats m 0 c).leavesExact 9 t = owns (c : Thread nD τ) (ms9 t) fullShare (iblk m c 9 t) := by
  unfold Dat.leavesExact; rw [liveAt 9 (by decide) t, after9]
theorem leaves10 (c : Dev nD) (t : Fin cfg0.N) : (dats m 0 c).leavesExact 10 t = owns (c : Thread nD τ) (ms10 t) fullShare (iblk m c 10 t) := by
  unfold Dat.leavesExact; rw [liveAt 10 (by decide) t, after10]
theorem leaves11 (c : Dev nD) (t : Fin cfg0.N) : (dats m 0 c).leavesExact 11 t = owns (c : Thread nD τ) (ms11 t) fullShare (iblk m c 11 t) := by
  unfold Dat.leavesExact; rw [liveAt 11 (by decide) t, after11]
theorem leaves12 (c : Dev nD) (t : Fin cfg0.N) : (dats m 0 c).leavesExact 12 t = owns (c : Thread nD τ) (ms12 t) fullShare (iblk m c 12 t) := by
  unfold Dat.leavesExact; rw [liveAt 12 (by decide) t, after12]
theorem leaves13 (c : Dev nD) (t : Fin cfg0.N) : (dats m 0 c).leavesExact 13 t = owns (c : Thread nD τ) (ms13 t) fullShare (iblk m c 13 t) := by
  unfold Dat.leavesExact; rw [liveAt 13 (by decide) t, after13]
theorem leaves14 (c : Dev nD) (t : Fin cfg0.N) : (dats m 0 c).leavesExact 14 t = owns (c : Thread nD τ) (ms14 t) fullShare (iblk m c 14 t) := by
  unfold Dat.leavesExact; rw [liveAt 14 (by decide) t, after14]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms15 t) fullShare d))

set_option maxHeartbeats 4000000 in
/-- The body at any point: the closed forms of the four conditions say which control case the point is in, and that
    case's run applies; the invariant passes through; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, leaves9, leaves10, leaves11, leaves12, leaves13, leaves14]
  rw [show (dats m 0 c).Φ t.castSucc = Pipeline.ΦA spec0 c from rfl, PhiA_eq]
  have hN : t.val < 4 := lt_of_lt_of_eq t.isLt (show cfg0.N = 4 from N_0)
  by_cases h0 : t.val = 0
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runA c (grid0.coords t) _ _ _ _ _ _ _ _ _ _ _ _ _ _ _ _ _ _ _ _ _ _ _ _ _ _ _ _ _ _ _ _ _ _ _ _ _ _ _ _ ((hcond0 t).mpr (by omega)) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  by_cases h1 : t.val = 1
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runB c (grid0.coords t) _ _ _ _ _ _ _ _ _ _ _ _ _ _ _ _ _ _ _ _ _ _ _ _ _ _ _ _ _ _ _ _ _ _ _ _ _ _ _ _ (fun h => absurd ((hcond0 t).mp h) (by omega)) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  by_cases h2 : t.val = 2
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runC c (grid0.coords t) _ _ _ _ _ _ _ _ _ _ _ _ _ _ _ _ _ _ _ _ _ _ _ _ _ _ _ _ _ _ _ _ _ _ _ _ _ _ _ _ (fun h => absurd ((hcond0 t).mp h) (by omega)) (fun h => absurd ((hcond1 t).mp h) (by omega)) ((hcond2 t).mpr (by omega)) ((hcond3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runD c (grid0.coords t) _ _ _ _ _ _ _ _ _ _ _ _ _ _ _ _ _ _ _ _ _ _ _ _ _ _ _ _ _ _ _ _ _ _ _ _ _ _ _ _ (fun h => absurd ((hcond0 t).mp h) (by omega)) (fun h => absurd ((hcond1 t).mp h) (by omega)) (fun h => absurd ((hcond2 t).mp h) (by omega)) ((hcond3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The library's body obligation, at every point. -/
theorem body_obligation (c : Dev nD) : BodyObligation (dats (F := F) m 0 c) (defs₀ (F := F)) Variants.none () Set.univ forgets0 := fun t => by
  rw [bigSep_W0, bigSep_W0]
  exact sound_body m c t

set_option backward.isDefEq.respectTransparency.types false in
/-- From any memory with zero counters every weakly fair execution of the program on the TensorCores terminates, and in
    every final state every input array of the pipeline is unchanged and every other unscoped buffer is as the region
    found it. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of' m ρ (fun c => (dats m 0 c).toRForget forgets0) (A_eq m) (run_main m ρ)

end Cert.Kernel.Hand

end
-- ==== Proof.KIRuns.lean ====
import proofs.«119914_g24988119728772_cont_9to1_1483_19_alg».proof.Proof.Gen.KernelIdeal.Frame
import proofs.«119914_g24988119728772_cont_9to1_1483_19_alg».proof.Proof.Gen.KernelIdeal.Skeleton
import proofs.«119914_g24988119728772_cont_9to1_1483_19_alg».proof.Proof.Gen.KernelIdeal.Points
import proofs.«119914_g24988119728772_cont_9to1_1483_19_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The four branch conditions of the body, as the skeleton spells them, decided over the four grid points

Point 0 resets the accumulator and looks the embeddings up; points 0 and 1 stream the two blocks of rows in;
point 2 finishes the attribute side; points 2 and 3 stream the two blocks of results out. -/

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := (Scalar.cmpi .ne (Scalar.extui (Scalar.cmpi .eq (BitVec.ofNat 32 (i 0).val) 2#32)) 0#32) = 1#1
abbrev cond3 (i : grid0.Coords) : Prop := k0_cond4 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 2 :=
  (by decide +kernel : ∀ t : Fin grid0.N, cond1 (grid0.coords t) ↔ t.val < 2)
theorem hcond2 : ∀ t : Fin cfg0.N, cond2 (grid0.coords t) ↔ t.val = 2 :=
  (by decide +kernel : ∀ t : Fin grid0.N, cond2 (grid0.coords t) ↔ t.val = 2)
theorem hcond3 : ∀ t : Fin cfg0.N, cond3 (grid0.coords t) ↔ 2 ≤ t.val :=
  (by decide +kernel : ∀ t : Fin grid0.N, cond3 (grid0.coords t) ↔ 2 ≤ t.val)

/-- No input window is ever idle. -/
theorem liveAt : ∀ (w : Fin 16), w.val < 15 → ∀ t : Fin cfg0.N, cfg0.idle w (grid0.coords t) = false := by decide +kernel

/-! ## The staging memrefs the pipeline passes the body at point `t`, and the four scratch operands -/
abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x256 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S5000x256 .f32 := win0_15.stage (cfg0.slots t 15)
abbrev hs15 (t : Fin cfg0.N) : (ms15 t).IsWhole := hstage0_15 ((cfg0.slots t 15).cast nbuf0_15)
abbrev sc0 : Memref sig .tc .vmem S10000x128 .bf16 := Memref.whole cc0_scratch0
abbrev sc1 : Memref sig .tc .vmem S1x128 .f32 := Memref.whole cc0_scratch1
abbrev sc2 : Memref sig .tc .vmem S2x128 .f32 := Memref.whole cc0_scratch2
abbrev sc3 : Memref sig .tc .vmem S32x128 .f32 := Memref.whole cc0_scratch3

/-- What the launch hands the body besides the windows: the four scratch buffers, each whole at some contents, and the
    generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The frame claim's post from a run of relational proof data whose arrays are the region-entry contents: a staged
    argument array is unchanged because no input block is ever written back, an argument no window stages because
    the region does not touch it. -/
theorem frame_of' (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Eq.mp (congrFun ((rdat c).ArrAt_in 0 rfl _) _) ((h c).1 0)).trans ((hA c 0).trans (V_main_arg0 m c)),
      ((h c).2 main_arg1 (Pipeline.mem_restRefs_of main_arg1 (by decide) (by decide))).trans (V_main_arg1 m c),
      (Eq.mp (congrFun ((rdat c).ArrAt_in 2 rfl _) _) ((h c).1 2)).trans ((hA c 2).trans (V_main_arg2 m c)),
      (Eq.mp (congrFun ((rdat c).ArrAt_in 3 rfl _) _) ((h c).1 3)).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Eq.mp (congrFun ((rdat c).ArrAt_in 10 rfl _) _) ((h c).1 10)).trans ((hA c 10).trans (V_main_arg10 m c)),
      (Eq.mp (congrFun ((rdat c).ArrAt_in 13 rfl _) _) ((h c).1 13)).trans ((hA c 13).trans (V_main_arg11 m c)),
      ((h c).2 main_arg12 (Pipeline.mem_restRefs_of main_arg12 (by decide) (by decide))).trans (V_main_arg12 m c)⟩) h

end Cert.KernelIdeal.Hand

end
-- ==== Proof.KIRunA.lean ====
import proofs.«119914_g24988119728772_cont_9to1_1483_19_alg».proof.Proof.KIRuns
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the control case of grid point A: on whole staging memrefs — the fifteen inputs' at their contents, the
    output's and the four scratch buffers at anything — it runs, faults nowhere, and hands every input back as it was,
    the output's buffer and the scratch buffers at some contents. Each branch is decided by the case's hypotheses. -/
theorem runA (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : cond0 i) (hc1 : cond1 i) (hc2 : ¬cond2 i) (hc3 : ¬cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Hand

end
-- ==== Proof.KIRunB.lean ====
import proofs.«119914_g24988119728772_cont_9to1_1483_19_alg».proof.Proof.KIRuns
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the control case of grid point B: on whole staging memrefs — the fifteen inputs' at their contents, the
    output's and the four scratch buffers at anything — it runs, faults nowhere, and hands every input back as it was,
    the output's buffer and the scratch buffers at some contents. Each branch is decided by the case's hypotheses. -/
theorem runB (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : ¬cond0 i) (hc1 : cond1 i) (hc2 : ¬cond2 i) (hc3 : ¬cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Hand

end
-- ==== Proof.KIRunC.lean ====
import proofs.«119914_g24988119728772_cont_9to1_1483_19_alg».proof.Proof.KIRuns
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the control case of grid point C: on whole staging memrefs — the fifteen inputs' at their contents, the
    output's and the four scratch buffers at anything — it runs, faults nowhere, and hands every input back as it was,
    the output's buffer and the scratch buffers at some contents. Each branch is decided by the case's hypotheses. -/
theorem runC (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : ¬cond0 i) (hc1 : ¬cond1 i) (hc2 : cond2 i) (hc3 : cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Hand

end
-- ==== Proof.KIRunD.lean ====
import proofs.«119914_g24988119728772_cont_9to1_1483_19_alg».proof.Proof.KIRuns
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the control case of grid point D: on whole staging memrefs — the fifteen inputs' at their contents, the
    output's and the four scratch buffers at anything — it runs, faults nowhere, and hands every input back as it was,
    the output's buffer and the scratch buffers at some contents. Each branch is decided by the case's hypotheses. -/
theorem runD (c : Dev nD) (i : grid0.Coords) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (hc0 : ¬cond0 i) (hc1 : ¬cond1 i) (hc2 : ¬cond2 i) (hc3 : cond3 i) (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Hand

end
-- ==== Proof.KIFrame.lean ====
import proofs.«119914_g24988119728772_cont_9to1_1483_19_alg».proof.Proof.KIRunA
import proofs.«119914_g24988119728772_cont_9to1_1483_19_alg».proof.Proof.KIRunB
import proofs.«119914_g24988119728772_cont_9to1_1483_19_alg».proof.Proof.KIRunC
import proofs.«119914_g24988119728772_cont_9to1_1483_19_alg».proof.Proof.KIRunD
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The frame: the program runs to the end, faults nowhere, and leaves its argument arrays unchanged

For the frame nothing the body computes needs a name: at every grid point the body runs from ANY contents of the
output's staging buffer and of the four scratch buffers (its loads of them are within bounds whatever they hold), reads its
fifteen input blocks and hands them back untouched. So the output window is forgotten and the region's invariant is the
launch's own at every point. -/

/-- The one output window: nothing of what the kernel leaves in it is named here. -/
def forgets0 : Fin 16 → Bool := fun w => w.val == 15

/-- The proof data on core `c`: the arrays as the region finds them; every input's buffer at its block after the body;
    the output unnamed; the launch's invariant throughout; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

theorem leaves0 (c : Dev nD) (t : Fin cfg0.N) : (dats m 0 c).leavesExact 0 t = owns (c : Thread nD τ) (ms0 t) fullShare (iblk m c 0 t) := by
  unfold Dat.leavesExact; rw [liveAt 0 (by decide) t, after0]
theorem leaves1 (c : Dev nD) (t : Fin cfg0.N) : (dats m 0 c).leavesExact 1 t = owns (c : Thread nD τ) (ms1 t) fullShare (iblk m c 1 t) := by
  unfold Dat.leavesExact; rw [liveAt 1 (by decide) t, after1]
theorem leaves2 (c : Dev nD) (t : Fin cfg0.N) : (dats m 0 c).leavesExact 2 t = owns (c : Thread nD τ) (ms2 t) fullShare (iblk m c 2 t) := by
  unfold Dat.leavesExact; rw [liveAt 2 (by decide) t, after2]
theorem leaves3 (c : Dev nD) (t : Fin cfg0.N) : (dats m 0 c).leavesExact 3 t = owns (c : Thread nD τ) (ms3 t) fullShare (iblk m c 3 t) := by
  unfold Dat.leavesExact; rw [liveAt 3 (by decide) t, after3]
theorem leaves4 (c : Dev nD) (t : Fin cfg0.N) : (dats m 0 c).leavesExact 4 t = owns (c : Thread nD τ) (ms4 t) fullShare (iblk m c 4 t) := by
  unfold Dat.leavesExact; rw [liveAt 4 (by decide) t, after4]
theorem leaves5 (c : Dev nD) (t : Fin cfg0.N) : (dats m 0 c).leavesExact 5 t = owns (c : Thread nD τ) (ms5 t) fullShare (iblk m c 5 t) := by
  unfold Dat.leavesExact; rw [liveAt 5 (by decide) t, after5]
theorem leaves6 (c : Dev nD) (t : Fin cfg0.N) : (dats m 0 c).leavesExact 6 t = owns (c : Thread nD τ) (ms6 t) fullShare (iblk m c 6 t) := by
  unfold Dat.leavesExact; rw [liveAt 6 (by decide) t, after6]
theorem leaves7 (c : Dev nD) (t : Fin cfg0.N) : (dats m 0 c).leavesExact 7 t = owns (c : Thread nD τ) (ms7 t) fullShare (iblk m c 7 t) := by
  unfold Dat.leavesExact; rw [liveAt 7 (by decide) t, after7]
theorem leaves8 (c : Dev nD) (t : Fin cfg0.N) : (dats m 0 c).leavesExact 8 t = owns (c : Thread nD τ) (ms8 t) fullShare (iblk m c 8 t) := by
  unfold Dat.leavesExact; rw [liveAt 8 (by decide) t, after8]
theorem leaves9 (c : Dev nD) (t : Fin cfg0.N) : (dats m 0 c).leavesExact 9 t = owns (c : Thread nD τ) (ms9 t) fullShare (iblk m c 9 t) := by
  unfold Dat.leavesExact; rw [liveAt 9 (by decide) t, after9]
theorem leaves10 (c : Dev nD) (t : Fin cfg0.N) : (dats m 0 c).leavesExact 10 t = owns (c : Thread nD τ) (ms10 t) fullShare (iblk m c 10 t) := by
  unfold Dat.leavesExact; rw [liveAt 10 (by decide) t, after10]
theorem leaves11 (c : Dev nD) (t : Fin cfg0.N) : (dats m 0 c).leavesExact 11 t = owns (c : Thread nD τ) (ms11 t) fullShare (iblk m c 11 t) := by
  unfold Dat.leavesExact; rw [liveAt 11 (by decide) t, after11]
theorem leaves12 (c : Dev nD) (t : Fin cfg0.N) : (dats m 0 c).leavesExact 12 t = owns (c : Thread nD τ) (ms12 t) fullShare (iblk m c 12 t) := by
  unfold Dat.leavesExact; rw [liveAt 12 (by decide) t, after12]
theorem leaves13 (c : Dev nD) (t : Fin cfg0.N) : (dats m 0 c).leavesExact 13 t = owns (c : Thread nD τ) (ms13 t) fullShare (iblk m c 13 t) := by
  unfold Dat.leavesExact; rw [liveAt 13 (by decide) t, after13]
theorem leaves14 (c : Dev nD) (t : Fin cfg0.N) : (dats m 0 c).leavesExact 14 t = owns (c : Thread nD τ) (ms14 t) fullShare (iblk m c 14 t) := by
  unfold Dat.leavesExact; rw [liveAt 14 (by decide) t, after14]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms15 t) fullShare d))

set_option maxHeartbeats 4000000 in
/-- The body at any point: the closed forms of the four conditions say which control case the point is in, and that
    case's run applies; the invariant passes through; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, leaves9, leaves10, leaves11, leaves12, leaves13, leaves14]
  rw [show (dats m 0 c).Φ t.castSucc = Pipeline.ΦA spec0 c from rfl, PhiA_eq]
  have hN : t.val < 4 := lt_of_lt_of_eq t.isLt (show cfg0.N = 4 from N_0)
  by_cases h0 : t.val = 0
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runA c (grid0.coords t) _ _ _ _ _ _ _ _ _ _ _ _ _ _ _ _ _ _ _ _ _ _ _ _ _ _ _ _ _ _ _ _ _ _ _ _ _ _ _ _ ((hcond0 t).mpr (by omega)) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  by_cases h1 : t.val = 1
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runB c (grid0.coords t) _ _ _ _ _ _ _ _ _ _ _ _ _ _ _ _ _ _ _ _ _ _ _ _ _ _ _ _ _ _ _ _ _ _ _ _ _ _ _ _ (fun h => absurd ((hcond0 t).mp h) (by omega)) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  by_cases h2 : t.val = 2
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runC c (grid0.coords t) _ _ _ _ _ _ _ _ _ _ _ _ _ _ _ _ _ _ _ _ _ _ _ _ _ _ _ _ _ _ _ _ _ _ _ _ _ _ _ _ (fun h => absurd ((hcond0 t).mp h) (by omega)) (fun h => absurd ((hcond1 t).mp h) (by omega)) ((hcond2 t).mpr (by omega)) ((hcond3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  ·
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runD c (grid0.coords t) _ _ _ _ _ _ _ _ _ _ _ _ _ _ _ _ _ _ _ _ _ _ _ _ _ _ _ _ _ _ _ _ _ _ _ _ _ _ _ _ (fun h => absurd ((hcond0 t).mp h) (by omega)) (fun h => absurd ((hcond1 t).mp h) (by omega)) (fun h => absurd ((hcond2 t).mp h) (by omega)) ((hcond3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, S0, S1, S2, S3⟩
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The library's body obligation, at every point. -/
theorem body_obligation (c : Dev nD) : BodyObligation (dats (F := F) m 0 c) (defs₀ (F := F)) Variants.none () Set.univ forgets0 := fun t => by
  rw [bigSep_W0, bigSep_W0]
  exact sound_body m c t

set_option backward.isDefEq.respectTransparency.types false in
/-- From any memory with zero counters every weakly fair execution of the program on the TensorCores terminates, and in
    every final state every input array of the pipeline is unchanged and every other unscoped buffer is as the region
    found it. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of' m ρ (fun c => (dats m 0 c).toRForget forgets0) (A_eq m) (run_main m ρ)

end Cert.KernelIdeal.Hand

end
-- ==== Proof.RefOps.lean ====
/-
  The reference program's host operations as one straight line: the outlined functions (the row gathers with their
  index normalisation and out-of-range fill, the rectifiers) are written out at their call sites over each call's
  own buffers, and the line is cut into consecutive windows, one per call or per run of plain operations.
-/
import proofs.«119914_g24988119728772_cont_9to1_1483_19_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1 of the line: 23 operations. -/
abbrev w1 : List (HloOp τ sig (Elt F)) :=
  [ StableHlo.TRef.nullary main_call0.c (constantI S_ 32 0#32),
    StableHlo.TRef.unary main_call0.c main_call0.v0 (broadcastInDim S32 ![] bcast_S_S32),
    StableHlo.TRef.binary (.of main_arg1 : StableHlo.TRef sig ⟨S32, .i32⟩) main_call0.v0 main_call0.v1 (cmpi .slt),
    StableHlo.TRef.nullary main_call0.c_0 (constantI S_ 32 512#32),
    StableHlo.TRef.unary main_call0.c_0 main_call0.v2 (broadcastInDim S32 ![] bcast_S_S32),
    StableHlo.TRef.binary (.of main_arg1 : StableHlo.TRef sig ⟨S32, .i32⟩) main_call0.v2 main_call0.v3 addi,
    StableHlo.TRef.ternary main_call0.v1 main_call0.v3 (.of main_arg1 : StableHlo.TRef sig ⟨S32, .i32⟩) main_call0.call0.v0 select,
    StableHlo.TRef.unary main_call0.call0.v0 main_call0.v5 (broadcastInDim S32x1 ![0] bcast_S32_S32x1_0),
    StableHlo.TRef.nullary main_call0.c_1 (constantI S1 32 511#32),
    StableHlo.TRef.nullary main_call0.c_2 (constantI S_ 32 0#32),
    StableHlo.TRef.unary main_call0.c_2 main_call0.v6 (broadcastInDim S32x1 ![] bcast_S_S32x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S32x1 ![0, 1] bcast_S1x1_S32x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S32x1_S32_d1 h_S_),
    StableHlo.TRef.binary (.of main_arg2 : StableHlo.TRef sig ⟨S512x128, .f32⟩) main_call0.v5 main_call0.v13 (fun x i => Host.gather gather_S512x128_S32x1_S32x128_1_0_n_n_0_1_1128 x i),
    StableHlo.TRef.unary main_call0.v12 main_call0.v14 (broadcastInDim S32x128 ![0] bcast_S32_S32x128_0),
    StableHlo.TRef.nullary main_call0.cst (constant S_ .f32 0x7FC00000#32),
    StableHlo.TRef.unary main_call0.cst main_call0.v15 (broadcastInDim S32x128 ![] bcast_S_S32x128),
    StableHlo.TRef.ternary main_call0.v14 main_call0.v13 main_call0.v15 main_call0.v16 select ]

/-- Window 2 of the line: 7 operations. -/
abbrev w2 : List (HloOp τ sig (Elt F)) :=
  [ StableHlo.nullary main_v1 (iotaInDim S10000 32 0),
    StableHlo.unary main_v1 main_v2 (broadcastInDim S10000x32 ![0] bcast_S10000_S10000x32_0 : (⟨S10000, .i32⟩ : BufTy).Contents (Elt F) → (⟨S10000x32, .i32⟩ : BufTy).Contents (Elt F)),
    StableHlo.reshape main_v2 main_v3 rfl shapeCasts_S10000x32_S320000,
    StableHlo.nullary main_v4 (iotaInDim S32 32 0),
    StableHlo.reshape main_v4 main_v5 rfl shapeCasts_S32_S1x32,
    StableHlo.unary main_v5 main_v6 (broadcastInDim S10000x32 ![0, 1] bcast_S1x32_S10000x32_0_1 : (⟨S1x32, .i32⟩ : BufTy).Contents (Elt F) → (⟨S10000x32, .i32⟩ : BufTy).Contents (Elt F)),
    StableHlo.reshape main_v6 main_v7 rfl shapeCasts_S10000x32_S320000 ]

/-- Window 3 of the line: 4 operations. -/
abbrev w3 : List (HloOp τ sig (Elt F)) :=
  [ StableHlo.binary main_arg0 main_arg3 main_v8 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg4 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S10000x128 ![0, 1] bcast_S1x128_S10000x128_0_1 : (⟨S1x128, .f32⟩ : BufTy).Contents (Elt F) → (⟨S10000x128, .f32⟩ : BufTy).Contents (Elt F)),
    StableHlo.binary main_v8 main_v10 main_v11 (addf : (⟨S10000x128, .f32⟩ : BufTy).Contents (Elt F) → (⟨S10000x128, .f32⟩ : BufTy).Contents (Elt F) → (⟨S10000x128, .f32⟩ : BufTy).Contents (Elt F)) ]

/-- Window 4 of the line: 23 operations. -/
abbrev w4 : List (HloOp τ sig (Elt F)) :=
  [ StableHlo.TRef.nullary main_call1.c (constantI S_ 32 0#32),
    StableHlo.TRef.unary main_call1.c main_call1.v0 (broadcastInDim S320000 ![] bcast_S_S320000),
    StableHlo.TRef.binary (.of main_v3 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_v3 : StableHlo.TRef sig ⟨S320000, .i32⟩) main_call1.v2 main_call1.v3 addi,
    StableHlo.TRef.ternary main_call1.v1 main_call1.v3 (.of main_v3 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_v11 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select ]

/-- Window 5 of the line: 7 operations. -/
abbrev w5 : List (HloOp τ sig (Elt F)) :=
  [ StableHlo.nullary main_cst (constant S_ .f32 0x00000000#32),
    StableHlo.unary main_cst main_v13 (broadcastInDim S32x128 ![] bcast_S_S32x128 : (⟨S_, .f32⟩ : BufTy).Contents (Elt F) → (⟨S32x128, .f32⟩ : BufTy).Contents (Elt F)),
    StableHlo.unary main_v7 main_v14 (broadcastInDim S320000x1 ![0] bcast_S320000_S320000x1_0 : (⟨S320000, .i32⟩ : BufTy).Contents (Elt F) → (⟨S320000x1, .i32⟩ : BufTy).Contents (Elt F)),
    StableHlo.ternary main_v13 main_v14 main_v12 main_v15 ((fun x i u => Host.scatterAdd scatter_S32x128_S320000x1_S320000x128_1_0_0_1 x i u) : (⟨S32x128, .f32⟩ : BufTy).Contents (Elt F) → (⟨S320000x1, .i32⟩ : BufTy).Contents (Elt F) → (⟨S320000x128, .f32⟩ : BufTy).Contents (Elt F) → (⟨S32x128, .f32⟩ : BufTy).Contents (Elt F)),
    StableHlo.nullary main_cst_0 (constant S_ .f32 0x461C4000#32),
    StableHlo.unary main_cst_0 main_v16 (broadcastInDim S32x128 ![] bcast_S_S32x128 : (⟨S_, .f32⟩ : BufTy).Contents (Elt F) → (⟨S32x128, .f32⟩ : BufTy).Contents (Elt F)),
    StableHlo.binary main_v15 main_v16 main_v17 (Host.divf : (⟨S32x128, .f32⟩ : BufTy).Contents (Elt F) → (⟨S32x128, .f32⟩ : BufTy).Contents (Elt F) → (⟨S32x128, .f32⟩ : BufTy).Contents (Elt F)) ]

/-- Window 6 of the line: 23 operations. -/
abbrev w6 : List (HloOp τ sig (Elt F)) :=
  [ StableHlo.TRef.nullary main_call2.c (constantI S_ 32 0#32),
    StableHlo.TRef.unary main_call2.c main_call2.v0 (broadcastInDim S320000 ![] bcast_S_S320000),
    StableHlo.TRef.binary (.of main_v7 : StableHlo.TRef sig ⟨S320000, .i32⟩) main_call2.v0 main_call2.v1 (cmpi .slt),
    StableHlo.TRef.nullary main_call2.c_0 (constantI S_ 32 32#32),
    StableHlo.TRef.unary main_call2.c_0 main_call2.v2 (broadcastInDim S320000 ![] bcast_S_S320000),
    StableHlo.TRef.binary (.of main_v7 : StableHlo.TRef sig ⟨S320000, .i32⟩) main_call2.v2 main_call2.v3 addi,
    StableHlo.TRef.ternary main_call2.v1 main_call2.v3 (.of main_v7 : StableHlo.TRef sig ⟨S320000, .i32⟩) main_call2.call0.v0 select,
    StableHlo.TRef.unary main_call2.call0.v0 main_call2.v5 (broadcastInDim S320000x1 ![0] bcast_S320000_S320000x1_0),
    StableHlo.TRef.nullary main_call2.c_1 (constantI S1 32 31#32),
    StableHlo.TRef.nullary main_call2.c_2 (constantI S_ 32 0#32),
    StableHlo.TRef.unary main_call2.c_2 main_call2.v6 (broadcastInDim S320000x1 ![] bcast_S_S320000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S320000x1 ![0, 1] bcast_S1x1_S320000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S320000x1_S320000_d1 h_S_),
    StableHlo.TRef.binary (.of main_v0 : StableHlo.TRef sig ⟨S32x128, .f32⟩) main_call2.v5 main_call2.v13 (fun x i => Host.gather gather_S32x128_S320000x1_S320000x128_1_0_n_n_0_1_1128 x i),
    StableHlo.TRef.unary main_call2.v12 main_call2.v14 (broadcastInDim S320000x128 ![0] bcast_S320000_S320000x128_0),
    StableHlo.TRef.nullary main_call2.cst (constant S_ .f32 0x7FC00000#32),
    StableHlo.TRef.unary main_call2.cst main_call2.v15 (broadcastInDim S320000x128 ![] bcast_S_S320000x128),
    StableHlo.TRef.ternary main_call2.v14 main_call2.v13 main_call2.v15 main_call2.v16 select ]

/-- Window 7 of the line: 7 operations. -/
abbrev w7 : List (HloOp τ sig (Elt F)) :=
  [ StableHlo.nullary main_cst_1 (constant S_ .f32 0x00000000#32),
    StableHlo.unary main_cst_1 main_v19 (broadcastInDim S10000x128 ![] bcast_S_S10000x128 : (⟨S_, .f32⟩ : BufTy).Contents (Elt F) → (⟨S10000x128, .f32⟩ : BufTy).Contents (Elt F)),
    StableHlo.unary main_v3 main_v20 (broadcastInDim S320000x1 ![0] bcast_S320000_S320000x1_0 : (⟨S320000, .i32⟩ : BufTy).Contents (Elt F) → (⟨S320000x1, .i32⟩ : BufTy).Contents (Elt F)),
    StableHlo.ternary main_v19 main_v20 main_v18 main_v21 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    StableHlo.nullary main_cst_2 (constant S_ .f32 0x42000000#32),
    StableHlo.unary main_cst_2 main_v22 (broadcastInDim S10000x128 ![] bcast_S_S10000x128 : (⟨S_, .f32⟩ : BufTy).Contents (Elt F) → (⟨S10000x128, .f32⟩ : BufTy).Contents (Elt F)),
    StableHlo.binary main_v21 main_v22 main_v23 (Host.divf : (⟨S10000x128, .f32⟩ : BufTy).Contents (Elt F) → (⟨S10000x128, .f32⟩ : BufTy).Contents (Elt F) → (⟨S10000x128, .f32⟩ : BufTy).Contents (Elt F)) ]

/-- Window 8 of the line: 12 operations. -/
abbrev w8 : List (HloOp τ sig (Elt F)) :=
  [ StableHlo.unary main_arg5 main_v24 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v24 main_v25 rfl shapeCasts_S1x128x128_S128x128,
    StableHlo.binary main_v17 main_v25 main_v26 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    StableHlo.unary main_arg6 main_v27 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v27 main_v28 rfl shapeCasts_S1x128x128_S128x128,
    StableHlo.binary main_v0 main_v28 main_v29 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    StableHlo.binary main_v26 main_v29 main_v30 (addf : (⟨S32x128, .f32⟩ : BufTy).Contents (Elt F) → (⟨S32x128, .f32⟩ : BufTy).Contents (Elt F) → (⟨S32x128, .f32⟩ : BufTy).Contents (Elt F)),
    StableHlo.unary main_arg7 main_v31 ((extractStridedSlice S1x128 ![0, 0] · slices_S2x128_S1x128_0_0) : (⟨S2x128, .f32⟩ : BufTy).Contents (Elt F) → (⟨S1x128, .f32⟩ : BufTy).Contents (Elt F)),
    StableHlo.reshape main_v31 main_v32 rfl shapeCasts_S1x128_S128,
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S32x128 ![0, 1] bcast_S1x128_S32x128_0_1 : (⟨S1x128, .f32⟩ : BufTy).Contents (Elt F) → (⟨S32x128, .f32⟩ : BufTy).Contents (Elt F)),
    StableHlo.binary main_v30 main_v34 main_v35 (addf : (⟨S32x128, .f32⟩ : BufTy).Contents (Elt F) → (⟨S32x128, .f32⟩ : BufTy).Contents (Elt F) → (⟨S32x128, .f32⟩ : BufTy).Contents (Elt F)) ]

/-- Window 9 of the line: 3 operations. -/
abbrev w9 : List (HloOp τ sig (Elt F)) :=
  [ StableHlo.TRef.nullary main_call3.cst (constant S_ .f32 0x00000000#32),
    StableHlo.TRef.unary main_call3.cst main_call3.v0 (broadcastInDim S32x128 ![] bcast_S_S32x128),
    StableHlo.TRef.binary (.of main_v35 : StableHlo.TRef sig ⟨S32x128, .f32⟩) main_call3.v0 main_call3.v1 maximumf ]

/-- Window 10 of the line: 12 operations. -/
abbrev w10 : List (HloOp τ sig (Elt F)) :=
  [ StableHlo.unary main_arg8 main_v37 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v37 main_v38 rfl shapeCasts_S1x128x128_S128x128,
    StableHlo.binary main_v23 main_v38 main_v39 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg9 main_v40 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v40 main_v41 rfl shapeCasts_S1x128x128_S128x128,
    StableHlo.binary main_v11 main_v41 main_v42 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_v39 main_v42 main_v43 (addf : (⟨S10000x128, .f32⟩ : BufTy).Contents (Elt F) → (⟨S10000x128, .f32⟩ : BufTy).Contents (Elt F) → (⟨S10000x128, .f32⟩ : BufTy).Contents (Elt F)),
    StableHlo.unary main_arg10 main_v44 ((extractStridedSlice S1x128 ![0, 0] · slices_S2x128_S1x128_0_0) : (⟨S2x128, .f32⟩ : BufTy).Contents (Elt F) → (⟨S1x128, .f32⟩ : BufTy).Contents (Elt F)),
    StableHlo.reshape main_v44 main_v45 rfl shapeCasts_S1x128_S128,
    StableHlo.unary main_v45 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S10000x128 ![0, 1] bcast_S1x128_S10000x128_0_1 : (⟨S1x128, .f32⟩ : BufTy).Contents (Elt F) → (⟨S10000x128, .f32⟩ : BufTy).Contents (Elt F)),
    StableHlo.binary main_v43 main_v47 main_v48 (addf : (⟨S10000x128, .f32⟩ : BufTy).Contents (Elt F) → (⟨S10000x128, .f32⟩ : BufTy).Contents (Elt F) → (⟨S10000x128, .f32⟩ : BufTy).Contents (Elt F)) ]

/-- Window 11 of the line: 3 operations. -/
abbrev w11 : List (HloOp τ sig (Elt F)) :=
  [ StableHlo.TRef.nullary main_call4.cst (constant S_ .f32 0x00000000#32),
    StableHlo.TRef.unary main_call4.cst main_call4.v0 (broadcastInDim S10000x128 ![] bcast_S_S10000x128),
    StableHlo.TRef.binary (.of main_v48 : StableHlo.TRef sig ⟨S10000x128, .f32⟩) main_call4.v0 main_call4.v1 maximumf ]

/-- Window 12 of the line: 23 operations. -/
abbrev w12 : List (HloOp τ sig (Elt F)) :=
  [ StableHlo.TRef.nullary main_call5.c (constantI S_ 32 0#32),
    StableHlo.TRef.unary main_call5.c main_call5.v0 (broadcastInDim S320000 ![] bcast_S_S320000),
    StableHlo.TRef.binary (.of main_v3 : StableHlo.TRef sig ⟨S320000, .i32⟩) main_call5.v0 main_call5.v1 (cmpi .slt),
    StableHlo.TRef.nullary main_call5.c_0 (constantI S_ 32 10000#32),
    StableHlo.TRef.unary main_call5.c_0 main_call5.v2 (broadcastInDim S320000 ![] bcast_S_S320000),
    StableHlo.TRef.binary (.of main_v3 : StableHlo.TRef sig ⟨S320000, .i32⟩) main_call5.v2 main_call5.v3 addi,
    StableHlo.TRef.ternary main_call5.v1 main_call5.v3 (.of main_v3 : StableHlo.TRef sig ⟨S320000, .i32⟩) main_call5.call0.v0 select,
    StableHlo.TRef.unary main_call5.call0.v0 main_call5.v5 (broadcastInDim S320000x1 ![0] bcast_S320000_S320000x1_0),
    StableHlo.TRef.nullary main_call5.c_1 (constantI S1 32 9999#32),
    StableHlo.TRef.nullary main_call5.c_2 (constantI S_ 32 0#32),
    StableHlo.TRef.unary main_call5.c_2 main_call5.v6 (broadcastInDim S320000x1 ![] bcast_S_S320000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S320000x1 ![0, 1] bcast_S1x1_S320000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S320000x1_S320000_d1 h_S_),
    StableHlo.TRef.binary (.of main_v49 : StableHlo.TRef sig ⟨S10000x128, .f32⟩) main_call5.v5 main_call5.v13 (fun x i => Host.gather gather_S10000x128_S320000x1_S320000x128_1_0_n_n_0_1_1128 x i),
    StableHlo.TRef.unary main_call5.v12 main_call5.v14 (broadcastInDim S320000x128 ![0] bcast_S320000_S320000x128_0),
    StableHlo.TRef.nullary main_call5.cst (constant S_ .f32 0x7FC00000#32),
    StableHlo.TRef.unary main_call5.cst main_call5.v15 (broadcastInDim S320000x128 ![] bcast_S_S320000x128),
    StableHlo.TRef.ternary main_call5.v14 main_call5.v13 main_call5.v15 main_call5.v16 select ]

/-- Window 13 of the line: 5 operations. -/
abbrev w13 : List (HloOp τ sig (Elt F)) :=
  [ StableHlo.nullary main_cst_3 (constant S_ .f32 0x00000000#32),
    StableHlo.unary main_cst_3 main_v51 (broadcastInDim S32x128 ![] bcast_S_S32x128 : (⟨S_, .f32⟩ : BufTy).Contents (Elt F) → (⟨S32x128, .f32⟩ : BufTy).Contents (Elt F)),
    StableHlo.unary main_v7 main_v52 (broadcastInDim S320000x1 ![0] bcast_S320000_S320000x1_0 : (⟨S320000, .i32⟩ : BufTy).Contents (Elt F) → (⟨S320000x1, .i32⟩ : BufTy).Contents (Elt F)),
    StableHlo.ternary main_v51 main_v52 main_v50 main_v53 ((fun x i u => Host.scatterAdd scatter_S32x128_S320000x1_S320000x128_1_0_0_1 x i u) : (⟨S32x128, .f32⟩ : BufTy).Contents (Elt F) → (⟨S320000x1, .i32⟩ : BufTy).Contents (Elt F) → (⟨S320000x128, .f32⟩ : BufTy).Contents (Elt F) → (⟨S32x128, .f32⟩ : BufTy).Contents (Elt F)),
    StableHlo.nullary main_cst_4 (constant S_ .f32 0x461C4000#32) ]

/-- Window 14 of the line: 2 operations. -/
abbrev w14 : List (HloOp τ sig (Elt F)) :=
  [ StableHlo.unary main_cst_4 main_v54 (broadcastInDim S32x128 ![] bcast_S_S32x128 : (⟨S_, .f32⟩ : BufTy).Contents (Elt F) → (⟨S32x128, .f32⟩ : BufTy).Contents (Elt F)),
    StableHlo.binary main_v53 main_v54 main_v55 (Host.divf : (⟨S32x128, .f32⟩ : BufTy).Contents (Elt F) → (⟨S32x128, .f32⟩ : BufTy).Contents (Elt F) → (⟨S32x128, .f32⟩ : BufTy).Contents (Elt F)) ]

/-- Window 15 of the line: 23 operations. -/
abbrev w15 : List (HloOp τ sig (Elt F)) :=
  [ StableHlo.TRef.nullary main_call6.c (constantI S_ 32 0#32),
    StableHlo.TRef.unary main_call6.c main_call6.v0 (broadcastInDim S320000 ![] bcast_S_S320000),
    StableHlo.TRef.binary (.of main_v7 : StableHlo.TRef sig ⟨S320000, .i32⟩) main_call6.v0 main_call6.v1 (cmpi .slt),
    StableHlo.TRef.nullary main_call6.c_0 (constantI S_ 32 32#32),
    StableHlo.TRef.unary main_call6.c_0 main_call6.v2 (broadcastInDim S320000 ![] bcast_S_S320000),
    StableHlo.TRef.binary (.of main_v7 : StableHlo.TRef sig ⟨S320000, .i32⟩) main_call6.v2 main_call6.v3 addi,
    StableHlo.TRef.ternary main_call6.v1 main_call6.v3 (.of main_v7 : StableHlo.TRef sig ⟨S320000, .i32⟩) main_call6.call0.v0 select,
    StableHlo.TRef.unary main_call6.call0.v0 main_call6.v5 (broadcastInDim S320000x1 ![0] bcast_S320000_S320000x1_0),
    StableHlo.TRef.nullary main_call6.c_1 (constantI S1 32 31#32),
    StableHlo.TRef.nullary main_call6.c_2 (constantI S_ 32 0#32),
    StableHlo.TRef.unary main_call6.c_2 main_call6.v6 (broadcastInDim S320000x1 ![] bcast_S_S320000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S320000x1 ![0, 1] bcast_S1x1_S320000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S320000x1_S320000_d1 h_S_),
    StableHlo.TRef.binary (.of main_v36 : StableHlo.TRef sig ⟨S32x128, .f32⟩) main_call6.v5 main_call6.v13 (fun x i => Host.gather gather_S32x128_S320000x1_S320000x128_1_0_n_n_0_1_1128 x i),
    StableHlo.TRef.unary main_call6.v12 main_call6.v14 (broadcastInDim S320000x128 ![0] bcast_S320000_S320000x128_0),
    StableHlo.TRef.nullary main_call6.cst (constant S_ .f32 0x7FC00000#32),
    StableHlo.TRef.unary main_call6.cst main_call6.v15 (broadcastInDim S320000x128 ![] bcast_S_S320000x128),
    StableHlo.TRef.ternary main_call6.v14 main_call6.v13 main_call6.v15 main_call6.v16 select ]

/-- Window 16 of the line: 7 operations. -/
abbrev w16 : List (HloOp τ sig (Elt F)) :=
  [ StableHlo.nullary main_cst_5 (constant S_ .f32 0x00000000#32),
    StableHlo.unary main_cst_5 main_v57 (broadcastInDim S10000x128 ![] bcast_S_S10000x128 : (⟨S_, .f32⟩ : BufTy).Contents (Elt F) → (⟨S10000x128, .f32⟩ : BufTy).Contents (Elt F)),
    StableHlo.unary main_v3 main_v58 (broadcastInDim S320000x1 ![0] bcast_S320000_S320000x1_0 : (⟨S320000, .i32⟩ : BufTy).Contents (Elt F) → (⟨S320000x1, .i32⟩ : BufTy).Contents (Elt F)),
    StableHlo.ternary main_v57 main_v58 main_v56 main_v59 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    StableHlo.nullary main_cst_6 (constant S_ .f32 0x42000000#32),
    StableHlo.unary main_cst_6 main_v60 (broadcastInDim S10000x128 ![] bcast_S_S10000x128 : (⟨S_, .f32⟩ : BufTy).Contents (Elt F) → (⟨S10000x128, .f32⟩ : BufTy).Contents (Elt F)),
    StableHlo.binary main_v59 main_v60 main_v61 (Host.divf : (⟨S10000x128, .f32⟩ : BufTy).Contents (Elt F) → (⟨S10000x128, .f32⟩ : BufTy).Contents (Elt F) → (⟨S10000x128, .f32⟩ : BufTy).Contents (Elt F)) ]

/-- Window 17 of the line: 12 operations. -/
abbrev w17 : List (HloOp τ sig (Elt F)) :=
  [ StableHlo.unary main_arg5 main_v62 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v62 main_v63 rfl shapeCasts_S1x128x128_S128x128,
    StableHlo.binary main_v55 main_v63 main_v64 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    StableHlo.unary main_arg6 main_v65 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v65 main_v66 rfl shapeCasts_S1x128x128_S128x128,
    StableHlo.binary main_v36 main_v66 main_v67 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    StableHlo.binary main_v64 main_v67 main_v68 (addf : (⟨S32x128, .f32⟩ : BufTy).Contents (Elt F) → (⟨S32x128, .f32⟩ : BufTy).Contents (Elt F) → (⟨S32x128, .f32⟩ : BufTy).Contents (Elt F)),
    StableHlo.unary main_arg7 main_v69 ((extractStridedSlice S1x128 ![1, 0] · slices_S2x128_S1x128_1_0) : (⟨S2x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S32x128 ![0, 1] bcast_S1x128_S32x128_0_1 : (⟨S1x128, .f32⟩ : BufTy).Contents (Elt F) → (⟨S32x128, .f32⟩ : BufTy).Contents (Elt F)),
    StableHlo.binary main_v68 main_v72 main_v73 (addf : (⟨S32x128, .f32⟩ : BufTy).Contents (Elt F) → (⟨S32x128, .f32⟩ : BufTy).Contents (Elt F) → (⟨S32x128, .f32⟩ : BufTy).Contents (Elt F)) ]

/-- Window 18 of the line: 3 operations. -/
abbrev w18 : List (HloOp τ sig (Elt F)) :=
  [ StableHlo.TRef.nullary main_call7.cst (constant S_ .f32 0x00000000#32),
    StableHlo.TRef.unary main_call7.cst main_call7.v0 (broadcastInDim S32x128 ![] bcast_S_S32x128),
    StableHlo.TRef.binary (.of main_v73 : StableHlo.TRef sig ⟨S32x128, .f32⟩) main_call7.v0 main_call7.v1 maximumf ]

/-- Window 19 of the line: 12 operations. -/
abbrev w19 : List (HloOp τ sig (Elt F)) :=
  [ StableHlo.unary main_arg8 main_v75 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v75 main_v76 rfl shapeCasts_S1x128x128_S128x128,
    StableHlo.binary main_v61 main_v76 main_v77 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg9 main_v78 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v78 main_v79 rfl shapeCasts_S1x128x128_S128x128,
    StableHlo.binary main_v49 main_v79 main_v80 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_v77 main_v80 main_v81 (addf : (⟨S10000x128, .f32⟩ : BufTy).Contents (Elt F) → (⟨S10000x128, .f32⟩ : BufTy).Contents (Elt F) → (⟨S10000x128, .f32⟩ : BufTy).Contents (Elt F)),
    StableHlo.unary main_arg10 main_v82 ((extractStridedSlice S1x128 ![1, 0] · slices_S2x128_S1x128_1_0) : (⟨S2x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S10000x128 ![0, 1] bcast_S1x128_S10000x128_0_1 : (⟨S1x128, .f32⟩ : BufTy).Contents (Elt F) → (⟨S10000x128, .f32⟩ : BufTy).Contents (Elt F)),
    StableHlo.binary main_v81 main_v85 main_v86 (addf : (⟨S10000x128, .f32⟩ : BufTy).Contents (Elt F) → (⟨S10000x128, .f32⟩ : BufTy).Contents (Elt F) → (⟨S10000x128, .f32⟩ : BufTy).Contents (Elt F)) ]

/-- Window 20 of the line: 3 operations. -/
abbrev w20 : List (HloOp τ sig (Elt F)) :=
  [ StableHlo.TRef.nullary main_call8.cst (constant S_ .f32 0x00000000#32),
    StableHlo.TRef.unary main_call8.cst main_call8.v0 (broadcastInDim S10000x128 ![] bcast_S_S10000x128),
    StableHlo.TRef.binary (.of main_v86 : StableHlo.TRef sig ⟨S10000x128, .f32⟩) main_call8.v0 main_call8.v1 maximumf ]

/-- Window 21 of the line: 4 operations. -/
abbrev w21 : List (HloOp τ sig (Elt F)) :=
  [ StableHlo.binary main_v87 main_arg11 main_v88 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.unary main_arg12 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S10000x256 ![0, 1] bcast_S1x256_S10000x256_0_1 : (⟨S1x256, .f32⟩ : BufTy).Contents (Elt F) → (⟨S10000x256, .f32⟩ : BufTy).Contents (Elt F)),
    StableHlo.binary main_v88 main_v90 main_v91 (addf : (⟨S10000x256, .f32⟩ : BufTy).Contents (Elt F) → (⟨S10000x256, .f32⟩ : BufTy).Contents (Elt F) → (⟨S10000x256, .f32⟩ : BufTy).Contents (Elt F)) ]

/-- The first sixty statements' operations. -/
abbrev opsP0 : List (HloOp τ sig (Elt F)) :=
  w1 ++ (w2 ++ (w3 ++ (w4 ++ (w5 ++ (w6 ++ (w7 ++ (w8 ++ (w9 ++ (w10 ++ (w11 ++ (w12 ++ (w13))))))))))))

/-- The remaining statements' operations. -/
abbrev opsP1 : List (HloOp τ sig (Elt F)) :=
  w14 ++ (w15 ++ (w16 ++ (w17 ++ (w18 ++ (w19 ++ (w20 ++ (w21)))))))

/-- The whole line. -/
abbrev ops : List (HloOp τ sig (Elt F)) := opsP0 ++ opsP1

theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w2_sub : (w2 : List (HloOp τ sig (Elt F))).Forall fun op => op.bufs ⊆ tcRefs τ sig :=
  ⟨nullary_bufs_sub .., unary_bufs_sub .., reshape_bufs_sub .., nullary_bufs_sub .., reshape_bufs_sub .., unary_bufs_sub .., reshape_bufs_sub ..⟩

theorem w3_sub : (w3 : List (HloOp τ sig (Elt F))).Forall fun op => op.bufs ⊆ tcRefs τ sig :=
  ⟨binary_bufs_sub .., unary_bufs_sub .., unary_bufs_sub .., binary_bufs_sub ..⟩

theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w5_sub : (w5 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub ..⟩

theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w7_sub : (w7 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub ..⟩

theorem w8_sub : (w8 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem w9_sub : (w9 : List (HloOp τ sig (Elt F))).Forall fun op => op.bufs ⊆ tcRefs τ sig :=
  ⟨nullary_bufs_sub .., unary_bufs_sub .., binary_bufs_sub ..⟩

theorem w10_sub : (w10 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem w11_sub : (w11 : List (HloOp τ sig (Elt F))).Forall fun op => op.bufs ⊆ tcRefs τ sig :=
  ⟨nullary_bufs_sub .., unary_bufs_sub .., binary_bufs_sub ..⟩

theorem w12_sub : (w12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w13_sub : (w13 : List (HloOp τ sig (Elt F))).Forall fun op => op.bufs ⊆ tcRefs τ sig :=
  ⟨nullary_bufs_sub .., unary_bufs_sub .., unary_bufs_sub .., ternary_bufs_sub .., nullary_bufs_sub ..⟩

theorem w14_sub : (w14 : List (HloOp τ sig (Elt F))).Forall fun op => op.bufs ⊆ tcRefs τ sig :=
  ⟨unary_bufs_sub .., binary_bufs_sub ..⟩

theorem w15_sub : (w15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w16_sub : (w16 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub ..⟩

theorem w17_sub : (w17 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem w18_sub : (w18 : List (HloOp τ sig (Elt F))).Forall fun op => op.bufs ⊆ tcRefs τ sig :=
  ⟨nullary_bufs_sub .., unary_bufs_sub .., binary_bufs_sub ..⟩

theorem w19_sub : (w19 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem w20_sub : (w20 : List (HloOp τ sig (Elt F))).Forall fun op => op.bufs ⊆ tcRefs τ sig :=
  ⟨nullary_bufs_sub .., unary_bufs_sub .., binary_bufs_sub ..⟩

theorem w21_sub : (w21 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, opsP0, opsP1, List.mem_append, or_assoc] at h
    rcases h with h | h | h | h | h | h | h | h | h | h | h | h | h | h | h | h | h | h | h | h | h
    exacts [List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h, List.forall_iff_forall_mem.mp w16_sub op h, List.forall_iff_forall_mem.mp w17_sub op h, List.forall_iff_forall_mem.mp w18_sub op h, List.forall_iff_forall_mem.mp w19_sub op h, List.forall_iff_forall_mem.mp w20_sub op h, List.forall_iff_forall_mem.mp w21_sub op h]

theorem scopedRefs_eq : (Finset.univ.filter fun b : Ref sig .tc => b.isScoped) = ∅ := by decide
theorem scopedSems_eq : (Finset.univ.filter fun sm : SemLoc sig => sm.isScoped .tc) = ∅ := by decide

theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem w2_fresh : (w2 : List (HloOp τ sig (Elt F))).Forall fun op => op.fresh = ∅ :=
  ⟨rfl, rfl, rfl, rfl, rfl, rfl, rfl⟩

theorem w3_fresh : (w3 : List (HloOp τ sig (Elt F))).Forall fun op => op.fresh = ∅ :=
  ⟨rfl, rfl, rfl, rfl⟩

theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem w5_fresh : (w5 : List (HloOp τ sig (Elt F))).Forall fun op => op.fresh = ∅ :=
  ⟨rfl, rfl, rfl, rfl, rfl, rfl, rfl⟩

theorem w6_fresh : (w6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem w7_fresh : (w7 : List (HloOp τ sig (Elt F))).Forall fun op => op.fresh = ∅ :=
  ⟨rfl, rfl, rfl, rfl, rfl, rfl, rfl⟩

theorem w8_fresh : (w8 : List (HloOp τ sig (Elt F))).Forall fun op => op.fresh = ∅ :=
  ⟨rfl, rfl, rfl, rfl, rfl, rfl, rfl, rfl, rfl, rfl, rfl, rfl⟩

theorem w9_fresh : (w9 : List (HloOp τ sig (Elt F))).Forall fun op => op.fresh = ∅ :=
  ⟨rfl, rfl, rfl⟩

theorem w10_fresh : (w10 : List (HloOp τ sig (Elt F))).Forall fun op => op.fresh = ∅ :=
  ⟨rfl, rfl, rfl, rfl, rfl, rfl, rfl, rfl, rfl, rfl, rfl, rfl⟩

theorem w11_fresh : (w11 : List (HloOp τ sig (Elt F))).Forall fun op => op.fresh = ∅ :=
  ⟨rfl, rfl, rfl⟩

theorem w12_fresh : (w12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem w13_fresh : (w13 : List (HloOp τ sig (Elt F))).Forall fun op => op.fresh = ∅ :=
  ⟨rfl, rfl, rfl, rfl, rfl⟩

theorem w14_fresh : (w14 : List (HloOp τ sig (Elt F))).Forall fun op => op.fresh = ∅ :=
  ⟨rfl, rfl⟩

theorem w15_fresh : (w15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem w16_fresh : (w16 : List (HloOp τ sig (Elt F))).Forall fun op => op.fresh = ∅ :=
  ⟨rfl, rfl, rfl, rfl, rfl, rfl, rfl⟩

theorem w17_fresh : (w17 : List (HloOp τ sig (Elt F))).Forall fun op => op.fresh = ∅ :=
  ⟨rfl, rfl, rfl, rfl, rfl, rfl, rfl, rfl, rfl, rfl, rfl, rfl⟩

theorem w18_fresh : (w18 : List (HloOp τ sig (Elt F))).Forall fun op => op.fresh = ∅ :=
  ⟨rfl, rfl, rfl⟩

theorem w19_fresh : (w19 : List (HloOp τ sig (Elt F))).Forall fun op => op.fresh = ∅ :=
  ⟨rfl, rfl, rfl, rfl, rfl, rfl, rfl, rfl, rfl, rfl, rfl, rfl⟩

theorem w20_fresh : (w20 : List (HloOp τ sig (Elt F))).Forall fun op => op.fresh = ∅ :=
  ⟨rfl, rfl, rfl⟩

theorem w21_fresh : (w21 : List (HloOp τ sig (Elt F))).Forall fun op => op.fresh = ∅ :=
  ⟨rfl, rfl, rfl, rfl⟩

/-- No operation of the line leaves a result undetermined. -/
theorem ops_fresh : ∀ op ∈ (ops : List (HloOp τ sig (Elt F))), op.fresh = ∅ := fun op h => by
  simp only [ops, opsP0, opsP1, List.mem_append, or_assoc] at h
  rcases h with h | h | h | h | h | h | h | h | h | h | h | h | h | h | h | h | h | h | h | h | h
  exacts [List.forall_iff_forall_mem.mp w1_fresh op h, List.forall_iff_forall_mem.mp w2_fresh op h, List.forall_iff_forall_mem.mp w3_fresh op h, List.forall_iff_forall_mem.mp w4_fresh op h, List.forall_iff_forall_mem.mp w5_fresh op h, List.forall_iff_forall_mem.mp w6_fresh op h, List.forall_iff_forall_mem.mp w7_fresh op h, List.forall_iff_forall_mem.mp w8_fresh op h, List.forall_iff_forall_mem.mp w9_fresh op h, List.forall_iff_forall_mem.mp w10_fresh op h, List.forall_iff_forall_mem.mp w11_fresh op h, List.forall_iff_forall_mem.mp w12_fresh op h, List.forall_iff_forall_mem.mp w13_fresh op h, List.forall_iff_forall_mem.mp w14_fresh op h, List.forall_iff_forall_mem.mp w15_fresh op h, List.forall_iff_forall_mem.mp w16_fresh op h, List.forall_iff_forall_mem.mp w17_fresh op h, List.forall_iff_forall_mem.mp w18_fresh op h, List.forall_iff_forall_mem.mp w19_fresh op h, List.forall_iff_forall_mem.mp w20_fresh op h, List.forall_iff_forall_mem.mp w21_fresh op h]

set_option maxRecDepth 16384 in
set_option maxHeartbeats 4000000 in
/-- The first sixty statements are their operations in order: the outlined functions unfold at their calls. -/
theorem part0_eq (c : Dev nD) : main_part0 (F := F) c = seq opsP0 := rfl

set_option maxRecDepth 16384 in
set_option maxHeartbeats 4000000 in
/-- The remaining statements likewise. -/
theorem part1_eq (c : Dev nD) : main_part1 (F := F) c = seq opsP1 := rfl

/-- The whole program is the whole line. -/
theorem main_eq (c : Dev nD) : main (F := F) c = seq ops := by
  show (main_part0 (F := F) c >>= fun _ => main_part1 (F := F) c) = seq (opsP0 ++ opsP1)
  rw [seq_append, part0_eq c, part1_eq c]

end Cert.ReferenceIdeal.RefRun

end
-- ==== Proof.RefTerms.lean ====
/-
  The reference's result as a pure term of its thirteen argument arrays, stage by stage: each gather with its index
  normalisation and fill, the two edge index lists of the complete bipartite graph, the segment means, the two
  layers' updates and the output projection. Each stage is a named function, so that later statements mention a
  stage by name and never by its expansion.
-/
import proofs.«119914_g24988119728772_cont_9to1_1483_19_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The row numbers a gather of the embedding table's rows reads, as one column: a negative number first has the row count added to it. -/
def take512_ix (idx : (⟨S32, .i32⟩ : BufTy).Contents (Elt F)) :
    (⟨S32x1, .i32⟩ : BufTy).Contents (Elt F) :=
  ((broadcastInDim S32x1 ![0] bcast_S32_S32x1_0) (select ((cmpi .slt) idx ((broadcastInDim S32 ![] bcast_S_S32) (constantI S_ 32 0#32))) (addi idx ((broadcastInDim S32 ![] bcast_S_S32) (constantI S_ 32 512#32))) idx))

/-- Which of those row numbers lie inside the array (between zero and the last row). -/
def take512_ok (idx : (⟨S32, .i32⟩ : BufTy).Contents (Elt F)) :
    (⟨S32, .i1⟩ : BufTy).Contents (Elt F) :=
  (Host.reduce IntOp.andi (andi ((cmpi .sge) (take512_ix idx) ((broadcastInDim S32x1 ![] bcast_S_S32x1) (constantI S_ 32 0#32))) ((cmpi .sle) (take512_ix idx) ((broadcastInDim S32x1 ![0, 1] bcast_S1x1_S32x1_0_1) ((broadcastInDim S1x1 ![1] bcast_S1_S1x1_1) (constantI S1 32 511#32))))) (constantI S_ 1 1#1) reducesTo_S32x1_S32_d1 h_S_)

/-- The gather of the embedding table's rows: the row read where its number lies inside the array, the fill value elsewhere. -/
def take512 (tbl : (⟨S512x128, .f32⟩ : BufTy).Contents (Elt F)) (idx : (⟨S32, .i32⟩ : BufTy).Contents (Elt F)) :
    (⟨S32x128, .f32⟩ : BufTy).Contents (Elt F) :=
  (select ((broadcastInDim S32x128 ![0] bcast_S32_S32x128_0) (take512_ok idx)) (Host.gather gather_S512x128_S32x1_S32x128_1_0_n_n_0_1_1128 tbl (take512_ix idx)) ((broadcastInDim S32x128 ![] bcast_S_S32x128) (constant S_ .f32 0x7FC00000#32)))

/-- The row numbers a gather of the node features' rows reads, as one column: a negative number first has the row count added to it. -/
def takeNode_ix (idx : (⟨S320000, .i32⟩ : BufTy).Contents (Elt F)) :
    (⟨S320000x1, .i32⟩ : BufTy).Contents (Elt F) :=
  ((broadcastInDim S320000x1 ![0] bcast_S320000_S320000x1_0) (select ((cmpi .slt) idx ((broadcastInDim S320000 ![] bcast_S_S320000) (constantI S_ 32 0#32))) (addi idx ((broadcastInDim S320000 ![] bcast_S_S320000) (constantI S_ 32 10000#32))) idx))

/-- Which of those row numbers lie inside the array (between zero and the last row). -/
def takeNode_ok (idx : (⟨S320000, .i32⟩ : BufTy).Contents (Elt F)) :
    (⟨S320000, .i1⟩ : BufTy).Contents (Elt F) :=
  (Host.reduce IntOp.andi (andi ((cmpi .sge) (takeNode_ix idx) ((broadcastInDim S320000x1 ![] bcast_S_S320000x1) (constantI S_ 32 0#32))) ((cmpi .sle) (takeNode_ix idx) ((broadcastInDim S320000x1 ![0, 1] bcast_S1x1_S320000x1_0_1) ((broadcastInDim S1x1 ![1] bcast_S1_S1x1_1) (constantI S1 32 9999#32))))) (constantI S_ 1 1#1) reducesTo_S320000x1_S320000_d1 h_S_)

/-- The gather of the node features' rows: the row read where its number lies inside the array, the fill value elsewhere. -/
def takeNode (tbl : (⟨S10000x128, .f32⟩ : BufTy).Contents (Elt F)) (idx : (⟨S320000, .i32⟩ : BufTy).Contents (Elt F)) :
    (⟨S320000x128, .f32⟩ : BufTy).Contents (Elt F) :=
  (select ((broadcastInDim S320000x128 ![0] bcast_S320000_S320000x128_0) (takeNode_ok idx)) (Host.gather gather_S10000x128_S320000x1_S320000x128_1_0_n_n_0_1_1128 tbl (takeNode_ix idx)) ((broadcastInDim S320000x128 ![] bcast_S_S320000x128) (constant S_ .f32 0x7FC00000#32)))

/-- The row numbers a gather of the attribute features' rows reads, as one column: a negative number first has the row count added to it. -/
def takeAttr_ix (idx : (⟨S320000, .i32⟩ : BufTy).Contents (Elt F)) :
    (⟨S320000x1, .i32⟩ : BufTy).Contents (Elt F) :=
  ((broadcastInDim S320000x1 ![0] bcast_S320000_S320000x1_0) (select ((cmpi .slt) idx ((broadcastInDim S320000 ![] bcast_S_S320000) (constantI S_ 32 0#32))) (addi idx ((broadcastInDim S320000 ![] bcast_S_S320000) (constantI S_ 32 32#32))) idx))

/-- Which of those row numbers lie inside the array (between zero and the last row). -/
def takeAttr_ok (idx : (⟨S320000, .i32⟩ : BufTy).Contents (Elt F)) :
    (⟨S320000, .i1⟩ : BufTy).Contents (Elt F) :=
  (Host.reduce IntOp.andi (andi ((cmpi .sge) (takeAttr_ix idx) ((broadcastInDim S320000x1 ![] bcast_S_S320000x1) (constantI S_ 32 0#32))) ((cmpi .sle) (takeAttr_ix idx) ((broadcastInDim S320000x1 ![0, 1] bcast_S1x1_S320000x1_0_1) ((broadcastInDim S1x1 ![1] bcast_S1_S1x1_1) (constantI S1 32 31#32))))) (constantI S_ 1 1#1) reducesTo_S320000x1_S320000_d1 h_S_)

/-- The gather of the attribute features' rows: the row read where its number lies inside the array, the fill value elsewhere. -/
def takeAttr (tbl : (⟨S32x128, .f32⟩ : BufTy).Contents (Elt F)) (idx : (⟨S320000, .i32⟩ : BufTy).Contents (Elt F)) :
    (⟨S320000x128, .f32⟩ : BufTy).Contents (Elt F) :=
  (select ((broadcastInDim S320000x128 ![0] bcast_S320000_S320000x128_0) (takeAttr_ok idx)) (Host.gather gather_S32x128_S320000x1_S320000x128_1_0_n_n_0_1_1128 tbl (takeAttr_ix idx)) ((broadcastInDim S320000x128 ![] bcast_S_S320000x128) (constant S_ .f32 0x7FC00000#32)))

/-- The sending node of each edge of the complete bipartite graph, edges numbered node-major: each node number repeated once per attribute. -/
def nodeIdx  :
    (⟨S320000, .i32⟩ : BufTy).Contents (Elt F) :=
  (shapeCast _ ((broadcastInDim S10000x32 ![0] bcast_S10000_S10000x32_0) (iotaInDim S10000 32 0)) shapeCasts_S10000x32_S320000)

/-- The attribute of each edge: the attribute numbers in order, once per node. -/
def attrIdx  :
    (⟨S320000, .i32⟩ : BufTy).Contents (Elt F) :=
  (shapeCast _ ((broadcastInDim S10000x32 ![0, 1] bcast_S1x32_S10000x32_0_1) (shapeCast _ (iotaInDim S32 32 0) shapeCasts_S32_S1x32)) shapeCasts_S10000x32_S320000)

/-- The input projection of the node features: the product with the weights plus the bias on every row. -/
def hv0 (v : (⟨S10000x256, .f32⟩ : BufTy).Contents (Elt F)) (w : (⟨S256x128, .f32⟩ : BufTy).Contents (Elt F)) (b : (⟨S128, .f32⟩ : BufTy).Contents (Elt F)) :
    (⟨S10000x128, .f32⟩ : BufTy).Contents (Elt F) :=
  ((addf) (Host.dotGeneral dot_S10000x256_S256x128_S10000x128_1_0_0_1_n_n none v w) ((broadcastInDim S10000x128 ![0, 1] bcast_S1x128_S10000x128_0_1) ((broadcastInDim S1x128 ![1] bcast_S128_S1x128_1) b)))

/-- The edge messages summed per receiving attribute, divided by the number of nodes. -/
def meanOverNodes (idx : (⟨S320000, .i32⟩ : BufTy).Contents (Elt F)) (msg : (⟨S320000x128, .f32⟩ : BufTy).Contents (Elt F)) :
    (⟨S32x128, .f32⟩ : BufTy).Contents (Elt F) :=
  ((Host.divf) (Host.scatterAdd scatter_S32x128_S320000x1_S320000x128_1_0_0_1 ((broadcastInDim S32x128 ![] bcast_S_S32x128) (constant S_ .f32 0x00000000#32)) ((broadcastInDim S320000x1 ![0] bcast_S320000_S320000x1_0) idx) msg) ((broadcastInDim S32x128 ![] bcast_S_S32x128) (constant S_ .f32 0x461C4000#32)))

/-- The edge messages summed per receiving node, divided by the number of attributes. -/
def meanOverAttrs (idx : (⟨S320000, .i32⟩ : BufTy).Contents (Elt F)) (msg : (⟨S320000x128, .f32⟩ : BufTy).Contents (Elt F)) :
    (⟨S10000x128, .f32⟩ : BufTy).Contents (Elt F) :=
  ((Host.divf) (Host.scatterAdd scatter_S10000x128_S320000x1_S320000x128_1_0_0_1 ((broadcastInDim S10000x128 ![] bcast_S_S10000x128) (constant S_ .f32 0x00000000#32)) ((broadcastInDim S320000x1 ![0] bcast_S320000_S320000x1_0) idx) msg) ((broadcastInDim S10000x128 ![] bcast_S_S10000x128) (constant S_ .f32 0x42000000#32)))

/-- The layer-0 attribute update before the rectifier: the aggregate times the first slice of one weight array, plus the features times the first slice of the other, plus the first bias row. -/
def preA0 (agg : (⟨S32x128, .f32⟩ : BufTy).Contents (Elt F)) (h : (⟨S32x128, .f32⟩ : BufTy).Contents (Elt F)) (wa : (⟨S2x128x128, .f32⟩ : BufTy).Contents (Elt F)) (ua : (⟨S2x128x128, .f32⟩ : BufTy).Contents (Elt F)) (ba : (⟨S2x128, .f32⟩ : BufTy).Contents (Elt F)) :
    (⟨S32x128, .f32⟩ : BufTy).Contents (Elt F) :=
  ((addf) ((addf) (Host.dotGeneral dot_S32x128_S128x128_S32x128_1_0_0_1_n_n none agg (shapeCast _ (extractStridedSlice S1x128x128 ![0, 0, 0] wa slices_S2x128x128_S1x128x128_0_0_0) shapeCasts_S1x128x128_S128x128)) (Host.dotGeneral dot_S32x128_S128x128_S32x128_1_0_0_1_n_n none h (shapeCast _ (extractStridedSlice S1x128x128 ![0, 0, 0] ua slices_S2x128x128_S1x128x128_0_0_0) shapeCasts_S1x128x128_S128x128))) ((broadcastInDim S32x128 ![0, 1] bcast_S1x128_S32x128_0_1) ((broadcastInDim S1x128 ![1] bcast_S128_S1x128_1) (shapeCast _ (extractStridedSlice S1x128 ![0, 0] ba slices_S2x128_S1x128_0_0) shapeCasts_S1x128_S128))))

/-- The rectifier on a 32 by 128 array: the larger of each entry and zero. -/
def reluA (x : (⟨S32x128, .f32⟩ : BufTy).Contents (Elt F)) :
    (⟨S32x128, .f32⟩ : BufTy).Contents (Elt F) :=
  (maximumf x ((broadcastInDim S32x128 ![] bcast_S_S32x128) (constant S_ .f32 0x00000000#32)))

/-- The layer-0 node update before the rectifier, from the first slices of the node weights and bias. -/
def preV0 (agg : (⟨S10000x128, .f32⟩ : BufTy).Contents (Elt F)) (h : (⟨S10000x128, .f32⟩ : BufTy).Contents (Elt F)) (wv : (⟨S2x128x128, .f32⟩ : BufTy).Contents (Elt F)) (uv : (⟨S2x128x128, .f32⟩ : BufTy).Contents (Elt F)) (bv : (⟨S2x128, .f32⟩ : BufTy).Contents (Elt F)) :
    (⟨S10000x128, .f32⟩ : BufTy).Contents (Elt F) :=
  ((addf) ((addf) (Host.dotGeneral dot_S10000x128_S128x128_S10000x128_1_0_0_1_n_n none agg (shapeCast _ (extractStridedSlice S1x128x128 ![0, 0, 0] wv slices_S2x128x128_S1x128x128_0_0_0) shapeCasts_S1x128x128_S128x128)) (Host.dotGeneral dot_S10000x128_S128x128_S10000x128_1_0_0_1_n_n none h (shapeCast _ (extractStridedSlice S1x128x128 ![0, 0, 0] uv slices_S2x128x128_S1x128x128_0_0_0) shapeCasts_S1x128x128_S128x128))) ((broadcastInDim S10000x128 ![0, 1] bcast_S1x128_S10000x128_0_1) ((broadcastInDim S1x128 ![1] bcast_S128_S1x128_1) (shapeCast _ (extractStridedSlice S1x128 ![0, 0] bv slices_S2x128_S1x128_0_0) shapeCasts_S1x128_S128))))

/-- The rectifier on a 10000 by 128 array. -/
def reluV (x : (⟨S10000x128, .f32⟩ : BufTy).Contents (Elt F)) :
    (⟨S10000x128, .f32⟩ : BufTy).Contents (Elt F) :=
  (maximumf x ((broadcastInDim S10000x128 ![] bcast_S_S10000x128) (constant S_ .f32 0x00000000#32)))

/-- The layer-1 node update before the rectifier, from the second slices of the node weights and bias. -/
def preV1 (agg : (⟨S10000x128, .f32⟩ : BufTy).Contents (Elt F)) (h : (⟨S10000x128, .f32⟩ : BufTy).Contents (Elt F)) (wv : (⟨S2x128x128, .f32⟩ : BufTy).Contents (Elt F)) (uv : (⟨S2x128x128, .f32⟩ : BufTy).Contents (Elt F)) (bv : (⟨S2x128, .f32⟩ : BufTy).Contents (Elt F)) :
    (⟨S10000x128, .f32⟩ : BufTy).Contents (Elt F) :=
  ((addf) ((addf) (Host.dotGeneral dot_S10000x128_S128x128_S10000x128_1_0_0_1_n_n none agg (shapeCast _ (extractStridedSlice S1x128x128 ![1, 0, 0] wv slices_S2x128x128_S1x128x128_1_0_0) shapeCasts_S1x128x128_S128x128)) (Host.dotGeneral dot_S10000x128_S128x128_S10000x128_1_0_0_1_n_n none h (shapeCast _ (extractStridedSlice S1x128x128 ![1, 0, 0] uv slices_S2x128x128_S1x128x128_1_0_0) shapeCasts_S1x128x128_S128x128))) ((broadcastInDim S10000x128 ![0, 1] bcast_S1x128_S10000x128_0_1) ((broadcastInDim S1x128 ![1] bcast_S128_S1x128_1) (shapeCast _ (extractStridedSlice S1x128 ![1, 0] bv slices_S2x128_S1x128_1_0) shapeCasts_S1x128_S128))))

/-- The output projection: the product with the output weights plus the output bias on every row. -/
def outP (h : (⟨S10000x128, .f32⟩ : BufTy).Contents (Elt F)) (w : (⟨S128x256, .f32⟩ : BufTy).Contents (Elt F)) (b : (⟨S256, .f32⟩ : BufTy).Contents (Elt F)) :
    (⟨S10000x256, .f32⟩ : BufTy).Contents (Elt F) :=
  ((addf) (Host.dotGeneral dot_S10000x128_S128x256_S10000x256_1_0_0_1_n_n none h w) ((broadcastInDim S10000x256 ![0, 1] bcast_S1x256_S10000x256_0_1) ((broadcastInDim S1x256 ![1] bcast_S256_S1x256_1) b)))

/-! ## The stages as terms of the arguments -/

/-- The attribute features: the embedding rows the query names. -/
def r0 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S32x128, .f32⟩ : BufTy).Contents (Elt F) :=
  take512 a2 a1

/-- The node features after the input projection. -/
def r11 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S10000x128, .f32⟩ : BufTy).Contents (Elt F) :=
  hv0 a0 a3 a4

/-- Each edge's message from its node: the sender's features. -/
def r12 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S320000x128, .f32⟩ : BufTy).Contents (Elt F) :=
  takeNode (r11 a0 a1 a2 a3 a4 a5 a6 a7 a8 a9 a10 a11 a12) nodeIdx

/-- Per attribute, the mean over the nodes of the node features. -/
def r17 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S32x128, .f32⟩ : BufTy).Contents (Elt F) :=
  meanOverNodes attrIdx (r12 a0 a1 a2 a3 a4 a5 a6 a7 a8 a9 a10 a11 a12)

/-- Each edge's message from its attribute. -/
def r18 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S320000x128, .f32⟩ : BufTy).Contents (Elt F) :=
  takeAttr (r0 a0 a1 a2 a3 a4 a5 a6 a7 a8 a9 a10 a11 a12) attrIdx

/-- Per node, the mean over the attributes of the attribute features. -/
def r23 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S10000x128, .f32⟩ : BufTy).Contents (Elt F) :=
  meanOverAttrs nodeIdx (r18 a0 a1 a2 a3 a4 a5 a6 a7 a8 a9 a10 a11 a12)

/-- The attribute features after layer 0. -/
def r36 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S32x128, .f32⟩ : BufTy).Contents (Elt F) :=
  reluA (preA0 (r17 a0 a1 a2 a3 a4 a5 a6 a7 a8 a9 a10 a11 a12) (r0 a0 a1 a2 a3 a4 a5 a6 a7 a8 a9 a10 a11 a12) a5 a6 a7)

/-- The node features after layer 0. -/
def r49 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S10000x128, .f32⟩ : BufTy).Contents (Elt F) :=
  reluV (preV0 (r23 a0 a1 a2 a3 a4 a5 a6 a7 a8 a9 a10 a11 a12) (r11 a0 a1 a2 a3 a4 a5 a6 a7 a8 a9 a10 a11 a12) a8 a9 a10)

/-- Each edge's layer-1 message from its attribute. -/
def r56 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S320000x128, .f32⟩ : BufTy).Contents (Elt F) :=
  takeAttr (r36 a0 a1 a2 a3 a4 a5 a6 a7 a8 a9 a10 a11 a12) attrIdx

/-- Per node, the mean over the attributes of the layer-0 attribute features. -/
def r61 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S10000x128, .f32⟩ : BufTy).Contents (Elt F) :=
  meanOverAttrs nodeIdx (r56 a0 a1 a2 a3 a4 a5 a6 a7 a8 a9 a10 a11 a12)

/-- The node features after layer 1. -/
def r87 (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S10000x128, .f32⟩ : BufTy).Contents (Elt F) :=
  reluV (preV1 (r61 a0 a1 a2 a3 a4 a5 a6 a7 a8 a9 a10 a11 a12) (r49 a0 a1 a2 a3 a4 a5 a6 a7 a8 a9 a10 a11 a12) a8 a9 a10)

/-- The reference's result as one term of its thirteen arguments. -/
def refOut (a0 : (⟨S10000x256, .f32⟩ : BufTy).Contents (Elt F)) (a1 : (⟨S32, .i32⟩ : BufTy).Contents (Elt F)) (a2 : (⟨S512x128, .f32⟩ : BufTy).Contents (Elt F)) (a3 : (⟨S256x128, .f32⟩ : BufTy).Contents (Elt F)) (a4 : (⟨S128, .f32⟩ : BufTy).Contents (Elt F)) (a5 : (⟨S2x128x128, .f32⟩ : BufTy).Contents (Elt F)) (a6 : (⟨S2x128x128, .f32⟩ : BufTy).Contents (Elt F)) (a7 : (⟨S2x128, .f32⟩ : BufTy).Contents (Elt F)) (a8 : (⟨S2x128x128, .f32⟩ : BufTy).Contents (Elt F)) (a9 : (⟨S2x128x128, .f32⟩ : BufTy).Contents (Elt F)) (a10 : (⟨S2x128, .f32⟩ : BufTy).Contents (Elt F)) (a11 : (⟨S128x256, .f32⟩ : BufTy).Contents (Elt F)) (a12 : (⟨S256, .f32⟩ : BufTy).Contents (Elt F)) :
    (⟨S10000x256, .f32⟩ : BufTy).Contents (Elt F) :=
  outP (r87 a0 a1 a2 a3 a4 a5 a6 a7 a8 a9 a10 a11 a12) a11 a12

end Cert.ReferenceIdeal.RefRun

end
-- ==== Proof.LibFold.lean ====
/-
  A general fact about a straight line of host operations: the contents the buffers hold after two lines run one
  after the other are what the second line makes of what the first line left.
-/
import Idealize.ShloMosaic.Lib.StableHlo.Run

noncomputable section

namespace Cert.LibFold

open Idealize.ShloMosaic Idealize.ShloMosaic.StableHlo

/-- The fold of two lines run one after the other is the fold of the second over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibFold

end
-- ==== Proof.RefRun.lean ====
/-
  The reference's straight line read back window by window: the buffer contents after each window, the buffers a
  window leaves alone, and, for every buffer a later window still reads, the stage term it holds. The last window's
  result buffer holds the term of the whole result; the thirteen argument buffers are never written. From this the
  run: every weakly fair execution terminates with the result buffer at that term and the arguments unchanged.
-/
import proofs.«119914_g24988119728772_cont_9to1_1483_19_alg».proof.Proof.RefOps
import proofs.«119914_g24988119728772_cont_9to1_1483_19_alg».proof.Proof.RefTerms
import proofs.«119914_g24988119728772_cont_9to1_1483_19_alg».proof.Proof.LibFold
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirteen argument buffers. -/
abbrev argRefs : List (Ref sig .tc) :=
  [main_arg0, main_arg1, main_arg2, main_arg3, main_arg4, main_arg5, main_arg6, main_arg7, main_arg8, main_arg9, main_arg10, main_arg11, main_arg12]

/-- The buffer contents before the first window. -/
def val0 (V : Valuation τ sig (Elt F)) : Valuation τ sig (Elt F) := V

theorem val0_arg (V : Valuation τ sig (Elt F)) (r : Ref sig .tc) (hr : r ∈ argRefs) :
    val0 V (no_index (Proc.devRef .tc r)) = V (Proc.devRef .tc r) := rfl

/-! ## Window 1 -/

/-- The buffer contents after the first 1 window. -/
def val1 (V : Valuation τ sig (Elt F)) : Valuation τ sig (Elt F) := after w1 (val0 V)

/-- The buffers window 1 writes. -/
abbrev w1_W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

set_option maxRecDepth 8192 in
theorem w1_writes : (w1 : List (HloOp τ sig (Elt F))).Forall fun op =>
    op.writes ⊆ (w1_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 1 does not write keeps its contents through it. -/
theorem val1_keep (V : Valuation τ sig (Elt F)) (r : Ref sig .tc) (h : r ∉ w1_W) :
    val1 V (Proc.devRef .tc r) = val0 V (Proc.devRef .tc r) :=
  after_of_writes_sub w1 _ w1_writes h

theorem val1_arg (V : Valuation τ sig (Elt F)) (r : Ref sig .tc) (hr : r ∈ argRefs) :
    val1 V (no_index (Proc.devRef .tc r)) = V (Proc.devRef .tc r) :=
  (val1_keep V r ((by decide : ∀ r ∈ argRefs, r ∉ w1_W) r hr)).trans (val0_arg V r hr)

set_option maxRecDepth 8192 in
set_option maxHeartbeats 2000000 in
theorem val1_main_v0 (V : Valuation τ sig (Elt F)) :
    val1 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val1
  simp only [w1]
  after_results_simp
  simp only [TRef.toBuf, TRef.ofBuf, cast_cast, cast_eq, val0_arg V main_arg1 (by decide), val0_arg V main_arg2 (by decide)] <;> rfl

/-! ## Window 2 -/

/-- The buffer contents after the first 2 windows. -/
def val2 (V : Valuation τ sig (Elt F)) : Valuation τ sig (Elt F) := after w2 (val1 V)

/-- The buffers window 2 writes. -/
abbrev w2_W : List (Ref sig .tc) :=
  [main_v1, main_v2, main_v3, main_v4, main_v5, main_v6, main_v7]

set_option maxRecDepth 8192 in
theorem w2_writes : (w2 : List (HloOp τ sig (Elt F))).Forall fun op =>
    op.writes ⊆ (w2_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 2 does not write keeps its contents through it. -/
theorem val2_keep (V : Valuation τ sig (Elt F)) (r : Ref sig .tc) (h : r ∉ w2_W) :
    val2 V (Proc.devRef .tc r) = val1 V (Proc.devRef .tc r) :=
  after_of_writes_sub w2 _ w2_writes h

theorem val2_arg (V : Valuation τ sig (Elt F)) (r : Ref sig .tc) (hr : r ∈ argRefs) :
    val2 V (no_index (Proc.devRef .tc r)) = V (Proc.devRef .tc r) :=
  (val2_keep V r ((by decide : ∀ r ∈ argRefs, r ∉ w2_W) r hr)).trans (val1_arg V r hr)

theorem val2_main_v0 (V : Valuation τ sig (Elt F)) :
    val2 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val2_keep V main_v0 (by decide)).trans (val1_main_v0 V)

set_option maxRecDepth 8192 in
theorem val2_main_v3 (V : Valuation τ sig (Elt F)) :
    val2 V (no_index (Proc.devRef .tc main_v3)) = nodeIdx := by
  unfold val2
  simp only [w2]
  after_results_simp
  all_goals rfl

set_option maxRecDepth 8192 in
theorem val2_main_v7 (V : Valuation τ sig (Elt F)) :
    val2 V (no_index (Proc.devRef .tc main_v7)) = attrIdx := by
  unfold val2
  simp only [w2]
  after_results_simp
  all_goals rfl

/-! ## Window 3 -/

/-- The buffer contents after the first 3 windows. -/
def val3 (V : Valuation τ sig (Elt F)) : Valuation τ sig (Elt F) := after w3 (val2 V)

/-- The buffers window 3 writes. -/
abbrev w3_W : List (Ref sig .tc) :=
  [main_v8, main_v9, main_v10, main_v11]

set_option maxRecDepth 8192 in
theorem w3_writes : (w3 : List (HloOp τ sig (Elt F))).Forall fun op =>
    op.writes ⊆ (w3_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 3 does not write keeps its contents through it. -/
theorem val3_keep (V : Valuation τ sig (Elt F)) (r : Ref sig .tc) (h : r ∉ w3_W) :
    val3 V (Proc.devRef .tc r) = val2 V (Proc.devRef .tc r) :=
  after_of_writes_sub w3 _ w3_writes h

theorem val3_arg (V : Valuation τ sig (Elt F)) (r : Ref sig .tc) (hr : r ∈ argRefs) :
    val3 V (no_index (Proc.devRef .tc r)) = V (Proc.devRef .tc r) :=
  (val3_keep V r ((by decide : ∀ r ∈ argRefs, r ∉ w3_W) r hr)).trans (val2_arg V r hr)

theorem val3_main_v0 (V : Valuation τ sig (Elt F)) :
    val3 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val3_keep V main_v0 (by decide)).trans (val2_main_v0 V)

theorem val3_main_v3 (V : Valuation τ sig (Elt F)) :
    val3 V (no_index (Proc.devRef .tc main_v3)) = nodeIdx :=
  (val3_keep V main_v3 (by decide)).trans (val2_main_v3 V)

theorem val3_main_v7 (V : Valuation τ sig (Elt F)) :
    val3 V (no_index (Proc.devRef .tc main_v7)) = attrIdx :=
  (val3_keep V main_v7 (by decide)).trans (val2_main_v7 V)

set_option maxRecDepth 8192 in
theorem val3_main_v11 (V : Valuation τ sig (Elt F)) :
    val3 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val3
  simp only [w3]
  after_results_simp
  simp only [TRef.toBuf, TRef.ofBuf, cast_cast, cast_eq, val2_arg V main_arg0 (by decide), val2_arg V main_arg3 (by decide), val2_arg V main_arg4 (by decide)] <;> rfl

/-! ## Window 4 -/

/-- The buffer contents after the first 4 windows. -/
def val4 (V : Valuation τ sig (Elt F)) : Valuation τ sig (Elt F) := after w4 (val3 V)

/-- The buffers window 4 writes. -/
abbrev w4_W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v12]

set_option maxRecDepth 8192 in
theorem w4_writes : (w4 : List (HloOp τ sig (Elt F))).Forall fun op =>
    op.writes ⊆ (w4_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 4 does not write keeps its contents through it. -/
theorem val4_keep (V : Valuation τ sig (Elt F)) (r : Ref sig .tc) (h : r ∉ w4_W) :
    val4 V (Proc.devRef .tc r) = val3 V (Proc.devRef .tc r) :=
  after_of_writes_sub w4 _ w4_writes h

theorem val4_arg (V : Valuation τ sig (Elt F)) (r : Ref sig .tc) (hr : r ∈ argRefs) :
    val4 V (no_index (Proc.devRef .tc r)) = V (Proc.devRef .tc r) :=
  (val4_keep V r ((by decide : ∀ r ∈ argRefs, r ∉ w4_W) r hr)).trans (val3_arg V r hr)

theorem val4_main_v0 (V : Valuation τ sig (Elt F)) :
    val4 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val4_keep V main_v0 (by decide)).trans (val3_main_v0 V)

theorem val4_main_v3 (V : Valuation τ sig (Elt F)) :
    val4 V (no_index (Proc.devRef .tc main_v3)) = nodeIdx :=
  (val4_keep V main_v3 (by decide)).trans (val3_main_v3 V)

theorem val4_main_v7 (V : Valuation τ sig (Elt F)) :
    val4 V (no_index (Proc.devRef .tc main_v7)) = attrIdx :=
  (val4_keep V main_v7 (by decide)).trans (val3_main_v7 V)

theorem val4_main_v11 (V : Valuation τ sig (Elt F)) :
    val4 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val4_keep V main_v11 (by decide)).trans (val3_main_v11 V)

set_option maxRecDepth 8192 in
set_option maxHeartbeats 2000000 in
theorem val4_main_v12 (V : Valuation τ sig (Elt F)) :
    val4 V (no_index (Proc.devRef .tc main_v12)) = r12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val4
  simp only [w4]
  after_results_simp
  simp only [TRef.toBuf, TRef.ofBuf, cast_cast, cast_eq, val3_main_v3 V, val3_main_v11 V] <;> rfl

/-! ## Window 5 -/

/-- The buffer contents after the first 5 windows. -/
def val5 (V : Valuation τ sig (Elt F)) : Valuation τ sig (Elt F) := after w5 (val4 V)

/-- The buffers window 5 writes. -/
abbrev w5_W : List (Ref sig .tc) :=
  [main_cst, main_v13, main_v14, main_v15, main_cst_0, main_v16, main_v17]

set_option maxRecDepth 8192 in
theorem w5_writes : (w5 : List (HloOp τ sig (Elt F))).Forall fun op =>
    op.writes ⊆ (w5_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 5 does not write keeps its contents through it. -/
theorem val5_keep (V : Valuation τ sig (Elt F)) (r : Ref sig .tc) (h : r ∉ w5_W) :
    val5 V (Proc.devRef .tc r) = val4 V (Proc.devRef .tc r) :=
  after_of_writes_sub w5 _ w5_writes h

theorem val5_arg (V : Valuation τ sig (Elt F)) (r : Ref sig .tc) (hr : r ∈ argRefs) :
    val5 V (no_index (Proc.devRef .tc r)) = V (Proc.devRef .tc r) :=
  (val5_keep V r ((by decide : ∀ r ∈ argRefs, r ∉ w5_W) r hr)).trans (val4_arg V r hr)

theorem val5_main_v0 (V : Valuation τ sig (Elt F)) :
    val5 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val5_keep V main_v0 (by decide)).trans (val4_main_v0 V)

theorem val5_main_v3 (V : Valuation τ sig (Elt F)) :
    val5 V (no_index (Proc.devRef .tc main_v3)) = nodeIdx :=
  (val5_keep V main_v3 (by decide)).trans (val4_main_v3 V)

theorem val5_main_v7 (V : Valuation τ sig (Elt F)) :
    val5 V (no_index (Proc.devRef .tc main_v7)) = attrIdx :=
  (val5_keep V main_v7 (by decide)).trans (val4_main_v7 V)

theorem val5_main_v11 (V : Valuation τ sig (Elt F)) :
    val5 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val5_keep V main_v11 (by decide)).trans (val4_main_v11 V)

set_option maxRecDepth 8192 in
theorem val5_main_v17 (V : Valuation τ sig (Elt F)) :
    val5 V (no_index (Proc.devRef .tc main_v17)) = r17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val5
  simp only [w5]
  after_results_simp
  simp only [TRef.toBuf, TRef.ofBuf, cast_cast, cast_eq, val4_main_v7 V, val4_main_v12 V] <;> rfl

/-! ## Window 6 -/

/-- The buffer contents after the first 6 windows. -/
def val6 (V : Valuation τ sig (Elt F)) : Valuation τ sig (Elt F) := after w6 (val5 V)

/-- The buffers window 6 writes. -/
abbrev w6_W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v18]

set_option maxRecDepth 8192 in
theorem w6_writes : (w6 : List (HloOp τ sig (Elt F))).Forall fun op =>
    op.writes ⊆ (w6_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 6 does not write keeps its contents through it. -/
theorem val6_keep (V : Valuation τ sig (Elt F)) (r : Ref sig .tc) (h : r ∉ w6_W) :
    val6 V (Proc.devRef .tc r) = val5 V (Proc.devRef .tc r) :=
  after_of_writes_sub w6 _ w6_writes h

theorem val6_arg (V : Valuation τ sig (Elt F)) (r : Ref sig .tc) (hr : r ∈ argRefs) :
    val6 V (no_index (Proc.devRef .tc r)) = V (Proc.devRef .tc r) :=
  (val6_keep V r ((by decide : ∀ r ∈ argRefs, r ∉ w6_W) r hr)).trans (val5_arg V r hr)

theorem val6_main_v0 (V : Valuation τ sig (Elt F)) :
    val6 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val6_keep V main_v0 (by decide)).trans (val5_main_v0 V)

theorem val6_main_v3 (V : Valuation τ sig (Elt F)) :
    val6 V (no_index (Proc.devRef .tc main_v3)) = nodeIdx :=
  (val6_keep V main_v3 (by decide)).trans (val5_main_v3 V)

theorem val6_main_v7 (V : Valuation τ sig (Elt F)) :
    val6 V (no_index (Proc.devRef .tc main_v7)) = attrIdx :=
  (val6_keep V main_v7 (by decide)).trans (val5_main_v7 V)

theorem val6_main_v11 (V : Valuation τ sig (Elt F)) :
    val6 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val6_keep V main_v11 (by decide)).trans (val5_main_v11 V)

theorem val6_main_v17 (V : Valuation τ sig (Elt F)) :
    val6 V (no_index (Proc.devRef .tc main_v17)) = r17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val6_keep V main_v17 (by decide)).trans (val5_main_v17 V)

set_option maxRecDepth 8192 in
set_option maxHeartbeats 2000000 in
theorem val6_main_v18 (V : Valuation τ sig (Elt F)) :
    val6 V (no_index (Proc.devRef .tc main_v18)) = r18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val6
  simp only [w6]
  after_results_simp
  simp only [TRef.toBuf, TRef.ofBuf, cast_cast, cast_eq, val5_main_v7 V, val5_main_v0 V] <;> rfl

/-! ## Window 7 -/

/-- The buffer contents after the first 7 windows. -/
def val7 (V : Valuation τ sig (Elt F)) : Valuation τ sig (Elt F) := after w7 (val6 V)

/-- The buffers window 7 writes. -/
abbrev w7_W : List (Ref sig .tc) :=
  [main_cst_1, main_v19, main_v20, main_v21, main_cst_2, main_v22, main_v23]

set_option maxRecDepth 8192 in
theorem w7_writes : (w7 : List (HloOp τ sig (Elt F))).Forall fun op =>
    op.writes ⊆ (w7_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 7 does not write keeps its contents through it. -/
theorem val7_keep (V : Valuation τ sig (Elt F)) (r : Ref sig .tc) (h : r ∉ w7_W) :
    val7 V (Proc.devRef .tc r) = val6 V (Proc.devRef .tc r) :=
  after_of_writes_sub w7 _ w7_writes h

theorem val7_arg (V : Valuation τ sig (Elt F)) (r : Ref sig .tc) (hr : r ∈ argRefs) :
    val7 V (no_index (Proc.devRef .tc r)) = V (Proc.devRef .tc r) :=
  (val7_keep V r ((by decide : ∀ r ∈ argRefs, r ∉ w7_W) r hr)).trans (val6_arg V r hr)

theorem val7_main_v0 (V : Valuation τ sig (Elt F)) :
    val7 V (no_index (Proc.devRef .tc main_v0)) = r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val7_keep V main_v0 (by decide)).trans (val6_main_v0 V)

theorem val7_main_v3 (V : Valuation τ sig (Elt F)) :
    val7 V (no_index (Proc.devRef .tc main_v3)) = nodeIdx :=
  (val7_keep V main_v3 (by decide)).trans (val6_main_v3 V)

theorem val7_main_v7 (V : Valuation τ sig (Elt F)) :
    val7 V (no_index (Proc.devRef .tc main_v7)) = attrIdx :=
  (val7_keep V main_v7 (by decide)).trans (val6_main_v7 V)

theorem val7_main_v11 (V : Valuation τ sig (Elt F)) :
    val7 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val7_keep V main_v11 (by decide)).trans (val6_main_v11 V)

theorem val7_main_v17 (V : Valuation τ sig (Elt F)) :
    val7 V (no_index (Proc.devRef .tc main_v17)) = r17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val7_keep V main_v17 (by decide)).trans (val6_main_v17 V)

set_option maxRecDepth 8192 in
theorem val7_main_v23 (V : Valuation τ sig (Elt F)) :
    val7 V (no_index (Proc.devRef .tc main_v23)) = r23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val7
  simp only [w7]
  after_results_simp
  simp only [TRef.toBuf, TRef.ofBuf, cast_cast, cast_eq, val6_main_v3 V, val6_main_v18 V] <;> rfl

/-! ## Window 8 -/

/-- The buffer contents after the first 8 windows. -/
def val8 (V : Valuation τ sig (Elt F)) : Valuation τ sig (Elt F) := after w8 (val7 V)

/-- The buffers window 8 writes. -/
abbrev w8_W : List (Ref sig .tc) :=
  [main_v24, main_v25, main_v26, main_v27, main_v28, main_v29, main_v30, main_v31, main_v32, main_v33, main_v34, main_v35]

set_option maxRecDepth 8192 in
theorem w8_writes : (w8 : List (HloOp τ sig (Elt F))).Forall fun op =>
    op.writes ⊆ (w8_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 8 does not write keeps its contents through it. -/
theorem val8_keep (V : Valuation τ sig (Elt F)) (r : Ref sig .tc) (h : r ∉ w8_W) :
    val8 V (Proc.devRef .tc r) = val7 V (Proc.devRef .tc r) :=
  after_of_writes_sub w8 _ w8_writes h

theorem val8_arg (V : Valuation τ sig (Elt F)) (r : Ref sig .tc) (hr : r ∈ argRefs) :
    val8 V (no_index (Proc.devRef .tc r)) = V (Proc.devRef .tc r) :=
  (val8_keep V r ((by decide : ∀ r ∈ argRefs, r ∉ w8_W) r hr)).trans (val7_arg V r hr)

theorem val8_main_v3 (V : Valuation τ sig (Elt F)) :
    val8 V (no_index (Proc.devRef .tc main_v3)) = nodeIdx :=
  (val8_keep V main_v3 (by decide)).trans (val7_main_v3 V)

theorem val8_main_v7 (V : Valuation τ sig (Elt F)) :
    val8 V (no_index (Proc.devRef .tc main_v7)) = attrIdx :=
  (val8_keep V main_v7 (by decide)).trans (val7_main_v7 V)

theorem val8_main_v11 (V : Valuation τ sig (Elt F)) :
    val8 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val8_keep V main_v11 (by decide)).trans (val7_main_v11 V)

theorem val8_main_v23 (V : Valuation τ sig (Elt F)) :
    val8 V (no_index (Proc.devRef .tc main_v23)) = r23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val8_keep V main_v23 (by decide)).trans (val7_main_v23 V)

set_option maxRecDepth 8192 in
set_option maxHeartbeats 1200000 in
theorem val8_main_v35 (V : Valuation τ sig (Elt F)) :
    val8 V (no_index (Proc.devRef .tc main_v35)) = preA0 (r17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (r0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg5)) (V (Proc.devRef .tc main_arg6)) (V (Proc.devRef .tc main_arg7)) := by
  unfold val8
  simp only [w8]
  after_results_simp
  simp only [TRef.toBuf, TRef.ofBuf, cast_cast, cast_eq, val7_arg V main_arg5 (by decide), val7_main_v17 V, val7_arg V main_arg6 (by decide), val7_main_v0 V, val7_arg V main_arg7 (by decide)] <;> rfl

/-! ## Window 9 -/

/-- The buffer contents after the first 9 windows. -/
def val9 (V : Valuation τ sig (Elt F)) : Valuation τ sig (Elt F) := after w9 (val8 V)

/-- The buffers window 9 writes. -/
abbrev w9_W : List (Ref sig .tc) :=
  [main_call3_cst, main_call3_v0, main_v36]

set_option maxRecDepth 8192 in
theorem w9_writes : (w9 : List (HloOp τ sig (Elt F))).Forall fun op =>
    op.writes ⊆ (w9_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 9 does not write keeps its contents through it. -/
theorem val9_keep (V : Valuation τ sig (Elt F)) (r : Ref sig .tc) (h : r ∉ w9_W) :
    val9 V (Proc.devRef .tc r) = val8 V (Proc.devRef .tc r) :=
  after_of_writes_sub w9 _ w9_writes h

theorem val9_arg (V : Valuation τ sig (Elt F)) (r : Ref sig .tc) (hr : r ∈ argRefs) :
    val9 V (no_index (Proc.devRef .tc r)) = V (Proc.devRef .tc r) :=
  (val9_keep V r ((by decide : ∀ r ∈ argRefs, r ∉ w9_W) r hr)).trans (val8_arg V r hr)

theorem val9_main_v3 (V : Valuation τ sig (Elt F)) :
    val9 V (no_index (Proc.devRef .tc main_v3)) = nodeIdx :=
  (val9_keep V main_v3 (by decide)).trans (val8_main_v3 V)

theorem val9_main_v7 (V : Valuation τ sig (Elt F)) :
    val9 V (no_index (Proc.devRef .tc main_v7)) = attrIdx :=
  (val9_keep V main_v7 (by decide)).trans (val8_main_v7 V)

theorem val9_main_v11 (V : Valuation τ sig (Elt F)) :
    val9 V (no_index (Proc.devRef .tc main_v11)) = r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val9_keep V main_v11 (by decide)).trans (val8_main_v11 V)

theorem val9_main_v23 (V : Valuation τ sig (Elt F)) :
    val9 V (no_index (Proc.devRef .tc main_v23)) = r23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val9_keep V main_v23 (by decide)).trans (val8_main_v23 V)

set_option maxRecDepth 8192 in
theorem val9_main_v36 (V : Valuation τ sig (Elt F)) :
    val9 V (no_index (Proc.devRef .tc main_v36)) = r36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val9
  simp only [w9]
  after_results_simp
  simp only [TRef.toBuf, TRef.ofBuf, cast_cast, cast_eq, val8_main_v35 V] <;> rfl

/-! ## Window 10 -/

/-- The buffer contents after the first 10 windows. -/
def val10 (V : Valuation τ sig (Elt F)) : Valuation τ sig (Elt F) := after w10 (val9 V)

/-- The buffers window 10 writes. -/
abbrev w10_W : List (Ref sig .tc) :=
  [main_v37, main_v38, main_v39, main_v40, main_v41, main_v42, main_v43, main_v44, main_v45, main_v46, main_v47, main_v48]

set_option maxRecDepth 8192 in
theorem w10_writes : (w10 : List (HloOp τ sig (Elt F))).Forall fun op =>
    op.writes ⊆ (w10_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 10 does not write keeps its contents through it. -/
theorem val10_keep (V : Valuation τ sig (Elt F)) (r : Ref sig .tc) (h : r ∉ w10_W) :
    val10 V (Proc.devRef .tc r) = val9 V (Proc.devRef .tc r) :=
  after_of_writes_sub w10 _ w10_writes h

theorem val10_arg (V : Valuation τ sig (Elt F)) (r : Ref sig .tc) (hr : r ∈ argRefs) :
    val10 V (no_index (Proc.devRef .tc r)) = V (Proc.devRef .tc r) :=
  (val10_keep V r ((by decide : ∀ r ∈ argRefs, r ∉ w10_W) r hr)).trans (val9_arg V r hr)

theorem val10_main_v3 (V : Valuation τ sig (Elt F)) :
    val10 V (no_index (Proc.devRef .tc main_v3)) = nodeIdx :=
  (val10_keep V main_v3 (by decide)).trans (val9_main_v3 V)

theorem val10_main_v7 (V : Valuation τ sig (Elt F)) :
    val10 V (no_index (Proc.devRef .tc main_v7)) = attrIdx :=
  (val10_keep V main_v7 (by decide)).trans (val9_main_v7 V)

theorem val10_main_v36 (V : Valuation τ sig (Elt F)) :
    val10 V (no_index (Proc.devRef .tc main_v36)) = r36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val10_keep V main_v36 (by decide)).trans (val9_main_v36 V)

set_option maxRecDepth 8192 in
set_option maxHeartbeats 1200000 in
theorem val10_main_v48 (V : Valuation τ sig (Elt F)) :
    val10 V (no_index (Proc.devRef .tc main_v48)) = preV0 (r23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (r11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg8)) (V (Proc.devRef .tc main_arg9)) (V (Proc.devRef .tc main_arg10)) := by
  unfold val10
  simp only [w10]
  after_results_simp
  simp only [TRef.toBuf, TRef.ofBuf, cast_cast, cast_eq, val9_arg V main_arg8 (by decide), val9_main_v23 V, val9_arg V main_arg9 (by decide), val9_main_v11 V, val9_arg V main_arg10 (by decide)] <;> rfl

/-! ## Window 11 -/

/-- The buffer contents after the first 11 windows. -/
def val11 (V : Valuation τ sig (Elt F)) : Valuation τ sig (Elt F) := after w11 (val10 V)

/-- The buffers window 11 writes. -/
abbrev w11_W : List (Ref sig .tc) :=
  [main_call4_cst, main_call4_v0, main_v49]

set_option maxRecDepth 8192 in
theorem w11_writes : (w11 : List (HloOp τ sig (Elt F))).Forall fun op =>
    op.writes ⊆ (w11_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 11 does not write keeps its contents through it. -/
theorem val11_keep (V : Valuation τ sig (Elt F)) (r : Ref sig .tc) (h : r ∉ w11_W) :
    val11 V (Proc.devRef .tc r) = val10 V (Proc.devRef .tc r) :=
  after_of_writes_sub w11 _ w11_writes h

theorem val11_arg (V : Valuation τ sig (Elt F)) (r : Ref sig .tc) (hr : r ∈ argRefs) :
    val11 V (no_index (Proc.devRef .tc r)) = V (Proc.devRef .tc r) :=
  (val11_keep V r ((by decide : ∀ r ∈ argRefs, r ∉ w11_W) r hr)).trans (val10_arg V r hr)

theorem val11_main_v3 (V : Valuation τ sig (Elt F)) :
    val11 V (no_index (Proc.devRef .tc main_v3)) = nodeIdx :=
  (val11_keep V main_v3 (by decide)).trans (val10_main_v3 V)

theorem val11_main_v7 (V : Valuation τ sig (Elt F)) :
    val11 V (no_index (Proc.devRef .tc main_v7)) = attrIdx :=
  (val11_keep V main_v7 (by decide)).trans (val10_main_v7 V)

theorem val11_main_v36 (V : Valuation τ sig (Elt F)) :
    val11 V (no_index (Proc.devRef .tc main_v36)) = r36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val11_keep V main_v36 (by decide)).trans (val10_main_v36 V)

set_option maxRecDepth 8192 in
theorem val11_main_v49 (V : Valuation τ sig (Elt F)) :
    val11 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val11
  simp only [w11]
  after_results_simp
  simp only [TRef.toBuf, TRef.ofBuf, cast_cast, cast_eq, val10_main_v48 V] <;> rfl

/-! ## Window 12 -/

/-- The buffer contents after the first 12 windows. -/
def val12 (V : Valuation τ sig (Elt F)) : Valuation τ sig (Elt F) := after w12 (val11 V)

/-- The buffers window 12 writes. -/
abbrev w12_W : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v50]

set_option maxRecDepth 8192 in
theorem w12_writes : (w12 : List (HloOp τ sig (Elt F))).Forall fun op =>
    op.writes ⊆ (w12_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 12 does not write keeps its contents through it. -/
theorem val12_keep (V : Valuation τ sig (Elt F)) (r : Ref sig .tc) (h : r ∉ w12_W) :
    val12 V (Proc.devRef .tc r) = val11 V (Proc.devRef .tc r) :=
  after_of_writes_sub w12 _ w12_writes h

theorem val12_arg (V : Valuation τ sig (Elt F)) (r : Ref sig .tc) (hr : r ∈ argRefs) :
    val12 V (no_index (Proc.devRef .tc r)) = V (Proc.devRef .tc r) :=
  (val12_keep V r ((by decide : ∀ r ∈ argRefs, r ∉ w12_W) r hr)).trans (val11_arg V r hr)

theorem val12_main_v3 (V : Valuation τ sig (Elt F)) :
    val12 V (no_index (Proc.devRef .tc main_v3)) = nodeIdx :=
  (val12_keep V main_v3 (by decide)).trans (val11_main_v3 V)

theorem val12_main_v7 (V : Valuation τ sig (Elt F)) :
    val12 V (no_index (Proc.devRef .tc main_v7)) = attrIdx :=
  (val12_keep V main_v7 (by decide)).trans (val11_main_v7 V)

theorem val12_main_v36 (V : Valuation τ sig (Elt F)) :
    val12 V (no_index (Proc.devRef .tc main_v36)) = r36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val12_keep V main_v36 (by decide)).trans (val11_main_v36 V)

theorem val12_main_v49 (V : Valuation τ sig (Elt F)) :
    val12 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val12_keep V main_v49 (by decide)).trans (val11_main_v49 V)

/-! ## Window 13 -/

/-- The buffer contents after the first 13 windows. -/
def val13 (V : Valuation τ sig (Elt F)) : Valuation τ sig (Elt F) := after w13 (val12 V)

/-- The buffers window 13 writes. -/
abbrev w13_W : List (Ref sig .tc) :=
  [main_cst_3, main_v51, main_v52, main_v53, main_cst_4]

set_option maxRecDepth 8192 in
theorem w13_writes : (w13 : List (HloOp τ sig (Elt F))).Forall fun op =>
    op.writes ⊆ (w13_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 13 does not write keeps its contents through it. -/
theorem val13_keep (V : Valuation τ sig (Elt F)) (r : Ref sig .tc) (h : r ∉ w13_W) :
    val13 V (Proc.devRef .tc r) = val12 V (Proc.devRef .tc r) :=
  after_of_writes_sub w13 _ w13_writes h

theorem val13_arg (V : Valuation τ sig (Elt F)) (r : Ref sig .tc) (hr : r ∈ argRefs) :
    val13 V (no_index (Proc.devRef .tc r)) = V (Proc.devRef .tc r) :=
  (val13_keep V r ((by decide : ∀ r ∈ argRefs, r ∉ w13_W) r hr)).trans (val12_arg V r hr)

theorem val13_main_v3 (V : Valuation τ sig (Elt F)) :
    val13 V (no_index (Proc.devRef .tc main_v3)) = nodeIdx :=
  (val13_keep V main_v3 (by decide)).trans (val12_main_v3 V)

theorem val13_main_v7 (V : Valuation τ sig (Elt F)) :
    val13 V (no_index (Proc.devRef .tc main_v7)) = attrIdx :=
  (val13_keep V main_v7 (by decide)).trans (val12_main_v7 V)

theorem val13_main_v36 (V : Valuation τ sig (Elt F)) :
    val13 V (no_index (Proc.devRef .tc main_v36)) = r36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val13_keep V main_v36 (by decide)).trans (val12_main_v36 V)

theorem val13_main_v49 (V : Valuation τ sig (Elt F)) :
    val13 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val13_keep V main_v49 (by decide)).trans (val12_main_v49 V)

/-! ## Window 14 -/

/-- The buffer contents after the first 14 windows. -/
def val14 (V : Valuation τ sig (Elt F)) : Valuation τ sig (Elt F) := after w14 (val13 V)

/-- The buffers window 14 writes. -/
abbrev w14_W : List (Ref sig .tc) :=
  [main_v54, main_v55]

set_option maxRecDepth 8192 in
theorem w14_writes : (w14 : List (HloOp τ sig (Elt F))).Forall fun op =>
    op.writes ⊆ (w14_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 14 does not write keeps its contents through it. -/
theorem val14_keep (V : Valuation τ sig (Elt F)) (r : Ref sig .tc) (h : r ∉ w14_W) :
    val14 V (Proc.devRef .tc r) = val13 V (Proc.devRef .tc r) :=
  after_of_writes_sub w14 _ w14_writes h

theorem val14_arg (V : Valuation τ sig (Elt F)) (r : Ref sig .tc) (hr : r ∈ argRefs) :
    val14 V (no_index (Proc.devRef .tc r)) = V (Proc.devRef .tc r) :=
  (val14_keep V r ((by decide : ∀ r ∈ argRefs, r ∉ w14_W) r hr)).trans (val13_arg V r hr)

theorem val14_main_v3 (V : Valuation τ sig (Elt F)) :
    val14 V (no_index (Proc.devRef .tc main_v3)) = nodeIdx :=
  (val14_keep V main_v3 (by decide)).trans (val13_main_v3 V)

theorem val14_main_v7 (V : Valuation τ sig (Elt F)) :
    val14 V (no_index (Proc.devRef .tc main_v7)) = attrIdx :=
  (val14_keep V main_v7 (by decide)).trans (val13_main_v7 V)

theorem val14_main_v36 (V : Valuation τ sig (Elt F)) :
    val14 V (no_index (Proc.devRef .tc main_v36)) = r36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val14_keep V main_v36 (by decide)).trans (val13_main_v36 V)

theorem val14_main_v49 (V : Valuation τ sig (Elt F)) :
    val14 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val14_keep V main_v49 (by decide)).trans (val13_main_v49 V)

/-! ## Window 15 -/

/-- The buffer contents after the first 15 windows. -/
def val15 (V : Valuation τ sig (Elt F)) : Valuation τ sig (Elt F) := after w15 (val14 V)

/-- The buffers window 15 writes. -/
abbrev w15_W : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v56]

set_option maxRecDepth 8192 in
theorem w15_writes : (w15 : List (HloOp τ sig (Elt F))).Forall fun op =>
    op.writes ⊆ (w15_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 15 does not write keeps its contents through it. -/
theorem val15_keep (V : Valuation τ sig (Elt F)) (r : Ref sig .tc) (h : r ∉ w15_W) :
    val15 V (Proc.devRef .tc r) = val14 V (Proc.devRef .tc r) :=
  after_of_writes_sub w15 _ w15_writes h

theorem val15_arg (V : Valuation τ sig (Elt F)) (r : Ref sig .tc) (hr : r ∈ argRefs) :
    val15 V (no_index (Proc.devRef .tc r)) = V (Proc.devRef .tc r) :=
  (val15_keep V r ((by decide : ∀ r ∈ argRefs, r ∉ w15_W) r hr)).trans (val14_arg V r hr)

theorem val15_main_v3 (V : Valuation τ sig (Elt F)) :
    val15 V (no_index (Proc.devRef .tc main_v3)) = nodeIdx :=
  (val15_keep V main_v3 (by decide)).trans (val14_main_v3 V)

theorem val15_main_v49 (V : Valuation τ sig (Elt F)) :
    val15 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val15_keep V main_v49 (by decide)).trans (val14_main_v49 V)

set_option maxRecDepth 8192 in
set_option maxHeartbeats 2000000 in
theorem val15_main_v56 (V : Valuation τ sig (Elt F)) :
    val15 V (no_index (Proc.devRef .tc main_v56)) = r56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val15
  simp only [w15]
  after_results_simp
  simp only [TRef.toBuf, TRef.ofBuf, cast_cast, cast_eq, val14_main_v7 V, val14_main_v36 V] <;> rfl

/-! ## Window 16 -/

/-- The buffer contents after the first 16 windows. -/
def val16 (V : Valuation τ sig (Elt F)) : Valuation τ sig (Elt F) := after w16 (val15 V)

/-- The buffers window 16 writes. -/
abbrev w16_W : List (Ref sig .tc) :=
  [main_cst_5, main_v57, main_v58, main_v59, main_cst_6, main_v60, main_v61]

set_option maxRecDepth 8192 in
theorem w16_writes : (w16 : List (HloOp τ sig (Elt F))).Forall fun op =>
    op.writes ⊆ (w16_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 16 does not write keeps its contents through it. -/
theorem val16_keep (V : Valuation τ sig (Elt F)) (r : Ref sig .tc) (h : r ∉ w16_W) :
    val16 V (Proc.devRef .tc r) = val15 V (Proc.devRef .tc r) :=
  after_of_writes_sub w16 _ w16_writes h

theorem val16_arg (V : Valuation τ sig (Elt F)) (r : Ref sig .tc) (hr : r ∈ argRefs) :
    val16 V (no_index (Proc.devRef .tc r)) = V (Proc.devRef .tc r) :=
  (val16_keep V r ((by decide : ∀ r ∈ argRefs, r ∉ w16_W) r hr)).trans (val15_arg V r hr)

theorem val16_main_v49 (V : Valuation τ sig (Elt F)) :
    val16 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val16_keep V main_v49 (by decide)).trans (val15_main_v49 V)

set_option maxRecDepth 8192 in
theorem val16_main_v61 (V : Valuation τ sig (Elt F)) :
    val16 V (no_index (Proc.devRef .tc main_v61)) = r61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val16
  simp only [w16]
  after_results_simp
  simp only [TRef.toBuf, TRef.ofBuf, cast_cast, cast_eq, val15_main_v3 V, val15_main_v56 V] <;> rfl

/-! ## Window 17 -/

/-- The buffer contents after the first 17 windows. -/
def val17 (V : Valuation τ sig (Elt F)) : Valuation τ sig (Elt F) := after w17 (val16 V)

/-- The buffers window 17 writes. -/
abbrev w17_W : List (Ref sig .tc) :=
  [main_v62, main_v63, main_v64, main_v65, main_v66, main_v67, main_v68, main_v69, main_v70, main_v71, main_v72, main_v73]

set_option maxRecDepth 8192 in
theorem w17_writes : (w17 : List (HloOp τ sig (Elt F))).Forall fun op =>
    op.writes ⊆ (w17_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 17 does not write keeps its contents through it. -/
theorem val17_keep (V : Valuation τ sig (Elt F)) (r : Ref sig .tc) (h : r ∉ w17_W) :
    val17 V (Proc.devRef .tc r) = val16 V (Proc.devRef .tc r) :=
  after_of_writes_sub w17 _ w17_writes h

theorem val17_arg (V : Valuation τ sig (Elt F)) (r : Ref sig .tc) (hr : r ∈ argRefs) :
    val17 V (no_index (Proc.devRef .tc r)) = V (Proc.devRef .tc r) :=
  (val17_keep V r ((by decide : ∀ r ∈ argRefs, r ∉ w17_W) r hr)).trans (val16_arg V r hr)

theorem val17_main_v49 (V : Valuation τ sig (Elt F)) :
    val17 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val17_keep V main_v49 (by decide)).trans (val16_main_v49 V)

theorem val17_main_v61 (V : Valuation τ sig (Elt F)) :
    val17 V (no_index (Proc.devRef .tc main_v61)) = r61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val17_keep V main_v61 (by decide)).trans (val16_main_v61 V)

/-! ## Window 18 -/

/-- The buffer contents after the first 18 windows. -/
def val18 (V : Valuation τ sig (Elt F)) : Valuation τ sig (Elt F) := after w18 (val17 V)

/-- The buffers window 18 writes. -/
abbrev w18_W : List (Ref sig .tc) :=
  [main_call7_cst, main_call7_v0, main_v74]

set_option maxRecDepth 8192 in
theorem w18_writes : (w18 : List (HloOp τ sig (Elt F))).Forall fun op =>
    op.writes ⊆ (w18_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 18 does not write keeps its contents through it. -/
theorem val18_keep (V : Valuation τ sig (Elt F)) (r : Ref sig .tc) (h : r ∉ w18_W) :
    val18 V (Proc.devRef .tc r) = val17 V (Proc.devRef .tc r) :=
  after_of_writes_sub w18 _ w18_writes h

theorem val18_arg (V : Valuation τ sig (Elt F)) (r : Ref sig .tc) (hr : r ∈ argRefs) :
    val18 V (no_index (Proc.devRef .tc r)) = V (Proc.devRef .tc r) :=
  (val18_keep V r ((by decide : ∀ r ∈ argRefs, r ∉ w18_W) r hr)).trans (val17_arg V r hr)

theorem val18_main_v49 (V : Valuation τ sig (Elt F)) :
    val18 V (no_index (Proc.devRef .tc main_v49)) = r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val18_keep V main_v49 (by decide)).trans (val17_main_v49 V)

theorem val18_main_v61 (V : Valuation τ sig (Elt F)) :
    val18 V (no_index (Proc.devRef .tc main_v61)) = r61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (val18_keep V main_v61 (by decide)).trans (val17_main_v61 V)

/-! ## Window 19 -/

/-- The buffer contents after the first 19 windows. -/
def val19 (V : Valuation τ sig (Elt F)) : Valuation τ sig (Elt F) := after w19 (val18 V)

/-- The buffers window 19 writes. -/
abbrev w19_W : List (Ref sig .tc) :=
  [main_v75, main_v76, main_v77, main_v78, main_v79, main_v80, main_v81, main_v82, main_v83, main_v84, main_v85, main_v86]

set_option maxRecDepth 8192 in
theorem w19_writes : (w19 : List (HloOp τ sig (Elt F))).Forall fun op =>
    op.writes ⊆ (w19_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 19 does not write keeps its contents through it. -/
theorem val19_keep (V : Valuation τ sig (Elt F)) (r : Ref sig .tc) (h : r ∉ w19_W) :
    val19 V (Proc.devRef .tc r) = val18 V (Proc.devRef .tc r) :=
  after_of_writes_sub w19 _ w19_writes h

theorem val19_arg (V : Valuation τ sig (Elt F)) (r : Ref sig .tc) (hr : r ∈ argRefs) :
    val19 V (no_index (Proc.devRef .tc r)) = V (Proc.devRef .tc r) :=
  (val19_keep V r ((by decide : ∀ r ∈ argRefs, r ∉ w19_W) r hr)).trans (val18_arg V r hr)

set_option maxRecDepth 8192 in
set_option maxHeartbeats 1200000 in
theorem val19_main_v86 (V : Valuation τ sig (Elt F)) :
    val19 V (no_index (Proc.devRef .tc main_v86)) = preV1 (r61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (r49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg8)) (V (Proc.devRef .tc main_arg9)) (V (Proc.devRef .tc main_arg10)) := by
  unfold val19
  simp only [w19]
  after_results_simp
  simp only [TRef.toBuf, TRef.ofBuf, cast_cast, cast_eq, val18_arg V main_arg8 (by decide), val18_main_v61 V, val18_arg V main_arg9 (by decide), val18_main_v49 V, val18_arg V main_arg10 (by decide)] <;> rfl

/-! ## Window 20 -/

/-- The buffer contents after the first 20 windows. -/
def val20 (V : Valuation τ sig (Elt F)) : Valuation τ sig (Elt F) := after w20 (val19 V)

/-- The buffers window 20 writes. -/
abbrev w20_W : List (Ref sig .tc) :=
  [main_call8_cst, main_call8_v0, main_v87]

set_option maxRecDepth 8192 in
theorem w20_writes : (w20 : List (HloOp τ sig (Elt F))).Forall fun op =>
    op.writes ⊆ (w20_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 20 does not write keeps its contents through it. -/
theorem val20_keep (V : Valuation τ sig (Elt F)) (r : Ref sig .tc) (h : r ∉ w20_W) :
    val20 V (Proc.devRef .tc r) = val19 V (Proc.devRef .tc r) :=
  after_of_writes_sub w20 _ w20_writes h

theorem val20_arg (V : Valuation τ sig (Elt F)) (r : Ref sig .tc) (hr : r ∈ argRefs) :
    val20 V (no_index (Proc.devRef .tc r)) = V (Proc.devRef .tc r) :=
  (val20_keep V r ((by decide : ∀ r ∈ argRefs, r ∉ w20_W) r hr)).trans (val19_arg V r hr)

set_option maxRecDepth 8192 in
theorem val20_main_v87 (V : Valuation τ sig (Elt F)) :
    val20 V (no_index (Proc.devRef .tc main_v87)) = r87 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val20
  simp only [w20]
  after_results_simp
  simp only [TRef.toBuf, TRef.ofBuf, cast_cast, cast_eq, val19_main_v86 V] <;> rfl

/-! ## Window 21 -/

/-- The buffer contents after the first 21 windows. -/
def val21 (V : Valuation τ sig (Elt F)) : Valuation τ sig (Elt F) := after w21 (val20 V)

/-- The buffers window 21 writes. -/
abbrev w21_W : List (Ref sig .tc) :=
  [main_v88, main_v89, main_v90, main_v91]

set_option maxRecDepth 8192 in
theorem w21_writes : (w21 : List (HloOp τ sig (Elt F))).Forall fun op =>
    op.writes ⊆ (w21_W.map (Proc.devRef (τ := τ) .tc)).toFinset :=
  ⟨Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide))),
   Finset.singleton_subset_iff.mpr (List.mem_toFinset.mpr (List.mem_map_of_mem (f := Proc.devRef (τ := τ) .tc) (by decide)))⟩

/-- A buffer window 21 does not write keeps its contents through it. -/
theorem val21_keep (V : Valuation τ sig (Elt F)) (r : Ref sig .tc) (h : r ∉ w21_W) :
    val21 V (Proc.devRef .tc r) = val20 V (Proc.devRef .tc r) :=
  after_of_writes_sub w21 _ w21_writes h

theorem val21_arg (V : Valuation τ sig (Elt F)) (r : Ref sig .tc) (hr : r ∈ argRefs) :
    val21 V (no_index (Proc.devRef .tc r)) = V (Proc.devRef .tc r) :=
  (val21_keep V r ((by decide : ∀ r ∈ argRefs, r ∉ w21_W) r hr)).trans (val20_arg V r hr)

set_option maxRecDepth 8192 in
theorem val21_main_v91 (V : Valuation τ sig (Elt F)) :
    val21 V (no_index (Proc.devRef .tc main_v91)) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val21
  simp only [w21]
  after_results_simp
  simp only [TRef.toBuf, TRef.ofBuf, cast_cast, cast_eq, val20_main_v87 V, val20_arg V main_arg11 (by decide), val20_arg V main_arg12 (by decide)] <;> rfl

/-! ## The whole line -/

/-- The contents after the whole line are the contents after the last window. -/
theorem after_ops (V : Valuation τ sig (Elt F)) : after (ops (F := F)) V = val21 V := by
  simp only [ops, opsP0, opsP1, Cert.LibFold.after_append, val21, val20, val19, val18, val17, val16, val15, val14, val13, val12, val11, val10, val9, val8, val7, val6, val5, val4, val3, val2, val1, val0]

/-- The result buffer holds the result term of the launch contents of the thirteen arguments. -/
theorem out_eq (V : Valuation τ sig (Elt F)) :
    after (ops (F := F)) V (Proc.devRef .tc main_v91) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]; exact val21_main_v91 V

/-- No operation writes an argument buffer. -/
theorem arg_eq (V : Valuation τ sig (Elt F)) (r : Ref sig .tc) (hr : r ∈ argRefs) :
    after (ops (F := F)) V (Proc.devRef .tc r) = V (Proc.devRef .tc r) := by
  rw [after_ops]; exact val21_arg V r hr

/-- On every device, from any memory with zero counters: every weakly fair execution of the reference terminates with
    the result buffer at the result term of the arguments' launch contents and the thirteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v91) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v91).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide)),
      (h c main_arg11).trans (arg_eq (launchContents m c) main_arg11 (by decide)),
      (h c main_arg12).trans (arg_eq (launchContents m c) main_arg12 (by decide))⟩)
    (run_seq scopedRefs_eq scopedSems_eq defs main (fun _ => ops) main_eq (fun _ => ops_sub) m ρ (fun _ => ops_fresh))

end Cert.ReferenceIdeal.RefRun

end
-- ==== Proof.LibHostDot.lean ====
/-
  A general fact, at the exact instance (floats as extended reals): the host's product of an [M, K] matrix by a
  [K, N] matrix contracted over K, read at (p, q), is the sum over k of x(p, k) · w(k, q); and a vector broadcast
  first to one row [1, N] and then down the rows to [M, N] (the host's two `broadcast_in_dim`s of a bias) reads, at
  (p, q), the vector at q; a scalar broadcast to [M, N] reads the scalar everywhere.
-/
import Idealize.ShloMosaic.PureOps.Ideal.Laws
import Idealize.ShloMosaic.Lib.ValueIdx
import Idealize.ShloMosaic.Lib.Pipeline.Value

noncomputable section

namespace Cert.LibHostDot

open Idealize.ShloMosaic Idealize.ShloMosaic.ValueIdx

variable {α : Type} {M K N : Nat}

/-- The host's product of an [M, K] by a [K, N] matrix, read at (p, q): the sum over the contracted coordinate k of
    x(p, k) · w(k, q). The four hypotheses say which operand coordinate each of the product's index maps takes from
    the output index and which from the contraction index. -/
theorem dotGeneral_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    Host.dotGeneral D prec x w (ix2 p q) = ∑ k : Fin K, x (ix2 p k) * w (ix2 k q) := by
  refine (Ideal.dotGeneral_apply D prec .single x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector broadcast to one row [1, N] and then down the rows to [M, N] reads, at (p, q), the vector at q
    (N is not 1: the vector's axis is a real axis). -/
theorem rowBroadcastInDim_rc (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show 0 = if (1 : Nat) = 1 then 0 else p.val; rw [if_pos rfl]
    | ⟨1, _⟩ => show q.val = if N = 1 then 0 else q.val; rw [if_neg hN]
  · match a with
    | ⟨0, _⟩ => show q.val = if N = 1 then 0 else q.val; rw [if_neg hN]

/-- A scalar broadcast to any shape reads the scalar at every index. -/
theorem scalarBroadcastInDim_apply {t : Shape} (h : (⟨0, ![]⟩ : Shape).BroadcastsInDim t (![] : Fin 0 → Fin t.rank))
    (x : (⟨0, ![]⟩ : Shape).Idx → α) (j : t.Idx) (u : (⟨0, ![]⟩ : Shape).Idx) :
    broadcastInDim t ![] h x j = x u :=
  broadcastInDim_apply ![] h x j u fun a => a.elim0

end Cert.LibHostDot

end
-- ==== Proof.RefRead.lean ====
/-
  The dense stages of the reference read at an index, at the exact instance (floats as extended reals): each matrix
  product is the row-by-column sum, each bias broadcast reads the bias at the column, a slice of a stacked weight
  array reads the stack at the slice's number, and the rectifier is the larger of the entry and zero.
-/
import proofs.«119914_g24988119728772_cont_9to1_1483_19_alg».proof.Proof.RefTerms
import proofs.«119914_g24988119728772_cont_9to1_1483_19_alg».proof.Proof.LibHostDot
import Idealize.ShloMosaic.PureOps.Ideal.Laws
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.ValueIdx

/-! ## The four matrix products -/

theorem dotIn (x : FVec Ideal ⟨2, ![10000, 256]⟩ .f32) (w : FVec Ideal ⟨2, ![256, 128]⟩ .f32) (p : Fin 10000) (q : Fin 128) :
    Host.dotGeneral dot_S10000x256_S256x128_S10000x128_1_0_0_1_n_n none x w (ix2 p q) = ∑ k : Fin 256, x (ix2 p k) * w (ix2 k q) :=
  Cert.LibHostDot.dotGeneral_rc (M := 10000) (K := 256) (N := 128) dot_S10000x256_S256x128_S10000x128_1_0_0_1_n_n rfl rfl
    (fun _ _ => rfl) (fun i c => DotDims.lhsIdx_val_of_single _ rfl i c) (fun i c => DotDims.rhsIdx_val_of_single _ rfl i c)
    (fun _ _ => rfl) none x w p q

theorem dotAttr (x : FVec Ideal ⟨2, ![32, 128]⟩ .f32) (w : FVec Ideal ⟨2, ![128, 128]⟩ .f32) (p : Fin 32) (q : Fin 128) :
    Host.dotGeneral dot_S32x128_S128x128_S32x128_1_0_0_1_n_n none x w (ix2 p q) = ∑ k : Fin 128, x (ix2 p k) * w (ix2 k q) :=
  Cert.LibHostDot.dotGeneral_rc (M := 32) (K := 128) (N := 128) dot_S32x128_S128x128_S32x128_1_0_0_1_n_n rfl rfl
    (fun _ _ => rfl) (fun i c => DotDims.lhsIdx_val_of_single _ rfl i c) (fun i c => DotDims.rhsIdx_val_of_single _ rfl i c)
    (fun _ _ => rfl) none x w p q

theorem dotNode (x : FVec Ideal ⟨2, ![10000, 128]⟩ .f32) (w : FVec Ideal ⟨2, ![128, 128]⟩ .f32) (p : Fin 10000) (q : Fin 128) :
    Host.dotGeneral dot_S10000x128_S128x128_S10000x128_1_0_0_1_n_n none x w (ix2 p q) = ∑ k : Fin 128, x (ix2 p k) * w (ix2 k q) :=
  Cert.LibHostDot.dotGeneral_rc (M := 10000) (K := 128) (N := 128) dot_S10000x128_S128x128_S10000x128_1_0_0_1_n_n rfl rfl
    (fun _ _ => rfl) (fun i c => DotDims.lhsIdx_val_of_single _ rfl i c) (fun i c => DotDims.rhsIdx_val_of_single _ rfl i c)
    (fun _ _ => rfl) none x w p q

theorem dotOut (x : FVec Ideal ⟨2, ![10000, 128]⟩ .f32) (w : FVec Ideal ⟨2, ![128, 256]⟩ .f32) (p : Fin 10000) (q : Fin 256) :
    Host.dotGeneral dot_S10000x128_S128x256_S10000x256_1_0_0_1_n_n none x w (ix2 p q) = ∑ k : Fin 128, x (ix2 p k) * w (ix2 k q) :=
  Cert.LibHostDot.dotGeneral_rc (M := 10000) (K := 128) (N := 256) dot_S10000x128_S128x256_S10000x256_1_0_0_1_n_n rfl rfl
    (fun _ _ => rfl) (fun i c => DotDims.lhsIdx_val_of_single _ rfl i c) (fun i c => DotDims.rhsIdx_val_of_single _ rfl i c)
    (fun _ _ => rfl) none x w p q

/-! ## The slices of the stacked weights -/

/-- Slice 0 of a stack of two 128 by 128 matrices, as a matrix, read at (j, k). -/
theorem sliceM0_apply (W : FVec Ideal S2x128x128 .f32) (j k : Fin 128) :
    shapeCast S128x128 (extractStridedSlice S1x128x128 ![0, 0, 0] W slices_S2x128x128_S1x128x128_0_0_0)
      shapeCasts_S1x128x128_S128x128 (ix2 j k) = W (ix3 (0 : Fin 2) j k) := by
  rw [shapeCast_apply _ _ (ix2 j k) (ix3 (0 : Fin 1) j k) (by
    rw [Shape.rowMajor_val_three, Shape.rowMajor_val_two]
    show (0 * 128 + j.val) * 128 + k.val = j.val * 128 + k.val
    omega)]
  exact extractStridedSlice_apply _ _ _ (ix3 (0 : Fin 1) j k) (ix3 (0 : Fin 2) j k) (fun a => by
    match a with
    | ⟨0, _⟩ => rfl
    | ⟨1, _⟩ => show j.val = 0 + j.val; omega
    | ⟨2, _⟩ => show k.val = 0 + k.val; omega)

/-- Row 0 of a stack of two 128-vectors, as a vector, read at k. -/
theorem sliceV0_apply (B : FVec Ideal S2x128 .f32) (k : Fin 128) :
    shapeCast S128 (extractStridedSlice S1x128 ![0, 0] B slices_S2x128_S1x128_0_0) shapeCasts_S1x128_S128 (ix1 k)
      = B (ix2 (0 : Fin 2) k) := by
  rw [shapeCast_apply _ _ (ix1 k) (ix2 (0 : Fin 1) k) (by
    rw [Shape.rowMajor_val_two, Shape.rowMajor_val_one]
    show 0 * 128 + k.val = k.val
    omega)]
  exact extractStridedSlice_apply _ _ _ (ix2 (0 : Fin 1) k) (ix2 (0 : Fin 2) k) (fun a => by
    match a with
    | ⟨0, _⟩ => rfl
    | ⟨1, _⟩ => show k.val = 0 + k.val; omega)

/-- Slice 1 of a stack of two 128 by 128 matrices, as a matrix, read at (j, k). -/
theorem sliceM1_apply (W : FVec Ideal S2x128x128 .f32) (j k : Fin 128) :
    shapeCast S128x128 (extractStridedSlice S1x128x128 ![1, 0, 0] W slices_S2x128x128_S1x128x128_1_0_0)
      shapeCasts_S1x128x128_S128x128 (ix2 j k) = W (ix3 (1 : Fin 2) j k) := by
  rw [shapeCast_apply _ _ (ix2 j k) (ix3 (0 : Fin 1) j k) (by
    rw [Shape.rowMajor_val_three, Shape.rowMajor_val_two]
    show (0 * 128 + j.val) * 128 + k.val = j.val * 128 + k.val
    omega)]
  exact extractStridedSlice_apply _ _ _ (ix3 (0 : Fin 1) j k) (ix3 (1 : Fin 2) j k) (fun a => by
    match a with
    | ⟨0, _⟩ => rfl
    | ⟨1, _⟩ => show j.val = 0 + j.val; omega
    | ⟨2, _⟩ => show k.val = 0 + k.val; omega)

/-- Row 1 of a stack of two 128-vectors, as a vector, read at k. -/
theorem sliceV1_apply (B : FVec Ideal S2x128 .f32) (k : Fin 128) :
    shapeCast S128 (extractStridedSlice S1x128 ![1, 0] B slices_S2x128_S1x128_1_0) shapeCasts_S1x128_S128 (ix1 k)
      = B (ix2 (1 : Fin 2) k) := by
  rw [shapeCast_apply _ _ (ix1 k) (ix2 (0 : Fin 1) k) (by
    rw [Shape.rowMajor_val_two, Shape.rowMajor_val_one]
    show 0 * 128 + k.val = k.val
    omega)]
  exact extractStridedSlice_apply _ _ _ (ix2 (0 : Fin 1) k) (ix2 (1 : Fin 2) k) (fun a => by
    match a with
    | ⟨0, _⟩ => rfl
    | ⟨1, _⟩ => show k.val = 0 + k.val; omega)

/-! ## The stages -/

theorem hv0_apply (v : FVec Ideal S10000x256 .f32) (w : FVec Ideal S256x128 .f32) (b : FVec Ideal S128 .f32)
    (n : Fin 10000) (k : Fin 128) :
    hv0 (F := Ideal) v w b (ix2 n k) = (∑ j : Fin 256, v (ix2 n j) * w (ix2 j k)) + b (ix1 k) := by
  unfold hv0
  rw [addf_apply, dotIn, Cert.LibHostDot.rowBroadcastInDim_rc (by decide)]

theorem preA0_apply (agg h : FVec Ideal ⟨2, ![32, 128]⟩ .f32) (w u : FVec Ideal S2x128x128 .f32) (b : FVec Ideal S2x128 .f32)
    (p : Fin 32) (k : Fin 128) :
    preA0 (F := Ideal) agg h w u b (ix2 p k)
      = ((∑ j : Fin 128, agg (ix2 p j) * w (ix3 (0 : Fin 2) j k)) + (∑ j : Fin 128, h (ix2 p j) * u (ix3 (0 : Fin 2) j k)))
        + b (ix2 (0 : Fin 2) k) := by
  unfold preA0
  rw [addf_apply, addf_apply, dotAttr, dotAttr, Cert.LibHostDot.rowBroadcastInDim_rc (by decide), sliceV0_apply]
  simp only [sliceM0_apply]

theorem preV0_apply (agg h : FVec Ideal ⟨2, ![10000, 128]⟩ .f32) (w u : FVec Ideal S2x128x128 .f32) (b : FVec Ideal S2x128 .f32)
    (p : Fin 10000) (k : Fin 128) :
    preV0 (F := Ideal) agg h w u b (ix2 p k)
      = ((∑ j : Fin 128, agg (ix2 p j) * w (ix3 (0 : Fin 2) j k)) + (∑ j : Fin 128, h (ix2 p j) * u (ix3 (0 : Fin 2) j k)))
        + b (ix2 (0 : Fin 2) k) := by
  unfold preV0
  rw [addf_apply, addf_apply, dotNode, dotNode, Cert.LibHostDot.rowBroadcastInDim_rc (by decide), sliceV0_apply]
  simp only [sliceM0_apply]

theorem preV1_apply (agg h : FVec Ideal ⟨2, ![10000, 128]⟩ .f32) (w u : FVec Ideal S2x128x128 .f32) (b : FVec Ideal S2x128 .f32)
    (p : Fin 10000) (k : Fin 128) :
    preV1 (F := Ideal) agg h w u b (ix2 p k)
      = ((∑ j : Fin 128, agg (ix2 p j) * w (ix3 (1 : Fin 2) j k)) + (∑ j : Fin 128, h (ix2 p j) * u (ix3 (1 : Fin 2) j k)))
        + b (ix2 (1 : Fin 2) k) := by
  unfold preV1
  rw [addf_apply, addf_apply, dotNode, dotNode, Cert.LibHostDot.rowBroadcastInDim_rc (by decide), sliceV1_apply]
  simp only [sliceM1_apply]

theorem reluA_apply (x : FVec Ideal ⟨2, ![32, 128]⟩ .f32) (p : Fin 32) (k : Fin 128) :
    reluA (F := Ideal) x (ix2 p k) = max (x (ix2 p k)) 0 := by
  unfold reluA
  rw [maximumf_apply, Cert.LibHostDot.scalarBroadcastInDim_apply _ _ _ ix0, constant_apply, Ideal.ofBits_zero_f32]

theorem reluV_apply (x : FVec Ideal ⟨2, ![10000, 128]⟩ .f32) (p : Fin 10000) (k : Fin 128) :
    reluV (F := Ideal) x (ix2 p k) = max (x (ix2 p k)) 0 := by
  unfold reluV
  rw [maximumf_apply, Cert.LibHostDot.scalarBroadcastInDim_apply _ _ _ ix0, constant_apply, Ideal.ofBits_zero_f32]

theorem outP_apply (h : FVec Ideal S10000x128 .f32) (w : FVec Ideal S128x256 .f32) (b : FVec Ideal S256 .f32)
    (p : Fin 10000) (q : Fin 256) :
    outP (F := Ideal) h w b (ix2 p q) = (∑ k : Fin 128, h (ix2 p k) * w (ix2 k q)) + b (ix1 q) := by
  unfold outP
  rw [addf_apply, dotOut, Cert.LibHostDot.rowBroadcastInDim_rc (by decide)]

end Cert.ReferenceIdeal.RefRun

end
-- ==== Proof.LibRowScatter.lean ====
/-
  General facts, at the exact instance (floats as extended reals), about a scatter-add of the ROWS of an [E, F] array
  of updates into an [N, F] array, the row each update row goes to read off an [E, 1] array of signed integers (what
  a segment sum over a list of receivers lowers to): read at (n, g), the result is the operand's entry plus the sum,
  over the update rows e whose integer is n, of the update's entry (e, g); an update row whose integer is negative or
  not below N contributes nothing. Then the law that lets such a sum pass through a matrix product with real
  entries: the rows' sum of (a term plus a row-by-column product) is the rows' sum of the terms plus the
  product of the rows' sum.
-/
import Idealize.ShloMosaic.PureOps.Ideal
import Idealize.ShloMosaic.PureOps.Ideal.Laws
import Idealize.ShloMosaic.PureOps.Contract
import Idealize.ShloMosaic.Lib.ValueIdx

noncomputable section

namespace Cert.LibRowScatter

open Idealize.ShloMosaic Idealize.ShloMosaic.ValueIdx

variable {N E F : Nat}

/-- The dimension numbers of a scatter of whole rows: the updates' second axis is the window, the operand's first
    axis is the one the integer addresses, and each update row has one integer. -/
abbrev rowDims (N E F : Nat) (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF ⟨2, ![N, F]⟩ ⟨2, ![E, 1]⟩ ⟨2, ![E, F]⟩ [1] [0] [0] 1)

/-- On the addressed axis the window starts at update row e's integer, read signed. -/
theorem start_row {w : Nat} (idx : IVec ⟨2, ![E, 1]⟩ w) (e : Fin E) (f : Fin F) :
    (rowDims N E F wf).start (ix2 e f) idx 0 = (idx (ix2 e (0 : Fin 1))).toInt := by
  unfold ScatterDims.start
  rw [dif_pos (show (0 : Fin 2) ∈ (rowDims N E F wf).scatterDimsToOperandDims from List.mem_singleton.mpr rfl)]
  have hsi : (rowDims N E F wf).siIdx (ix2 e f) ⟨List.idxOf (0 : Fin 2) (rowDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window's axis it starts at 0. -/
theorem start_col {w : Nat} (idx : IVec ⟨2, ![E, 1]⟩ w) (j : (⟨2, ![E, F]⟩ : Shape).Idx) :
    (rowDims N E F wf).start j idx 1 = 0 := by
  unfold ScatterDims.start
  rw [dif_neg (show ¬ (1 : Fin 2) ∈ ([0] : List (Fin 2)) by decide)]

/-- The window has no extent on the addressed axis … -/
theorem window_row (j : (⟨2, ![E, F]⟩ : Shape).Idx) : (rowDims N E F wf).window j 0 = 0 := by
  unfold ScatterDims.window
  have h : ¬ (0 : Fin 2) ∈ (rowDims N E F wf).sKept := by
    show ¬ (0 : Fin 2) ∈ ([1] : List (Fin 2))
    decide
  rw [dif_neg h]

/-- … and is the update's column on the other. -/
theorem window_col (e : Fin E) (f : Fin F) : (rowDims N E F wf).window (ix2 e f) 1 = f.val := by
  unfold ScatterDims.window
  have h : (1 : Fin 2) ∈ (rowDims N E F wf).sKept := by
    show (1 : Fin 2) ∈ ([1] : List (Fin 2))
    decide
  rw [dif_pos h]
  rfl

/-- WHERE AN UPDATE ENTRY LANDS: entry (e, f) lands on (n, g) exactly when row e's integer is n and f is g. -/
theorem lands_iff {w : Nat} (idx : IVec ⟨2, ![E, 1]⟩ w) (e : Fin E) (f : Fin F) (n : Fin N) (g : Fin F) :
    (rowDims N E F wf).resultIdx? (ix2 e f) idx = some (ix2 n g)
      ↔ (idx (ix2 e (0 : Fin 1))).toInt = (n.val : Int) ∧ f = g := by
  have h0 : (rowDims N E F wf).start (ix2 e f) idx 0 + ((rowDims N E F wf).window (ix2 e f) 0 : Int)
      = (idx (ix2 e (0 : Fin 1))).toInt := by
    rw [start_row, window_row]; simp
  have h1 : (rowDims N E F wf).start (ix2 e f) idx 1 + ((rowDims N E F wf).window (ix2 e f) 1 : Int) = (f.val : Int) := by
    rw [start_col, window_col]; simp
  unfold ScatterDims.resultIdx?
  split
  · rename_i h
    rw [Option.some.injEq]
    constructor
    · intro hfn
      have e0 := congrArg (fun i => (i 0).val) hfn
      have e1 := congrArg (fun i => (i 1).val) hfn
      have b0 := (h 0).1
      simp only [h0] at e0 b0
      simp only [h1] at e1
      refine ⟨?_, Fin.ext ?_⟩
      · have : ((idx (ix2 e (0 : Fin 1))).toInt.toNat : Int) = (n.val : Int) := by exact_mod_cast e0
        omega
      · have : ((f.val : Int)).toNat = g.val := e1
        omega
    · rintro ⟨hn, rfl⟩
      funext a
      refine Fin.ext ?_
      match a with
      | ⟨0, _⟩ =>
        show ((rowDims N E F wf).start (ix2 e f) idx 0 + ((rowDims N E F wf).window (ix2 e f) 0 : Int)).toNat = n.val
        rw [h0, hn]; simp
      | ⟨1, _⟩ =>
        show ((rowDims N E F wf).start (ix2 e f) idx 1 + ((rowDims N E F wf).window (ix2 e f) 1 : Int)).toNat = f.val
        rw [h1]; simp
  · rename_i h
    constructor
    · intro hc; exact absurd hc (by simp)
    · rintro ⟨hn, rfl⟩
      exfalso
      apply h
      intro a
      match a with
      | ⟨0, _⟩ =>
        show 0 ≤ (rowDims N E F wf).start (ix2 e f) idx 0 + ((rowDims N E F wf).window (ix2 e f) 0 : Int)
          ∧ (rowDims N E F wf).start (ix2 e f) idx 0 + ((rowDims N E F wf).window (ix2 e f) 0 : Int) < (N : Int)
        rw [h0, hn]
        have := n.isLt
        omega
      | ⟨1, _⟩ =>
        show 0 ≤ (rowDims N E F wf).start (ix2 e f) idx 1 + ((rowDims N E F wf).window (ix2 e f) 1 : Int)
          ∧ (rowDims N E F wf).start (ix2 e f) idx 1 + ((rowDims N E F wf).window (ix2 e f) 1 : Int) < (F : Int)
        rw [h1]
        have := f.isLt
        omega

/-- The update rows that land on operand row n: those whose integer, read signed, is n. -/
def rowsOn {w : Nat} (idx : IVec ⟨2, ![E, 1]⟩ w) (n : Fin N) : Finset (Fin E) :=
  Finset.univ.filter fun e => (idx (ix2 e (0 : Fin 1))).toInt = (n.val : Int)

/-- THE SCATTER-ADD OF ROWS READ AT (n, g): the operand's entry plus the sum of the entries (e, g) of the update rows
    e that land on row n. -/
theorem scatterAdd_rows_apply {φ : FTy} {w : Nat} (x : FVec Ideal ⟨2, ![N, F]⟩ φ) (idx : IVec ⟨2, ![E, 1]⟩ w)
    (upd : FVec Ideal ⟨2, ![E, F]⟩ φ) (n : Fin N) (g : Fin F) :
    Host.scatterAdd (F := Ideal) (rowDims N E F wf) x idx upd (ix2 n g)
      = x (ix2 n g) + ∑ e ∈ rowsOn idx n, upd (ix2 e g) := by
  show x (ix2 n g) + ∑ j ∈ Finset.univ.filter (fun j => (rowDims N E F wf).resultIdx? j idx = some (ix2 n g)), upd j = _
  congr 1
  unfold rowsOn
  rw [Finset.sum_filter, sum_idx2, Finset.sum_filter]
  refine Finset.sum_congr rfl fun e _ => ?_
  simp only [lands_iff wf idx e _ n g]
  by_cases hL : (idx (ix2 e (0 : Fin 1))).toInt = (n.val : Int)
  · simp only [hL, true_and, if_true]
    rw [Finset.sum_ite_eq' Finset.univ g (fun f => upd (ix2 e f))]
    simp
  · simp only [hL, false_and, if_false]
    exact Finset.sum_const_zero

/-! ## The law that passes a sum of rows through a product with real entries -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries times a real is the sum of the products. -/
theorem sum_mul_real {ι : Type*} (s : Finset ι) (f : ι → ℝ) (v : ℝ) :
    (∑ i ∈ s, (f i : EReal)) * (v : EReal) = ∑ i ∈ s, (f i : EReal) * (v : EReal) := by
  have h : ∀ i, (f i : EReal) * (v : EReal) = ((f i * v : ℝ) : EReal) := fun i => (EReal.coe_mul _ _).symm
  simp only [h]
  rw [← coe_sum, ← coe_sum, ← EReal.coe_mul, Finset.sum_mul]

/-- Over any finite set R of rows: the sum of (t e + ∑ k, a e k · v k) is the sum of the t e plus ∑ k, (the sum of
    the a e k) · v k, when a and v are real (t may be anything: only sums are regrouped on its side). -/
theorem sum_rows_through_product {ι κ : Type*} [Fintype κ] (R : Finset ι) (t : ι → EReal) (a : ι → κ → EReal)
    (v : κ → EReal) (ha : ∀ e k, ∃ r : ℝ, a e k = (r : EReal)) (hv : ∀ k, ∃ r : ℝ, v k = (r : EReal)) :
    ∑ e ∈ R, (t e + ∑ k, a e k * v k) = ∑ e ∈ R, t e + ∑ k, (∑ e ∈ R, a e k) * v k := by
  choose ra hra using ha
  choose rv hrv using hv
  rw [Finset.sum_add_distrib]
  congr 1
  rw [Finset.sum_comm]
  refine Finset.sum_congr rfl fun k _ => ?_
  simp only [hra, hrv]
  exact (sum_mul_real R (fun e => ra e k) (rv k)).symm

end Cert.LibRowScatter

end
-- ==== Proof.LibGatherRows.lean ====
/-
  General facts about a gather of whole ROWS of an [N, F] array, and of single entries of an [N] vector, the row each
  result row e reads taken from an [E, 1] array of signed integers (what indexing an array's first axis by a list of
  node numbers lowers to): read at (e, f), the result is the operand's entry (rowOf e, f), where rowOf e is row e's
  integer read signed and clamped into [0, N − 1], as the gather clamps every start index. The row function is the same
  for the matrix and for the vector: it depends on the integers only.
-/
import Idealize.ShloMosaic.PureOps.Ideal
import Idealize.ShloMosaic.PureOps.Contract
import Idealize.ShloMosaic.Lib.ValueIdx

noncomputable section

namespace Cert.LibGatherRows

open Idealize.ShloMosaic Idealize.ShloMosaic.ValueIdx

variable {α : Type} {N E F : Nat}

/-- The row that result row e reads: its integer, read signed, clamped into [0, N − 1]. -/
def rowOf (hN : 0 < N) {w : Nat} (idx : IVec ⟨2, ![E, 1]⟩ w) (e : Fin E) : Fin N :=
  ⟨min (idx (ix2 e (0 : Fin 1))).toInt.toNat (N - 1), by omega⟩

/-- An integer that is a node number is its own clamped row. -/
theorem rowOf_of_toInt (hN : 0 < N) {w : Nat} (idx : IVec ⟨2, ![E, 1]⟩ w) (e : Fin E) (n : Fin N)
    (h : (idx (ix2 e (0 : Fin 1))).toInt = (n.val : Int)) : rowOf hN idx e = n := by
  apply Fin.ext
  show min (idx (ix2 e (0 : Fin 1))).toInt.toNat (N - 1) = n.val
  rw [h]
  have := n.isLt
  simp only [Int.toNat_natCast]
  omega

/-! ## Rows of a matrix -/

/-- The dimension numbers of a gather of whole rows: the result's second axis is the row's, the operand's first axis is
    the one the integer addresses and is collapsed, each result row has one integer. -/
abbrev rowDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- THE GATHER OF ROWS READ AT (e, f): the operand at (rowOf e, f). -/
theorem gather_rows_apply (hN : 0 < N) {w : Nat}
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowDims N E F wf) x idx (ix2 e f) = x (ix2 (rowOf hN idx e) f) := by
  unfold Host.gather
  congr 1
  funext a
  refine Fin.ext ?_
  match a with
  | ⟨0, _⟩ =>
    show (rowDims N E F wf).start (ix2 e f) idx 0 + (rowDims N E F wf).batchCoord (ix2 e f) 0
      + (rowDims N E F wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E F wf).startIndexMap from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1
      + (rowDims N E F wf).offCoord (ix2 e f) 1 = f.val
    rw [GatherDims.batchCoord_eq_zero _ _ _ List.not_mem_nil]
    unfold GatherDims.start
    rw [dif_neg (show ¬ (1 : Fin 2) ∈ ([0] : List (Fin 2)) by decide)]
    unfold GatherDims.offCoord
    have h : (1 : Fin 2) ∈ (rowDims N E F wf).sKept := by
      show (1 : Fin 2) ∈ ([1] : List (Fin 2))
      decide
    rw [dif_pos h]
    simp only [Nat.zero_add]
    rfl

/-! ## Entries of a vector -/

/-- The dimension numbers of a gather of single entries of a vector: no result axis is the slice's, the operand's one
    axis is addressed and collapsed, each result entry has one integer. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES READ AT e: the operand at rowOf e. -/
theorem gather_vec_apply (hN : 0 < N) {w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = min (idx (ix2 e (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows

end
-- ==== Proof.RefBipartite.lean ====
/-
  The reference's three index-driven stages at the exact instance (floats as extended reals), over the named stage
  functions of the reference's result term. The graph is the complete bipartite graph between 10000 nodes and 32
  attributes, its 320000 edges numbered node-major: edge 32·n + a joins node n and attribute a. So the gather of node
  rows by the edges' node numbers followed by the scatter-add by the edges' attribute numbers into zeros gives every
  attribute the sum over ALL nodes, and the gather of attribute rows followed by the scatter-add by node numbers gives
  every node the sum over ALL attributes; every index lies inside its array, so neither the wrap of negative indices
  nor the fill of out-of-range rows fires, 0 + x = x, and the quotient by the count is the product with its
  reciprocal. The embedding lookup reads the table's rows the query names.
-/
import proofs.«119914_g24988119728772_cont_9to1_1483_19_alg».proof.Proof.RefTerms
import proofs.«119914_g24988119728772_cont_9to1_1483_19_alg».proof.Proof.LibRowScatter
import proofs.«119914_g24988119728772_cont_9to1_1483_19_alg».proof.Proof.LibGatherRows
import Idealize.ShloMosaic.Lib.ValueLayout
import Idealize.ShloMosaic.PureOps.Ideal.Laws

noncomputable section

open Idealize.ShloMosaic Idealize.ShloMosaic.ValueIdx
open scoped BigOperators

namespace Cert.ReferenceIdeal.Bip

open Cert.ReferenceIdeal Cert.ReferenceIdeal.Gen Cert.ReferenceIdeal.RefRun

/-! ## Words: a 32-bit index below 2^31 read signed, and the comparisons the gathers make on it -/

theorem toInt_of_lt (x : BitVec 32) (h : x.toNat < 2 ^ 31) : x.toInt = (x.toNat : Int) := by
  rw [BitVec.toInt_eq_toNat_cond, if_pos (by omega)]

theorem cmpi_slt_zero (x : BitVec 32) (h : x.toNat < 2 ^ 31) : IntOp.cmpi .slt x 0#32 = 0#1 := by
  have e := toInt_of_lt x h
  have : ¬ x.toInt < 0 := by rw [e]; omega
  simp [IntOp.cmpi, BitVec.slt, this]

theorem cmpi_sge_zero (x : BitVec 32) (h : x.toNat < 2 ^ 31) : IntOp.cmpi .sge x 0#32 = 1#1 := by
  have e := toInt_of_lt x h
  have : 0 ≤ x.toInt := by rw [e]; omega
  simp [IntOp.cmpi, BitVec.sle, this]

theorem cmpi_sle_of_lt (x : BitVec 32) (N : Nat) (hN : N < 2 ^ 31) (h : x.toNat < N) :
    IntOp.cmpi .sle x (BitVec.ofNat 32 (N - 1)) = 1#1 := by
  have e := toInt_of_lt x (by omega)
  have e' : (BitVec.ofNat 32 (N - 1)).toNat = N - 1 := by
    rw [BitVec.toNat_ofNat]; exact Nat.mod_eq_of_lt (by omega)
  have e2 := toInt_of_lt (BitVec.ofNat 32 (N - 1)) (by rw [e']; omega)
  have : x.toInt ≤ (BitVec.ofNat 32 (N - 1)).toInt := by rw [e, e2, e']; omega
  simp [IntOp.cmpi, BitVec.sle, this]

theorem andi_one_one : IntOp.andi (1#1 : BitVec 1) 1#1 = 1#1 := by decide

/-- A non-negative index is left as it is by the wrap of negative indices. -/
theorem wrap_eq (x Nw : BitVec 32) (h : x.toNat < 2 ^ 31) :
    Scalar.select (IntOp.cmpi .slt x 0#32) (IntOp.addi x Nw) x = x := by
  rw [cmpi_slt_zero x h]; exact select_zero _ _

/-- An index below N passes the two range tests. -/
theorem inrange_one (x : BitVec 32) (N : Nat) (hN : N < 2 ^ 31) (h : x.toNat < N) :
    IntOp.andi (IntOp.cmpi .sge x 0#32) (IntOp.cmpi .sle x (BitVec.ofNat 32 (N - 1))) = 1#1 := by
  rw [cmpi_sge_zero x (by omega), cmpi_sle_of_lt x N hN h]; exact andi_one_one

/-- A reduction by "and" whose every operand entry and whose initial value are 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (List.filter _ _) = l
  induction l with
  | nil => rfl
  | cons a l ih => rw [List.foldl_cons, hx a, andi_one_one]; exact ih

/-! ## A vector broadcast along a new second axis -/

/-- An [E] vector broadcast to [E, F] on the first axis reads, at (e, f), the vector at e. -/
theorem bcol_apply {α : Type} {E Fd : Nat} (x : (⟨1, ![E]⟩ : Shape).Idx → α)
    (h : (⟨1, ![E]⟩ : Shape).BroadcastsInDim ⟨2, ![E, Fd]⟩ (![0] : Fin 1 → Fin 2)) (e : Fin E) (f : Fin Fd) :
    broadcastInDim ⟨2, ![E, Fd]⟩ ![0] h x (ix2 e f) = x (ix1 e) := by
  refine broadcastInDim_apply _ h x (ix2 e f) (ix1 e) fun a => ?_
  match a with
  | ⟨0, _⟩ =>
    show e.val = if E = 1 then 0 else e.val
    split
    · have := e.isLt; omega
    · rfl

/-! ## The edges of the complete bipartite graph, numbered node-major -/

/-- The edge between node n and attribute a. -/
def edge (n : Fin 10000) (a : Fin 32) : Fin 320000 := ⟨n.val * 32 + a.val, by have := n.isLt; have := a.isLt; omega⟩

/-- Every edge number is the edge of exactly one pair. -/
def edgeEquiv : Fin 10000 × Fin 32 ≃ Fin 320000 where
  toFun p := edge p.1 p.2
  invFun e := (⟨e.val / 32, by have := e.isLt; omega⟩, ⟨e.val % 32, by omega⟩)
  left_inv := by
    rintro ⟨n, a⟩
    have := a.isLt
    refine Prod.ext (Fin.ext ?_) (Fin.ext ?_)
    · show (n.val * 32 + a.val) / 32 = n.val
      omega
    · show (n.val * 32 + a.val) % 32 = a.val
      omega
  right_inv := by
    intro e
    refine Fin.ext ?_
    show e.val / 32 * 32 + e.val % 32 = e.val
    omega

theorem edgeEquiv_apply (n : Fin 10000) (a : Fin 32) : edgeEquiv (n, a) = edge n a := rfl

/-- The sending node of the edge (n, a) is n. -/
theorem nodeIdx_edge (n : Fin 10000) (a : Fin 32) : nodeIdx (F := Ideal) (ix1 (edge n a)) = BitVec.ofNat 32 n.val := by
  unfold nodeIdx
  refine (shapeCast_apply _ _ (ix1 (edge n a)) (ix2 n a) ?_).trans ?_
  · rw [Shape.rowMajor_val_two, Shape.rowMajor_val_one]
    rfl
  · exact bcol_apply _ _ n a

/-- The attribute of the edge (n, a) is a. -/
theorem attrIdx_edge (n : Fin 10000) (a : Fin 32) : attrIdx (F := Ideal) (ix1 (edge n a)) = BitVec.ofNat 32 a.val := by
  unfold attrIdx
  refine (shapeCast_apply _ _ (ix1 (edge n a)) (ix2 n a) ?_).trans ?_
  · rw [Shape.rowMajor_val_two, Shape.rowMajor_val_one]
    rfl
  · refine (broadcastInDim_apply _ _ _ (ix2 n a) (ix2 (0 : Fin 1) a) fun c => ?_).trans ?_
    · match c with
      | ⟨0, _⟩ => rfl
      | ⟨1, _⟩ => rfl
    · exact shapeCast_a_1a_apply _ _ 0 a

/-! ## The gather `takeNode` -/

/-- Where every index is below 10000, the wrapped index column is the index list itself. -/
theorem takeNode_ix_apply (idx : (⟨S320000, .i32⟩ : BufTy).Contents (Elt Ideal)) (e : Fin 320000) (u : Fin 1)
    (h : (idx (ix1 e)).toNat < 2 ^ 31) : takeNode_ix (F := Ideal) idx (ix2 e u) = idx (ix1 e) := by
  unfold takeNode_ix
  refine (bcol_apply _ _ e u).trans ?_
  exact wrap_eq (idx (ix1 e)) 10000#32 h

/-- Where every index is below 10000, every row passes the range test. -/
theorem takeNode_ok_apply (idx : (⟨S320000, .i32⟩ : BufTy).Contents (Elt Ideal))
    (hidx : ∀ e : Fin 320000, (idx (ix1 e)).toNat < 10000) (e : Fin 320000) :
    takeNode_ok (F := Ideal) idx (ix1 e) = 1#1 := by
  unfold takeNode_ok
  refine reduce_andi_one _ _ _ _ (fun i => ?_) (fun _ => rfl) (ix1 e)
  obtain ⟨e', u, rfl⟩ : ∃ (e' : Fin 320000) (u : Fin 1), i = ix2 e' u := ⟨i 0, i 1, eq_ix2 i⟩
  show IntOp.andi (IntOp.cmpi .sge (takeNode_ix (F := Ideal) idx (ix2 e' u)) 0#32)
    (IntOp.cmpi .sle (takeNode_ix (F := Ideal) idx (ix2 e' u)) (BitVec.ofNat 32 (10000 - 1))) = 1#1
  rw [takeNode_ix_apply idx e' u (by have := hidx e'; omega)]
  exact inrange_one _ 10000 (by norm_num) (hidx e')

/-- Where every index is below 10000, the gather reads, at (e, k), the table's row `idx e` at k: neither the wrap of
    negative indices nor the fill of out-of-range rows fires. -/
theorem takeNode_apply (tbl : (⟨S10000x128, .f32⟩ : BufTy).Contents (Elt Ideal))
    (idx : (⟨S320000, .i32⟩ : BufTy).Contents (Elt Ideal)) (hidx : ∀ e : Fin 320000, (idx (ix1 e)).toNat < 10000)
    (e : Fin 320000) (k : Fin 128) :
    takeNode (F := Ideal) tbl idx (ix2 e k) = tbl (ix2 ⟨(idx (ix1 e)).toNat, hidx e⟩ k) := by
  unfold takeNode
  show Scalar.select (broadcastInDim S320000x128 ![0] bcast_S320000_S320000x128_0 (takeNode_ok (F := Ideal) idx) (ix2 e k))
      (Host.gather (Cert.LibGatherRows.rowDims 10000 320000 128 gather_S10000x128_S320000x1_S320000x128_1_0_n_n_0_1_1128_wf) tbl (takeNode_ix (F := Ideal) idx) (ix2 e k)) _ = _
  rw [bcol_apply, takeNode_ok_apply idx hidx e, select_one, Cert.LibGatherRows.gather_rows_apply (by norm_num)]
  refine congrArg (fun r => tbl (ix2 r k)) (Cert.LibGatherRows.rowOf_of_toInt _ _ e ⟨_, hidx e⟩ ?_)
  rw [takeNode_ix_apply idx e 0 (by have := hidx e; omega)]
  exact toInt_of_lt _ (by have := hidx e; omega)

/-! ## The gather `takeAttr` -/

/-- Where every index is below 32, the wrapped index column is the index list itself. -/
theorem takeAttr_ix_apply (idx : (⟨S320000, .i32⟩ : BufTy).Contents (Elt Ideal)) (e : Fin 320000) (u : Fin 1)
    (h : (idx (ix1 e)).toNat < 2 ^ 31) : takeAttr_ix (F := Ideal) idx (ix2 e u) = idx (ix1 e) := by
  unfold takeAttr_ix
  refine (bcol_apply _ _ e u).trans ?_
  exact wrap_eq (idx (ix1 e)) 32#32 h

/-- Where every index is below 32, every row passes the range test. -/
theorem takeAttr_ok_apply (idx : (⟨S320000, .i32⟩ : BufTy).Contents (Elt Ideal))
    (hidx : ∀ e : Fin 320000, (idx (ix1 e)).toNat < 32) (e : Fin 320000) :
    takeAttr_ok (F := Ideal) idx (ix1 e) = 1#1 := by
  unfold takeAttr_ok
  refine reduce_andi_one _ _ _ _ (fun i => ?_) (fun _ => rfl) (ix1 e)
  obtain ⟨e', u, rfl⟩ : ∃ (e' : Fin 320000) (u : Fin 1), i = ix2 e' u := ⟨i 0, i 1, eq_ix2 i⟩
  show IntOp.andi (IntOp.cmpi .sge (takeAttr_ix (F := Ideal) idx (ix2 e' u)) 0#32)
    (IntOp.cmpi .sle (takeAttr_ix (F := Ideal) idx (ix2 e' u)) (BitVec.ofNat 32 (32 - 1))) = 1#1
  rw [takeAttr_ix_apply idx e' u (by have := hidx e'; omega)]
  exact inrange_one _ 32 (by norm_num) (hidx e')

/-- Where every index is below 32, the gather reads, at (e, k), the table's row `idx e` at k: neither the wrap of
    negative indices nor the fill of out-of-range rows fires. -/
theorem takeAttr_apply (tbl : (⟨S32x128, .f32⟩ : BufTy).Contents (Elt Ideal))
    (idx : (⟨S320000, .i32⟩ : BufTy).Contents (Elt Ideal)) (hidx : ∀ e : Fin 320000, (idx (ix1 e)).toNat < 32)
    (e : Fin 320000) (k : Fin 128) :
    takeAttr (F := Ideal) tbl idx (ix2 e k) = tbl (ix2 ⟨(idx (ix1 e)).toNat, hidx e⟩ k) := by
  unfold takeAttr
  show Scalar.select (broadcastInDim S320000x128 ![0] bcast_S320000_S320000x128_0 (takeAttr_ok (F := Ideal) idx) (ix2 e k))
      (Host.gather (Cert.LibGatherRows.rowDims 32 320000 128 gather_S32x128_S320000x1_S320000x128_1_0_n_n_0_1_1128_wf) tbl (takeAttr_ix (F := Ideal) idx) (ix2 e k)) _ = _
  rw [bcol_apply, takeAttr_ok_apply idx hidx e, select_one, Cert.LibGatherRows.gather_rows_apply (by norm_num)]
  refine congrArg (fun r => tbl (ix2 r k)) (Cert.LibGatherRows.rowOf_of_toInt _ _ e ⟨_, hidx e⟩ ?_)
  rw [takeAttr_ix_apply idx e 0 (by have := hidx e; omega)]
  exact toInt_of_lt _ (by have := hidx e; omega)

/-! ## The gather `take512` -/

/-- Where every index is below 512, the wrapped index column is the index list itself. -/
theorem take512_ix_apply (idx : (⟨S32, .i32⟩ : BufTy).Contents (Elt Ideal)) (e : Fin 32) (u : Fin 1)
    (h : (idx (ix1 e)).toNat < 2 ^ 31) : take512_ix (F := Ideal) idx (ix2 e u) = idx (ix1 e) := by
  unfold take512_ix
  refine (bcol_apply _ _ e u).trans ?_
  exact wrap_eq (idx (ix1 e)) 512#32 h

/-- Where every index is below 512, every row passes the range test. -/
theorem take512_ok_apply (idx : (⟨S32, .i32⟩ : BufTy).Contents (Elt Ideal))
    (hidx : ∀ e : Fin 32, (idx (ix1 e)).toNat < 512) (e : Fin 32) :
    take512_ok (F := Ideal) idx (ix1 e) = 1#1 := by
  unfold take512_ok
  refine reduce_andi_one _ _ _ _ (fun i => ?_) (fun _ => rfl) (ix1 e)
  obtain ⟨e', u, rfl⟩ : ∃ (e' : Fin 32) (u : Fin 1), i = ix2 e' u := ⟨i 0, i 1, eq_ix2 i⟩
  show IntOp.andi (IntOp.cmpi .sge (take512_ix (F := Ideal) idx (ix2 e' u)) 0#32)
    (IntOp.cmpi .sle (take512_ix (F := Ideal) idx (ix2 e' u)) (BitVec.ofNat 32 (512 - 1))) = 1#1
  rw [take512_ix_apply idx e' u (by have := hidx e'; omega)]
  exact inrange_one _ 512 (by norm_num) (hidx e')

/-- Where every index is below 512, the gather reads, at (e, k), the table's row `idx e` at k: neither the wrap of
    negative indices nor the fill of out-of-range rows fires. -/
theorem take512_apply (tbl : (⟨S512x128, .f32⟩ : BufTy).Contents (Elt Ideal))
    (idx : (⟨S32, .i32⟩ : BufTy).Contents (Elt Ideal)) (hidx : ∀ e : Fin 32, (idx (ix1 e)).toNat < 512)
    (e : Fin 32) (k : Fin 128) :
    take512 (F := Ideal) tbl idx (ix2 e k) = tbl (ix2 ⟨(idx (ix1 e)).toNat, hidx e⟩ k) := by
  unfold take512
  show Scalar.select (broadcastInDim S32x128 ![0] bcast_S32_S32x128_0 (take512_ok (F := Ideal) idx) (ix2 e k))
      (Host.gather (Cert.LibGatherRows.rowDims 512 32 128 gather_S512x128_S32x1_S32x128_1_0_n_n_0_1_1128_wf) tbl (take512_ix (F := Ideal) idx) (ix2 e k)) _ = _
  rw [bcol_apply, take512_ok_apply idx hidx e, select_one, Cert.LibGatherRows.gather_rows_apply (by norm_num)]
  refine congrArg (fun r => tbl (ix2 r k)) (Cert.LibGatherRows.rowOf_of_toInt _ _ e ⟨_, hidx e⟩ ?_)
  rw [take512_ix_apply idx e 0 (by have := hidx e; omega)]
  exact toInt_of_lt _ (by have := hidx e; omega)

/-! ## The three facts the reference's value rests on -/

/-- The f32 word 0x461C4000 denotes 10000. -/
theorem ofBits_10000 : Ideal.ofBits .f32 0x461C4000#32 = ((10000 : ℝ) : EReal) := by
  simp [Ideal.ofBits, Ideal.ieee, -EReal.coe_mul]; norm_num

/-- The f32 word 0x42000000 denotes 32. -/
theorem ofBits_32 : Ideal.ofBits .f32 0x42000000#32 = ((32 : ℝ) : EReal) := by
  simp [Ideal.ofBits, Ideal.ieee, -EReal.coe_mul]; norm_num

/-- A number below 2^32 is its 32-bit word's value. -/
theorem toNat_ofNat_lt (m : Nat) (h : m < 2 ^ 32) : (BitVec.ofNat 32 m).toNat = m := by
  rw [BitVec.toNat_ofNat]; exact Nat.mod_eq_of_lt h

/-- Every edge's node number is below 10000. -/
theorem nodeIdx_lt (e : Fin 320000) : (nodeIdx (F := Ideal) (ix1 e)).toNat < 10000 := by
  obtain ⟨⟨n, a⟩, rfl⟩ := edgeEquiv.surjective e
  rw [edgeEquiv_apply, nodeIdx_edge, toNat_ofNat_lt _ (by have := n.isLt; omega)]
  exact n.isLt

/-- Every edge's attribute number is below 32. -/
theorem attrIdx_lt (e : Fin 320000) : (attrIdx (F := Ideal) (ix1 e)).toNat < 32 := by
  obtain ⟨⟨n, a⟩, rfl⟩ := edgeEquiv.surjective e
  rw [edgeEquiv_apply, attrIdx_edge, toNat_ofNat_lt _ (by have := a.isLt; omega)]
  exact a.isLt

/-- (iii) The embedding lookup: row a of the gather is the table's row `row a`, the query's entries being row numbers
    below 512. -/
theorem take512_apply_row (emb : (⟨S512x128, .f32⟩ : BufTy).Contents (Elt Ideal))
    (qa : (⟨S32, .i32⟩ : BufTy).Contents (Elt Ideal)) (row : Fin 32 → Fin 512)
    (hrow : ∀ a : Fin 32, qa (ix1 a) = BitVec.ofNat 32 (row a).val) (a : Fin 32) (k : Fin 128) :
    take512 (F := Ideal) emb qa (ix2 a k) = emb (ix2 (row a) k) := by
  have hv : ∀ e : Fin 32, (qa (ix1 e)).toNat = (row e).val := fun e => by
    rw [hrow e]; exact toNat_ofNat_lt _ (by have := (row e).isLt; omega)
  have hidx : ∀ e : Fin 32, (qa (ix1 e)).toNat < 512 := fun e => by rw [hv e]; exact (row e).isLt
  refine (take512_apply emb qa hidx a k).trans ?_
  exact congrArg (fun r => emb (ix2 r k)) (Fin.ext (hv a))

/-- (i) The mean over the nodes: every attribute receives one message from every node — the edge (n, a) carries node
    n's row to attribute a — so the scatter-add into zeros is the sum over all nodes, and the quotient by 10000 is the
    product with 1/10000. -/
theorem meanOverNodes_takeNode (h : (⟨S10000x128, .f32⟩ : BufTy).Contents (Elt Ideal)) (a : Fin 32) (k : Fin 128) :
    meanOverNodes (F := Ideal) attrIdx (takeNode h nodeIdx) (ix2 a k)
      = (∑ n : Fin 10000, h (ix2 n k)) * ((1 / 10000 : ℝ) : EReal) := by
  unfold meanOverNodes
  show Ideal.div (Host.scatterAdd (F := Ideal)
      (Cert.LibRowScatter.rowDims 32 320000 128 scatter_S32x128_S320000x1_S320000x128_1_0_0_1_wf) _ _ _ (ix2 a k))
    (Ideal.ofBits .f32 0x461C4000#32) = _
  rw [ofBits_10000, Ideal.div_coe (by norm_num), Cert.LibRowScatter.scatterAdd_rows_apply]
  refine congrArg (· * ((1 / 10000 : ℝ) : EReal)) ?_
  rw [show (broadcastInDim S32x128 ![] bcast_S_S32x128 (constant (F := Ideal) S_ .f32 0x00000000#32)) (ix2 a k) = 0
    from Ideal.ofBits_zero_f32, zero_add]
  unfold Cert.LibRowScatter.rowsOn
  rw [Finset.sum_filter, ← Equiv.sum_comp edgeEquiv, Fintype.sum_prod_type]
  refine Finset.sum_congr rfl fun n _ => ?_
  have hI : ∀ a' : Fin 32, ((broadcastInDim S320000x1 ![0] bcast_S320000_S320000x1_0 (attrIdx (F := Ideal)))
      (ix2 (edgeEquiv (n, a')) (0 : Fin 1))).toInt = (a'.val : Int) := fun a' => by
    rw [bcol_apply, edgeEquiv_apply, attrIdx_edge]
    have hv := toNat_ofNat_lt a'.val (by have := a'.isLt; omega)
    rw [toInt_of_lt _ (by rw [hv]; have := a'.isLt; omega), hv]
  have hU : ∀ a' : Fin 32, takeNode (F := Ideal) h nodeIdx (ix2 (edgeEquiv (n, a')) k) = h (ix2 n k) := fun a' => by
    rw [takeNode_apply h nodeIdx nodeIdx_lt]
    refine congrArg (fun r => h (ix2 r k)) (Fin.ext ?_)
    show (nodeIdx (F := Ideal) (ix1 (edgeEquiv (n, a')))).toNat = n.val
    rw [edgeEquiv_apply, nodeIdx_edge]
    exact toNat_ofNat_lt _ (by have := n.isLt; omega)
  refine (Finset.sum_congr rfl fun a' _ => by rw [hI a', hU a']).trans ?_
  rw [Finset.sum_eq_single a]
  · rw [if_pos rfl]
  · intro b _ hb
    rw [if_neg]
    intro hc
    exact hb (Fin.ext (by exact_mod_cast hc))
  · intro hc
    exact absurd (Finset.mem_univ _) hc

/-- (ii) The mean over the attributes: every node receives one message from every attribute, so the scatter-add into
    zeros is the sum over all attributes, and the quotient by 32 is the product with 1/32. -/
theorem meanOverAttrs_takeAttr (g : (⟨S32x128, .f32⟩ : BufTy).Contents (Elt Ideal)) (n : Fin 10000) (k : Fin 128) :
    meanOverAttrs (F := Ideal) nodeIdx (takeAttr g attrIdx) (ix2 n k)
      = (∑ a : Fin 32, g (ix2 a k)) * ((1 / 32 : ℝ) : EReal) := by
  unfold meanOverAttrs
  show Ideal.div (Host.scatterAdd (F := Ideal)
      (Cert.LibRowScatter.rowDims 10000 320000 128 scatter_S10000x128_S320000x1_S320000x128_1_0_0_1_wf) _ _ _ (ix2 n k))
    (Ideal.ofBits .f32 0x42000000#32) = _
  rw [ofBits_32, Ideal.div_coe (by norm_num), Cert.LibRowScatter.scatterAdd_rows_apply]
  refine congrArg (· * ((1 / 32 : ℝ) : EReal)) ?_
  rw [show (broadcastInDim S10000x128 ![] bcast_S_S10000x128 (constant (F := Ideal) S_ .f32 0x00000000#32)) (ix2 n k) = 0
    from Ideal.ofBits_zero_f32, zero_add]
  unfold Cert.LibRowScatter.rowsOn
  rw [Finset.sum_filter, ← Equiv.sum_comp edgeEquiv, Fintype.sum_prod_type, Finset.sum_eq_single n]
  · have hI : ∀ a' : Fin 32, ((broadcastInDim S320000x1 ![0] bcast_S320000_S320000x1_0 (nodeIdx (F := Ideal)))
        (ix2 (edgeEquiv (n, a')) (0 : Fin 1))).toInt = (n.val : Int) := fun a' => by
      rw [bcol_apply, edgeEquiv_apply, nodeIdx_edge]
      have hv := toNat_ofNat_lt n.val (by have := n.isLt; omega)
      rw [toInt_of_lt _ (by rw [hv]; have := n.isLt; omega), hv]
    have hU : ∀ a' : Fin 32, takeAttr (F := Ideal) g attrIdx (ix2 (edgeEquiv (n, a')) k) = g (ix2 a' k) := fun a' => by
      rw [takeAttr_apply g attrIdx attrIdx_lt]
      refine congrArg (fun r => g (ix2 r k)) (Fin.ext ?_)
      show (attrIdx (F := Ideal) (ix1 (edgeEquiv (n, a')))).toNat = a'.val
      rw [edgeEquiv_apply, attrIdx_edge]
      exact toNat_ofNat_lt _ (by have := a'.isLt; omega)
    exact Finset.sum_congr rfl fun a' _ => by rw [hI a', hU a', if_pos rfl]
  · intro m _ hm
    refine Finset.sum_eq_zero fun a' _ => ?_
    rw [if_neg]
    rw [bcol_apply, edgeEquiv_apply, nodeIdx_edge]
    have hv := toNat_ofNat_lt m.val (by have := m.isLt; omega)
    rw [toInt_of_lt _ (by rw [hv]; have := m.isLt; omega), hv]
    intro hc
    exact hm (Fin.ext (by exact_mod_cast hc))
  · intro hc
    exact absurd (Finset.mem_univ _) hc

end Cert.ReferenceIdeal.Bip

end
-- ==== Proof.Spec.lean ====
/-
  The function both programs compute, written once over plain index types.

  A bipartite message-passing network over the COMPLETE bipartite graph between 10000 nodes and 32
  attributes. Because every node is joined to every attribute, each aggregation over edges is a sum over
  ALL nodes (divided by 10000) or over ALL attributes (divided by 32): the same vector for every
  receiver. With `hv0 = v·W_in + b_in` and `ha0 = emb[row a]`:

    layer 0:  ha1 = relu(mean_n hv0 · Wa₀ + ha0 · Ua₀ + ba₀),   hv1 = relu(mean_a ha0 · Wv₀ + hv0 · Uv₀ + bv₀)
    layer 1:                                                   hv2 = relu(mean_a ha1 · Wv₁ + hv1 · Uv₁ + bv₁)
    out = hv2 · W_out + b_out

  All values are extended reals; sums are finite sums; the association of each three-term sum is the
  reference's, `(x + y) + b`.
-/
import Idealize.ShloMosaic.PureOps.Ideal

noncomputable section

namespace Cert.Spec

open scoped BigOperators

variable (v : Fin 10000 → Fin 256 → EReal) (row : Fin 32 → Fin 512) (emb : Fin 512 → Fin 128 → EReal)
  (Win : Fin 256 → Fin 128 → EReal) (bin : Fin 128 → EReal)
  (Wa Ua : Fin 2 → Fin 128 → Fin 128 → EReal) (ba : Fin 2 → Fin 128 → EReal)
  (Wv Uv : Fin 2 → Fin 128 → Fin 128 → EReal) (bv : Fin 2 → Fin 128 → EReal)
  (Wout : Fin 128 → Fin 256 → EReal) (bout : Fin 256 → EReal)

/-- The input projection of node `n`. -/
def hv0 (n : Fin 10000) (k : Fin 128) : EReal := (∑ j, v n j * Win j k) + bin k

/-- The embedding row of attribute `a`. -/
def ha0 (a : Fin 32) (k : Fin 128) : EReal := emb (row a) k

/-- The mean over all nodes of the input projection. -/
def meanV0 (k : Fin 128) : EReal := (∑ n, hv0 v Win bin n k) * ((1 / 10000 : ℝ) : EReal)

/-- The mean over all attributes of the embedding rows. -/
def meanA0 (k : Fin 128) : EReal := (∑ a, ha0 row emb a k) * ((1 / 32 : ℝ) : EReal)

/-- Attribute features after layer 0. -/
def ha1 (a : Fin 32) (k : Fin 128) : EReal :=
  max (((∑ j, meanV0 v Win bin j * Wa 0 j k) + (∑ j, ha0 row emb a j * Ua 0 j k)) + ba 0 k) 0

/-- Node features after layer 0. -/
def hv1 (n : Fin 10000) (k : Fin 128) : EReal :=
  max (((∑ j, meanA0 row emb j * Wv 0 j k) + (∑ j, hv0 v Win bin n j * Uv 0 j k)) + bv 0 k) 0

/-- The mean over all attributes of the layer-0 attribute features. -/
def meanA1 (k : Fin 128) : EReal :=
  (∑ a, ha1 v row emb Win bin Wa Ua ba a k) * ((1 / 32 : ℝ) : EReal)

/-- Node features after layer 1. -/
def hv2 (n : Fin 10000) (k : Fin 128) : EReal :=
  max (((∑ j, meanA1 v row emb Win bin Wa Ua ba j * Wv 1 j k)
      + (∑ j, hv1 v row emb Win bin Wv Uv bv n j * Uv 1 j k)) + bv 1 k) 0

/-- The output projection: the result of both programs at node `n`, column `q`. -/
def out (n : Fin 10000) (q : Fin 256) : EReal :=
  (∑ k, hv2 v row emb Win bin Wa Ua ba Wv Uv bv n k * Wout k q) + bout q

end Cert.Spec

end
-- ==== Proof.RefIsSpec.lean ====
/-
  The reference's result term is the shared specification, entry by entry, under the precondition that every queried
  attribute is a row of the embedding table. The stages are matched in order: the input projection; the embedding
  lookup (no fill fires); the two segment means over the complete bipartite edge list, which are the means over all
  nodes and over all attributes; the two layers' updates with the rectifier; the output projection.
-/
import proofs.«119914_g24988119728772_cont_9to1_1483_19_alg».proof.Proof.RefRead
import proofs.«119914_g24988119728772_cont_9to1_1483_19_alg».proof.Proof.RefBipartite
import proofs.«119914_g24988119728772_cont_9to1_1483_19_alg».proof.Proof.Spec

noncomputable section

namespace Cert.ReferenceIdeal.RefRun

open Cert.ReferenceIdeal Cert.ReferenceIdeal.Gen Idealize.ShloMosaic Idealize.ShloMosaic.ValueIdx
open scoped BigOperators

variable (a0 : (⟨S10000x256, .f32⟩ : BufTy).Contents (Elt Ideal)) (a1 : (⟨S32, .i32⟩ : BufTy).Contents (Elt Ideal)) (a2 : (⟨S512x128, .f32⟩ : BufTy).Contents (Elt Ideal)) (a3 : (⟨S256x128, .f32⟩ : BufTy).Contents (Elt Ideal)) (a4 : (⟨S128, .f32⟩ : BufTy).Contents (Elt Ideal)) (a5 : (⟨S2x128x128, .f32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x128x128, .f32⟩ : BufTy).Contents (Elt Ideal)) (a10 : (⟨S2x128, .f32⟩ : BufTy).Contents (Elt Ideal)) (a11 : (⟨S128x256, .f32⟩ : BufTy).Contents (Elt Ideal)) (a12 : (⟨S256, .f32⟩ : BufTy).Contents (Elt Ideal))
  (row : Fin 32 → Fin 512) (hrow : ∀ a : Fin 32, a1 (ix1 a) = BitVec.ofNat 32 (row a).val)

include hrow

/-- The input projection is the specification's. -/
theorem r11_eq (n : Fin 10000) (k : Fin 128) : r11 a0 a1 a2 a3 a4 a5 a6 a7 a8 a9 a10 a11 a12 (ix2 n k) = Cert.Spec.hv0 (fun n j => a0 (ix2 n j)) (fun j k => a3 (ix2 j k)) (fun k => a4 (ix1 k)) n k := by
  unfold r11
  rw [hv0_apply]
  rfl

/-- The attribute features are the embedding rows the query names. -/
theorem r0_eq (a : Fin 32) (k : Fin 128) : r0 a0 a1 a2 a3 a4 a5 a6 a7 a8 a9 a10 a11 a12 (ix2 a k) = Cert.Spec.ha0 row (fun r k => a2 (ix2 r k)) a k := by
  unfold r0
  rw [Cert.ReferenceIdeal.Bip.take512_apply_row _ _ row hrow]
  rfl

/-- The mean over the nodes of the input projection, the same for every attribute. -/
theorem r17_eq (a : Fin 32) (k : Fin 128) : r17 a0 a1 a2 a3 a4 a5 a6 a7 a8 a9 a10 a11 a12 (ix2 a k) = Cert.Spec.meanV0 (fun n j => a0 (ix2 n j)) (fun j k => a3 (ix2 j k)) (fun k => a4 (ix1 k)) k := by
  unfold r17 r12
  rw [Cert.ReferenceIdeal.Bip.meanOverNodes_takeNode]
  simp only [r11_eq a0 a1 a2 a3 a4 a5 a6 a7 a8 a9 a10 a11 a12 row hrow]
  rfl

/-- The mean over the attributes of the embedding rows, the same for every node. -/
theorem r23_eq (n : Fin 10000) (k : Fin 128) : r23 a0 a1 a2 a3 a4 a5 a6 a7 a8 a9 a10 a11 a12 (ix2 n k) = Cert.Spec.meanA0 row (fun r k => a2 (ix2 r k)) k := by
  unfold r23 r18
  rw [Cert.ReferenceIdeal.Bip.meanOverAttrs_takeAttr]
  simp only [r0_eq a0 a1 a2 a3 a4 a5 a6 a7 a8 a9 a10 a11 a12 row hrow]
  rfl

/-- The attribute features after layer 0. -/
theorem r36_eq (a : Fin 32) (k : Fin 128) : r36 a0 a1 a2 a3 a4 a5 a6 a7 a8 a9 a10 a11 a12 (ix2 a k) = Cert.Spec.ha1 (fun n j => a0 (ix2 n j)) row (fun r k => a2 (ix2 r k)) (fun j k => a3 (ix2 j k)) (fun k => a4 (ix1 k)) (fun l j k => a5 (ix3 l j k)) (fun l j k => a6 (ix3 l j k)) (fun l k => a7 (ix2 l k)) a k := by
  unfold r36
  rw [reluA_apply, preA0_apply]
  simp only [r17_eq a0 a1 a2 a3 a4 a5 a6 a7 a8 a9 a10 a11 a12 row hrow, r0_eq a0 a1 a2 a3 a4 a5 a6 a7 a8 a9 a10 a11 a12 row hrow]
  rfl

/-- The node features after layer 0. -/
theorem r49_eq (n : Fin 10000) (k : Fin 128) : r49 a0 a1 a2 a3 a4 a5 a6 a7 a8 a9 a10 a11 a12 (ix2 n k) = Cert.Spec.hv1 (fun n j => a0 (ix2 n j)) row (fun r k => a2 (ix2 r k)) (fun j k => a3 (ix2 j k)) (fun k => a4 (ix1 k)) (fun l j k => a8 (ix3 l j k)) (fun l j k => a9 (ix3 l j k)) (fun l k => a10 (ix2 l k)) n k := by
  unfold r49
  rw [reluV_apply, preV0_apply]
  simp only [r23_eq a0 a1 a2 a3 a4 a5 a6 a7 a8 a9 a10 a11 a12 row hrow, r11_eq a0 a1 a2 a3 a4 a5 a6 a7 a8 a9 a10 a11 a12 row hrow]
  rfl

/-- The mean over the attributes of the layer-0 attribute features. -/
theorem r61_eq (n : Fin 10000) (k : Fin 128) : r61 a0 a1 a2 a3 a4 a5 a6 a7 a8 a9 a10 a11 a12 (ix2 n k) = Cert.Spec.meanA1 (fun n j => a0 (ix2 n j)) row (fun r k => a2 (ix2 r k)) (fun j k => a3 (ix2 j k)) (fun k => a4 (ix1 k)) (fun l j k => a5 (ix3 l j k)) (fun l j k => a6 (ix3 l j k)) (fun l k => a7 (ix2 l k)) k := by
  unfold r61 r56
  rw [Cert.ReferenceIdeal.Bip.meanOverAttrs_takeAttr]
  simp only [r36_eq a0 a1 a2 a3 a4 a5 a6 a7 a8 a9 a10 a11 a12 row hrow]
  rfl

/-- The node features after layer 1. -/
theorem r87_eq (n : Fin 10000) (k : Fin 128) : r87 a0 a1 a2 a3 a4 a5 a6 a7 a8 a9 a10 a11 a12 (ix2 n k) = Cert.Spec.hv2 (fun n j => a0 (ix2 n j)) row (fun r k => a2 (ix2 r k)) (fun j k => a3 (ix2 j k)) (fun k => a4 (ix1 k)) (fun l j k => a5 (ix3 l j k)) (fun l j k => a6 (ix3 l j k)) (fun l k => a7 (ix2 l k)) (fun l j k => a8 (ix3 l j k)) (fun l j k => a9 (ix3 l j k)) (fun l k => a10 (ix2 l k)) n k := by
  unfold r87
  rw [reluV_apply, preV1_apply]
  simp only [r61_eq a0 a1 a2 a3 a4 a5 a6 a7 a8 a9 a10 a11 a12 row hrow, r49_eq a0 a1 a2 a3 a4 a5 a6 a7 a8 a9 a10 a11 a12 row hrow]
  rfl

/-- THE REFERENCE'S RESULT IS THE SPECIFICATION, entry by entry, when every queried attribute is a row of the table. -/
theorem refOut_eq (p : Fin 10000) (q : Fin 256) :
    refOut a0 a1 a2 a3 a4 a5 a6 a7 a8 a9 a10 a11 a12 (ix2 p q) = Cert.Spec.out (fun n j => a0 (ix2 n j)) row (fun r k => a2 (ix2 r k)) (fun j k => a3 (ix2 j k)) (fun k => a4 (ix1 k)) (fun l j k => a5 (ix3 l j k)) (fun l j k => a6 (ix3 l j k)) (fun l k => a7 (ix2 l k)) (fun l j k => a8 (ix3 l j k)) (fun l j k => a9 (ix3 l j k)) (fun l k => a10 (ix2 l k)) (fun k q => a11 (ix2 k q)) (fun q => a12 (ix1 q)) p q := by
  unfold refOut
  rw [outP_apply]
  simp only [r87_eq a0 a1 a2 a3 a4 a5 a6 a7 a8 a9 a10 a11 a12 row hrow]
  rfl

end Cert.ReferenceIdeal.RefRun

end
-- ==== Proof.Claims.lean ====
/-
  The certificate's claims assembled from their parts: the two kernel frames; the reference's frame, which is its run
  with the result conjunct dropped; the one rewrite of the idealization (the named reciprocal of ten thousand); the
  precondition's last conjunct decoded into "every queried attribute is a row of the table"; and the algebraic claim
  from a value run of the idealized kernel stated against the shared specification: both programs end at the
  specification's array of the same arguments, entry by entry.
-/
import proofs.«119914_g24988119728772_cont_9to1_1483_19_alg».proof.Defs
import proofs.«119914_g24988119728772_cont_9to1_1483_19_alg».proof.Proof.KBFrame
import proofs.«119914_g24988119728772_cont_9to1_1483_19_alg».proof.Proof.KIFrame
import proofs.«119914_g24988119728772_cont_9to1_1483_19_alg».proof.Proof.RefRun
import proofs.«119914_g24988119728772_cont_9to1_1483_19_alg».proof.Proof.RefIsSpec
import proofs.«119914_g24988119728772_cont_9to1_1483_19_alg».proof.Proof.Gen.Pre_finite_inputs
import Idealize.ShloMosaic.Lib.ReduceAll
import Idealize.ShloMosaic.PureOps.IdealRules

noncomputable section

namespace Cert.Proof.Claims

open Idealize.ShloMosaic Idealize.SL.Sem Idealize.ShloMosaic.ValueIdx

/-! ## The frames and the ledger -/

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame: its run, the result conjunct dropped. -/
theorem frame_ri : Cert.frame_ReferenceIdeal := fun m ρ _ =>
  (θ_run Cert.ReferenceIdeal.defs _ _).mono (fun _ h c => (h c).2) (Cert.ReferenceIdeal.RefRun.run m ρ)

/-- The ledger's one entry: the table gives the named constant the value 1/10000, which the printed constant is at
    the exact instance. -/
theorem preserves : Cert.preserves_Kernel_KernelIdeal :=
  IdealRules.named_const.statement Cert.KernelIdeal.κ "inv_10000" .f32 0x38D1B717#32 ((1 / 10000 : ℝ) : EReal) rfl

/-! ## The precondition's last conjunct -/

/-- A rank-zero array has one index. -/
instance : Subsingleton (⟨0, ![]⟩ : Shape).Idx := ⟨fun a b => funext fun d => d.elim0⟩

/-- A 32-bit word that is at least 0 and below 512, both read signed, is a natural number below 512. -/
theorem toNat_lt_of_signed (x : BitVec 32) (h0 : (0#32 : BitVec 32).toInt ≤ x.toInt) (h1 : x.toInt < (512#32 : BitVec 32).toInt) :
    x.toNat < 512 := by
  have e0 : (0#32 : BitVec 32).toInt = 0 := by decide
  have e1 : (512#32 : BitVec 32).toInt = 512 := by decide
  rw [e0] at h0
  rw [e1] at h1
  have hx := x.isLt
  rw [BitVec.toInt_eq_toNat_cond] at h0 h1
  split at h0 <;> omega

/-- Under the precondition every queried attribute, on every core, is a natural number below 512. -/
theorem arg1_lt (m : (ℓ : Loc Cert.KernelIdeal.nD Cert.KernelIdeal.τ Cert.KernelIdeal.sig) → Buf (Elt Ideal) ℓ) (h : Cert.Pre_KernelIdeal m) (c : Dev Cert.KernelIdeal.nD) (a : Fin 32) :
    (m ((c.tc : Thread Cert.KernelIdeal.nD Cert.KernelIdeal.τ).loc Cert.KernelIdeal.main_arg1) (ix1 a)).toNat < 512 := by
  have e := congrFun (h c) ix0
  dsimp only [Cert.Pre_finite_inputs.fn, Cert.Pre_finite_inputs.fn_part1, Cert.Pre_finite_inputs.fn_part2,
    Cert.Pre_finite_inputs.fn_part3] at e
  have e64 := (IntOp.andi_eq_one.1 e).2
  have ea := Host.reduce_andi_all _ _ _ _ _ e64 (ix1 a)
  obtain ⟨h0, h1⟩ := IntOp.andi_eq_one.1 ea
  exact toNat_lt_of_signed _ (IntOp.cmpi_sge.1 h0) (IntOp.cmpi_slt.1 h1)

/-- THE PRECONDITION DECODED: on every core the queried attributes are the numbers of rows of the 512-row table. -/
theorem row_of_pre (m : (ℓ : Loc Cert.KernelIdeal.nD Cert.KernelIdeal.τ Cert.KernelIdeal.sig) → Buf (Elt Ideal) ℓ) (h : Cert.Pre_KernelIdeal m) (c : Dev Cert.KernelIdeal.nD) :
    ∃ row : Fin 32 → Fin 512, ∀ a : Fin 32, m ((c.tc : Thread Cert.KernelIdeal.nD Cert.KernelIdeal.τ).loc Cert.KernelIdeal.main_arg1) (ix1 a) = BitVec.ofNat 32 (row a).val :=
  ⟨fun a => ⟨(m ((c.tc : Thread Cert.KernelIdeal.nD Cert.KernelIdeal.τ).loc Cert.KernelIdeal.main_arg1) (ix1 a)).toNat, arg1_lt m h c a⟩, fun a => by rw [BitVec.ofNat_toNat, BitVec.setWidth_eq]⟩

/-! ## The algebraic claim -/

/-- Two 10000 by 256 arrays that agree at every (row, column) are equal. -/
theorem ext2 (f g : (⟨Cert.ReferenceIdeal.S10000x256, .f32⟩ : BufTy).Contents (Elt Ideal))
    (h : ∀ (p : Fin 10000) (q : Fin 256), f (ix2 p q) = g (ix2 p q)) : f = g :=
  funext fun i => by rw [eq_ix2 i]; exact h _ _

/-- THE ALGEBRAIC CLAIM, from a value run of the idealized kernel whose result array is the specification's of the
    kernel's arguments: from memories that agree on the arguments both programs run, end with the arguments unchanged
    and with equal results, since the reference's result is the specification's array of its own arguments. -/
theorem algebraic_of
    (kOut : (m : (ℓ : Loc Cert.KernelIdeal.nD Cert.KernelIdeal.τ Cert.KernelIdeal.sig) → Buf (Elt Ideal) ℓ) → (c : Dev Cert.KernelIdeal.nD) → Buf (Elt Ideal) ((c.tc : Thread Cert.KernelIdeal.nD Cert.KernelIdeal.τ).loc Cert.KernelIdeal.main_v0))
    (vrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v0) = kOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)))
    (kOut_eq : ∀ (m : (ℓ : Loc Cert.KernelIdeal.nD Cert.KernelIdeal.τ Cert.KernelIdeal.sig) → Buf (Elt Ideal) ℓ) (c : Dev Cert.KernelIdeal.nD) (row : Fin 32 → Fin 512)
      (hrow : ∀ a : Fin 32, m ((c.tc : Thread Cert.KernelIdeal.nD Cert.KernelIdeal.τ).loc Cert.KernelIdeal.main_arg1) (ix1 a) = BitVec.ofNat 32 (row a).val) (p : Fin 10000) (q : Fin 256),
      kOut m c (ix2 p q) = Cert.Spec.out (fun n j => m ((c.tc : Thread Cert.KernelIdeal.nD Cert.KernelIdeal.τ).loc Cert.KernelIdeal.main_arg0) (ix2 n j)) row (fun r k => m ((c.tc : Thread Cert.KernelIdeal.nD Cert.KernelIdeal.τ).loc Cert.KernelIdeal.main_arg2) (ix2 r k)) (fun j k => m ((c.tc : Thread Cert.KernelIdeal.nD Cert.KernelIdeal.τ).loc Cert.KernelIdeal.main_arg3) (ix2 j k)) (fun k => m ((c.tc : Thread Cert.KernelIdeal.nD Cert.KernelIdeal.τ).loc Cert.KernelIdeal.main_arg4) (ix1 k)) (fun l j k => m ((c.tc : Thread Cert.KernelIdeal.nD Cert.KernelIdeal.τ).loc Cert.KernelIdeal.main_arg5) (ix3 l j k)) (fun l j k => m ((c.tc : Thread Cert.KernelIdeal.nD Cert.KernelIdeal.τ).loc Cert.KernelIdeal.main_arg6) (ix3 l j k)) (fun l k => m ((c.tc : Thread Cert.KernelIdeal.nD Cert.KernelIdeal.τ).loc Cert.KernelIdeal.main_arg7) (ix2 l k)) (fun l j k => m ((c.tc : Thread Cert.KernelIdeal.nD Cert.KernelIdeal.τ).loc Cert.KernelIdeal.main_arg8) (ix3 l j k)) (fun l j k => m ((c.tc : Thread Cert.KernelIdeal.nD Cert.KernelIdeal.τ).loc Cert.KernelIdeal.main_arg9) (ix3 l j k)) (fun l k => m ((c.tc : Thread Cert.KernelIdeal.nD Cert.KernelIdeal.τ).loc Cert.KernelIdeal.main_arg10) (ix2 l k)) (fun k q => m ((c.tc : Thread Cert.KernelIdeal.nD Cert.KernelIdeal.τ).loc Cert.KernelIdeal.main_arg11) (ix2 k q)) (fun q => m ((c.tc : Thread Cert.KernelIdeal.nD Cert.KernelIdeal.τ).loc Cert.KernelIdeal.main_arg12) (ix1 q)) p q) :
    Cert.algebraic_KernelIdeal_ReferenceIdeal := by
  intro m ρ m' ρ' hpre hagree
  refine ⟨fun c => kOut m c, vrun m ρ, ?_⟩
  refine (θ_run Cert.ReferenceIdeal.defs _ _).mono (fun _ h c => ⟨(h c).1.trans ?_, (h c).2⟩)
    (Cert.ReferenceIdeal.RefRun.run m' ρ')
  obtain ⟨row, hrow⟩ := row_of_pre m hpre c
  obtain ⟨g0, g1, g2, g3, g4, g5, g6, g7, g8, g9, g10, g11, g12⟩ := hagree c
  refine ext2 _ _ fun p q => ?_
  refine ((Cert.ReferenceIdeal.RefRun.refOut_eq _ _ _ _ _ _ _ _ _ _ _ _ _ row (fun a => by rw [g1]; exact hrow a) p q).trans ?_).trans (kOut_eq m c row hrow p q).symm
  rw [g0, g2, g3, g4, g5, g6, g7, g8, g9, g10, g11, g12]

end Cert.Proof.Claims

end
-- ==== Proof.KVCommon.lean ====
import proofs.«119914_g24988119728772_cont_9to1_1483_19_alg».proof.Proof.KIRuns
import Idealize.ShloMosaic.Lib.Pipeline.FrameBody
import Idealize.ShloMosaic.Lib.Pipeline.Value
import Idealize.ShloMosaic.Lib.Pipeline.RowLoads
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body's partial stores and loads of its scratch buffers go through

The 10000-row buffer of first-layer node features is written and read five thousand rows at a time: rows [0, 5000) at
grid points 0 and 2, rows [5000, 10000) at points 1 and 3. The two-row buffer of the attribute-side vectors is written
and read one row at a time. -/

theorem hz2 : (![0, 0] : Fin 2 → Nat) = fun _ => 0 := funext fun a => by fin_cases a <;> rfl

theorem inbRA : ∀ a, (![0, 0] : Fin 2 → Nat) a + S5000x128.size a ≤ S10000x128.size a := by decide
theorem inbRB : ∀ a, (![5000, 0] : Fin 2 → Nat) a + S5000x128.size a ≤ S10000x128.size a := by decide

abbrev RA : Rect S10000x128 := Rect.unit (s := S10000x128) ![0, 0] S5000x128.size inbRA
abbrev RB : Rect S10000x128 := Rect.unit (s := S10000x128) ![5000, 0] S5000x128.size inbRB
abbrev row0 : Rect S2x128 := Rect.unit (s := S2x128) ![0, 0] S1x128.size inb_S2x128_S1x128_0_0
abbrev row1 : Rect S2x128 := Rect.unit (s := S2x128) ![1, 0] S1x128.size inb_S2x128_S1x128_1_0

theorem offA : k0_off1 (grid0.coords t0_0) = ![0, 0] := by decide +kernel
theorem offB : k0_off1 (grid0.coords t0_1) = ![5000, 0] := by decide +kernel
theorem offC : k0_off2 (grid0.coords t0_2) = ![0, 0] := by decide +kernel
theorem offD : k0_off2 (grid0.coords t0_3) = ![5000, 0] := by decide +kernel

section Reads

variable {Val : EltTy → Type} [∀ e, Nonempty (Val e)]

/-- After a last store through the whole buffer, the buffer reads that store's payload, whatever the earlier stores. -/
theorem read_writes_cons_whole {sig : RefSig} {κ : Kind} {sp : Space} {S : Shape} {e : EltTy} (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

end Reads

end Cert.KernelIdeal.Hand

end
-- ==== Proof.KVDat.lean ====
import proofs.«119914_g24988119728772_cont_9to1_1483_19_alg».proof.Proof.KVCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the four grid points compute, named over the input blocks

Point 0 leaves: the embedding rows `vHA0`, the attribute-side vector of layer 0 `vC0`, the column sums of the first
block of projected rows `vS1`, and the first block of layer-0 node features `vHA`. Point 1 adds the second block's
column sums (`vS2`) and leaves the second block of node features (`vHB`). Point 2 finishes the attribute side
(`vC1`) and writes the first block of results (`vOUT0`); point 3 writes the second (`vOUT1`). -/

def vC0 (c : Dev nD) : Vec F S1x128 .f32 := k0_pay4 (iblk m c 1 t0_0) (iblk m c 2 t0_0) (iblk m c 8 t0_0) (View.ld (iblk m c 10 t0_0 : Vec F S2x128 .f32) row0)
def vHA (c : Dev nD) : Vec F S5000x128 .bf16 := k0_pay7 (iblk m c 0 t0_0) (iblk m c 3 t0_0) (iblk m c 4 t0_0) (iblk m c 11 t0_0) (vC0 m c)
def vS1 (c : Dev nD) : Vec F S1x128 .f32 := k0_pay6 (iblk m c 0 t0_0) (iblk m c 3 t0_0) (iblk m c 4 t0_0) k0_pay1
def vHA0 (c : Dev nD) : Vec F S32x128 .f32 := k0_pay3 (iblk m c 1 t0_0) (iblk m c 2 t0_0)
def vHB (c : Dev nD) : Vec F S5000x128 .bf16 := k0_pay7 (iblk m c 0 t0_1) (iblk m c 3 t0_1) (iblk m c 4 t0_1) (iblk m c 11 t0_1) (vC0 m c)
def vS2 (c : Dev nD) : Vec F S1x128 .f32 := k0_pay6 (iblk m c 0 t0_1) (iblk m c 3 t0_1) (iblk m c 4 t0_1) (vS1 m c)
def vC1 (c : Dev nD) : Vec F S1x128 .f32 := k0_pay8 (vS2 m c) (iblk m c 5 t0_2) (vHA0 m c) (iblk m c 6 t0_2) (iblk m c 7 t0_2) (iblk m c 9 t0_2) (View.ld (iblk m c 10 t0_2 : Vec F S2x128 .f32) row1)
def vOUT0 (c : Dev nD) : Vec F S5000x256 .f32 := k0_pay9 (vHA m c) (iblk m c 12 t0_2) (vC1 m c) (iblk m c 13 t0_2) (iblk m c 14 t0_2)
def vOUT1 (c : Dev nD) : Vec F S5000x256 .f32 := k0_pay9 (vHB m c) (iblk m c 12 t0_3) (vC1 m c) (iblk m c 13 t0_3) (iblk m c 14 t0_3)

/-! ## The region's invariant, point by point -/

/-- The node-feature scratch buffer after the half-stores `L` over some earlier contents. -/
def W17 (c : Dev nD) (L : List (View.Piece (Elt F) S10000x128 .bf16)) : sProp 𝕄 :=
  iprop(∃ f, sc0.view.loc (c : Thread nD τ) ↦[sc0.view.set]{fullShare} sc0.view.writes (Elt F) f L)
/-- The two-row attribute-side scratch buffer after the row stores `L` over some earlier contents. -/
def W19 (c : Dev nD) (L : List (View.Piece (Elt F) S2x128 .f32)) : sProp 𝕄 :=
  iprop(∃ f, sc2.view.loc (c : Thread nD τ) ↦[sc2.view.set]{fullShare} sc2.view.writes (Elt F) f L)

def P1 (c : Dev nD) : sProp 𝕄 :=
  iprop(iprop(W17 c [⟨RA, vHA m c⟩] ∗ owns (c : Thread nD τ) sc1 fullShare (vS1 m c) ∗ W19 c [⟨row0, vC0 m c⟩] ∗ owns (c : Thread nD τ) sc3 fullShare (vHA0 m c)) ∗ (∃ r, prngReg c r))
def P2 (c : Dev nD) : sProp 𝕄 :=
  iprop(iprop(W17 c [⟨RB, vHB m c⟩, ⟨RA, vHA m c⟩] ∗ owns (c : Thread nD τ) sc1 fullShare (vS2 m c) ∗ W19 c [⟨row0, vC0 m c⟩] ∗ owns (c : Thread nD τ) sc3 fullShare (vHA0 m c)) ∗ (∃ r, prngReg c r))
def P3 (c : Dev nD) : sProp 𝕄 :=
  iprop(iprop(W17 c [⟨RB, vHB m c⟩, ⟨RA, vHA m c⟩] ∗ owns (c : Thread nD τ) sc1 fullShare (vS2 m c) ∗ W19 c [⟨row1, vC1 m c⟩, ⟨row0, vC0 m c⟩] ∗ owns (c : Thread nD τ) sc3 fullShare (vHA0 m c)) ∗ (∃ r, prngReg c r))

/-- Before point 0 the launch's own invariant (every scratch at anything); then what the points before left. -/
def PhiV (c : Dev nD) (n : Fin (cfg0.N + 1)) : sProp 𝕄 :=
  match n.val with
  | 0 => Pipeline.ΦA spec0 c
  | 1 => P1 m c
  | 2 => P2 m c
  | _ => P3 m c

/-- The proof data with the results NAMED: the output's buffer after point 3 holds the second block of results, after
    the earlier points the first (at points 0 and 1 the window is idle and its buffer is not consulted). -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => if t.val = 3 then vOUT1 m c else vOUT0 m c
    | ⟨_ + 16, h⟩ => absurd h (Nat.not_lt.2 (Nat.le_add_left _ _))
  Φ n := PhiV m c n
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t = iblk m c 5 t := by dsimp only [vdats]
theorem vafter6 (c : Dev nD) (t : Fin cfg0.N) : (vdats m 0 c).after 6 t = iblk m c 6 t := by dsimp only [vdats]
theorem vafter7 (c : Dev nD) (t : Fin cfg0.N) : (vdats m 0 c).after 7 t = iblk m c 7 t := by dsimp only [vdats]
theorem vafter8 (c : Dev nD) (t : Fin cfg0.N) : (vdats m 0 c).after 8 t = iblk m c 8 t := by dsimp only [vdats]
theorem vafter9 (c : Dev nD) (t : Fin cfg0.N) : (vdats m 0 c).after 9 t = iblk m c 9 t := by dsimp only [vdats]
theorem vafter10 (c : Dev nD) (t : Fin cfg0.N) : (vdats m 0 c).after 10 t = iblk m c 10 t := by dsimp only [vdats]
theorem vafter11 (c : Dev nD) (t : Fin cfg0.N) : (vdats m 0 c).after 11 t = iblk m c 11 t := by dsimp only [vdats]
theorem vafter12 (c : Dev nD) (t : Fin cfg0.N) : (vdats m 0 c).after 12 t = iblk m c 12 t := by dsimp only [vdats]
theorem vafter13 (c : Dev nD) (t : Fin cfg0.N) : (vdats m 0 c).after 13 t = iblk m c 13 t := by dsimp only [vdats]
theorem vafter14 (c : Dev nD) (t : Fin cfg0.N) : (vdats m 0 c).after 14 t = iblk m c 14 t := by dsimp only [vdats]
theorem vafter15 (c : Dev nD) (t : Fin cfg0.N) : (vdats m 0 c).after 15 t = if t.val = 3 then vOUT1 m c else vOUT0 m c := by dsimp only [vdats]

theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d
theorem vbefore5 (c : Dev nD) (t : Fin cfg0.N) (d) : (vdats m 0 c).before 5 t d = iblk m c 5 t :=
  before0_5_of m (vdats m 0 c) (vA_eq m c 5) (vafter5 m c) t d
theorem vbefore6 (c : Dev nD) (t : Fin cfg0.N) (d) : (vdats m 0 c).before 6 t d = iblk m c 6 t :=
  before0_6_of m (vdats m 0 c) (vA_eq m c 6) (vafter6 m c) t d
theorem vbefore7 (c : Dev nD) (t : Fin cfg0.N) (d) : (vdats m 0 c).before 7 t d = iblk m c 7 t :=
  before0_7_of m (vdats m 0 c) (vA_eq m c 7) (vafter7 m c) t d
theorem vbefore8 (c : Dev nD) (t : Fin cfg0.N) (d) : (vdats m 0 c).before 8 t d = iblk m c 8 t :=
  before0_8_of m (vdats m 0 c) (vA_eq m c 8) (vafter8 m c) t d
theorem vbefore9 (c : Dev nD) (t : Fin cfg0.N) (d) : (vdats m 0 c).before 9 t d = iblk m c 9 t :=
  before0_9_of m (vdats m 0 c) (vA_eq m c 9) (vafter9 m c) t d
theorem vbefore10 (c : Dev nD) (t : Fin cfg0.N) (d) : (vdats m 0 c).before 10 t d = iblk m c 10 t :=
  before0_10_of m (vdats m 0 c) (vA_eq m c 10) (vafter10 m c) t d
theorem vbefore11 (c : Dev nD) (t : Fin cfg0.N) (d) : (vdats m 0 c).before 11 t d = iblk m c 11 t :=
  before0_11_of m (vdats m 0 c) (vA_eq m c 11) (vafter11 m c) t d
theorem vbefore12 (c : Dev nD) (t : Fin cfg0.N) (d) : (vdats m 0 c).before 12 t d = iblk m c 12 t :=
  before0_12_of m (vdats m 0 c) (vA_eq m c 12) (vafter12 m c) t d
theorem vbefore13 (c : Dev nD) (t : Fin cfg0.N) (d) : (vdats m 0 c).before 13 t d = iblk m c 13 t :=
  before0_13_of m (vdats m 0 c) (vA_eq m c 13) (vafter13 m c) t d
theorem vbefore14 (c : Dev nD) (t : Fin cfg0.N) (d) : (vdats m 0 c).before 14 t d = iblk m c 14 t :=
  before0_14_of m (vdats m 0 c) (vA_eq m c 14) (vafter14 m c) t d

theorem vleaves0 (c : Dev nD) (t : Fin cfg0.N) : (vdats m 0 c).leavesExact 0 t = owns (c : Thread nD τ) (ms0 t) fullShare (iblk m c 0 t) := by
  unfold Dat.leavesExact; rw [liveAt 0 (by decide) t, vafter0]
theorem vleaves1 (c : Dev nD) (t : Fin cfg0.N) : (vdats m 0 c).leavesExact 1 t = owns (c : Thread nD τ) (ms1 t) fullShare (iblk m c 1 t) := by
  unfold Dat.leavesExact; rw [liveAt 1 (by decide) t, vafter1]
theorem vleaves2 (c : Dev nD) (t : Fin cfg0.N) : (vdats m 0 c).leavesExact 2 t = owns (c : Thread nD τ) (ms2 t) fullShare (iblk m c 2 t) := by
  unfold Dat.leavesExact; rw [liveAt 2 (by decide) t, vafter2]
theorem vleaves3 (c : Dev nD) (t : Fin cfg0.N) : (vdats m 0 c).leavesExact 3 t = owns (c : Thread nD τ) (ms3 t) fullShare (iblk m c 3 t) := by
  unfold Dat.leavesExact; rw [liveAt 3 (by decide) t, vafter3]
theorem vleaves4 (c : Dev nD) (t : Fin cfg0.N) : (vdats m 0 c).leavesExact 4 t = owns (c : Thread nD τ) (ms4 t) fullShare (iblk m c 4 t) := by
  unfold Dat.leavesExact; rw [liveAt 4 (by decide) t, vafter4]
theorem vleaves5 (c : Dev nD) (t : Fin cfg0.N) : (vdats m 0 c).leavesExact 5 t = owns (c : Thread nD τ) (ms5 t) fullShare (iblk m c 5 t) := by
  unfold Dat.leavesExact; rw [liveAt 5 (by decide) t, vafter5]
theorem vleaves6 (c : Dev nD) (t : Fin cfg0.N) : (vdats m 0 c).leavesExact 6 t = owns (c : Thread nD τ) (ms6 t) fullShare (iblk m c 6 t) := by
  unfold Dat.leavesExact; rw [liveAt 6 (by decide) t, vafter6]
theorem vleaves7 (c : Dev nD) (t : Fin cfg0.N) : (vdats m 0 c).leavesExact 7 t = owns (c : Thread nD τ) (ms7 t) fullShare (iblk m c 7 t) := by
  unfold Dat.leavesExact; rw [liveAt 7 (by decide) t, vafter7]
theorem vleaves8 (c : Dev nD) (t : Fin cfg0.N) : (vdats m 0 c).leavesExact 8 t = owns (c : Thread nD τ) (ms8 t) fullShare (iblk m c 8 t) := by
  unfold Dat.leavesExact; rw [liveAt 8 (by decide) t, vafter8]
theorem vleaves9 (c : Dev nD) (t : Fin cfg0.N) : (vdats m 0 c).leavesExact 9 t = owns (c : Thread nD τ) (ms9 t) fullShare (iblk m c 9 t) := by
  unfold Dat.leavesExact; rw [liveAt 9 (by decide) t, vafter9]
theorem vleaves10 (c : Dev nD) (t : Fin cfg0.N) : (vdats m 0 c).leavesExact 10 t = owns (c : Thread nD τ) (ms10 t) fullShare (iblk m c 10 t) := by
  unfold Dat.leavesExact; rw [liveAt 10 (by decide) t, vafter10]
theorem vleaves11 (c : Dev nD) (t : Fin cfg0.N) : (vdats m 0 c).leavesExact 11 t = owns (c : Thread nD τ) (ms11 t) fullShare (iblk m c 11 t) := by
  unfold Dat.leavesExact; rw [liveAt 11 (by decide) t, vafter11]
theorem vleaves12 (c : Dev nD) (t : Fin cfg0.N) : (vdats m 0 c).leavesExact 12 t = owns (c : Thread nD τ) (ms12 t) fullShare (iblk m c 12 t) := by
  unfold Dat.leavesExact; rw [liveAt 12 (by decide) t, vafter12]
theorem vleaves13 (c : Dev nD) (t : Fin cfg0.N) : (vdats m 0 c).leavesExact 13 t = owns (c : Thread nD τ) (ms13 t) fullShare (iblk m c 13 t) := by
  unfold Dat.leavesExact; rw [liveAt 13 (by decide) t, vafter13]
theorem vleaves14 (c : Dev nD) (t : Fin cfg0.N) : (vdats m 0 c).leavesExact 14 t = owns (c : Thread nD τ) (ms14 t) fullShare (iblk m c 14 t) := by
  unfold Dat.leavesExact; rw [liveAt 14 (by decide) t, vafter14]

/-- The output window is idle, and not written back, at points 0 and 1; live at points 2 and 3, each of which writes its
    block back. -/
theorem idle15 : ∀ t : Fin cfg0.N, t.val < 2 → cfg0.idle 15 (grid0.coords t) = true := by decide +kernel
theorem noflush15 : ∀ t : Fin cfg0.N, t.val < 2 → (cfg0.win 15).flush t = false := by decide +kernel
theorem live15 : ∀ t : Fin cfg0.N, 2 ≤ t.val → cfg0.idle 15 (grid0.coords t) = false := by decide +kernel
theorem flush15 : ∀ t : Fin cfg0.N, (cfg0.win 15).flush t = true ↔ 2 ≤ t.val := by decide +kernel

end Cert.KernelIdeal.Hand

end
-- ==== Proof.KVRunA.lean ====
import proofs.«119914_g24988119728772_cont_9to1_1483_19_alg».proof.Proof.KVCommon
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at grid point t0_0, with what it leaves NAMED: from the fifteen input blocks and what the points before left
    in the scratch buffers, the contents each store leaves, as the payloads of the body's own arithmetic. -/
theorem vrunA (c : Dev nD) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) (d16 : Vec F S5000x256 .f32)  :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg16 fullShare d16
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ owns (c : Thread nD τ) arg16 fullShare d16
                ∗ (∃ f, arg17.view.loc (c : Thread nD τ) ↦[arg17.view.set]{fullShare} arg17.view.writes (Elt F) f [⟨RA, k0_pay7 x1 x4 x5 x12 (k0_pay4 x2 x3 x9 (View.ld x11 row0))⟩])
                ∗ owns (c : Thread nD τ) arg18 fullShare (k0_pay6 x1 x4 x5 k0_pay1)
                ∗ (∃ f, arg19.view.loc (c : Thread nD τ) ↦[arg19.view.set]{fullShare} arg19.view.writes (Elt F) f [⟨row0, (k0_pay4 x2 x3 x9 (View.ld x11 row0))⟩])
                ∗ owns (c : Thread nD τ) arg20 fullShare (k0_pay3 x2 x3)) -∗ K ⟨⟩))
          ⊢ wp frame (wpE (defs₀ (F := F)) Variants.none c none) E (cc0__fused_kernel (grid0.coords t0_0) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    have hc0 : cond0 (grid0.coords t0_0) := by decide +kernel
    have hc1 : cond1 (grid0.coords t0_0) := by decide +kernel
    have hc2 : ¬cond2 (grid0.coords t0_0) := by decide +kernel
    have hc3 : ¬cond3 (grid0.coords t0_0) := by decide +kernel
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15

    sl_exec (disch := first | exact hc0 | exact hc1 | exact hc2 | exact hc3)
    sl_step
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg20.read_unread, View.ld_unit_zero (S := S5000x256) hz2, View.ld_unit_zero (S := S32x1) hz2, View.ld_unit_zero (S := S512x128) hz2, View.ld_unit_zero (S := S256x128) hz2, View.ld_unit_zero (S := S1x128) hz2, View.ld_unit_zero (S := S128x128) hz2, View.ld_unit_zero (S := S128x256) hz2, View.ld_unit_zero (S := S1x256) hz2, View.ld_unit_zero (S := S32x128) hz2, View.readCov_unit_zero (S := S1x128) _ hz2, View.readCov_cons_toLoadRect]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists f16; isplitr; · ipureintro; exact hf16
      iexact H16
    isplitl [H17]; · iexists _; iexact H17
    isplitl [H18]
    · iexists _; isplitr; swap; · iexact H18
      ipureintro; exact read_writes_cons_whole _ _ hz2 _ _ _
    isplitl [H19]; · iexists _; iexact H19
    iexists _; isplitr; swap; · iexact H20
    ipureintro; exact read_writes_cons_whole _ _ hz2 _ _ _

end Cert.KernelIdeal.Hand

end
-- ==== Proof.KVRunB.lean ====
import proofs.«119914_g24988119728772_cont_9to1_1483_19_alg».proof.Proof.KVCommon
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at grid point t0_1, with what it leaves NAMED: from the fifteen input blocks and what the points before left
    in the scratch buffers, the contents each store leaves, as the payloads of the body's own arithmetic. -/
theorem vrunB (c : Dev nD) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) (d16 : Vec F S5000x256 .f32) (hA : Vec F S5000x128 .bf16) (s1 : Vec F S1x128 .f32) (c0 : Vec F S1x128 .f32) (ha0 : Vec F S32x128 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg16 fullShare d16
            ∗ (∃ f, arg17.view.loc (c : Thread nD τ) ↦[arg17.view.set]{fullShare} arg17.view.writes (Elt F) f [⟨RA, hA⟩])
            ∗ owns (c : Thread nD τ) arg18 fullShare s1
            ∗ (∃ f, arg19.view.loc (c : Thread nD τ) ↦[arg19.view.set]{fullShare} arg19.view.writes (Elt F) f [⟨row0, c0⟩])
            ∗ owns (c : Thread nD τ) arg20 fullShare ha0
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ owns (c : Thread nD τ) arg16 fullShare d16
                ∗ (∃ f, arg17.view.loc (c : Thread nD τ) ↦[arg17.view.set]{fullShare} arg17.view.writes (Elt F) f [⟨RB, k0_pay7 x1 x4 x5 x12 c0⟩, ⟨RA, hA⟩])
                ∗ owns (c : Thread nD τ) arg18 fullShare (k0_pay6 x1 x4 x5 s1)
                ∗ (∃ f, arg19.view.loc (c : Thread nD τ) ↦[arg19.view.set]{fullShare} arg19.view.writes (Elt F) f [⟨row0, c0⟩])
                ∗ owns (c : Thread nD τ) arg20 fullShare ha0) -∗ K ⟨⟩))
          ⊢ wp frame (wpE (defs₀ (F := F)) Variants.none c none) E (cc0__fused_kernel (grid0.coords t0_1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    have hc0 : ¬cond0 (grid0.coords t0_1) := by decide +kernel
    have hc1 : cond1 (grid0.coords t0_1) := by decide +kernel
    have hc2 : ¬cond2 (grid0.coords t0_1) := by decide +kernel
    have hc3 : ¬cond3 (grid0.coords t0_1) := by decide +kernel
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, H17⟩, ⟨%f18, %hf18, H18⟩, ⟨%f19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    obtain rfl := harg18.eq_unread hf18; obtain rfl := harg20.eq_unread hf20
    sl_exec (disch := first | exact hc0 | exact hc1 | exact hc2 | exact hc3)
    sl_step
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg20.read_unread, View.ld_unit_zero (S := S5000x256) hz2, View.ld_unit_zero (S := S32x1) hz2, View.ld_unit_zero (S := S512x128) hz2, View.ld_unit_zero (S := S256x128) hz2, View.ld_unit_zero (S := S1x128) hz2, View.ld_unit_zero (S := S128x128) hz2, View.ld_unit_zero (S := S128x256) hz2, View.ld_unit_zero (S := S1x256) hz2, View.ld_unit_zero (S := S32x128) hz2, View.readCov_unit_zero (S := S1x128) _ hz2, View.readCov_cons_toLoadRect]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists f16; isplitr; · ipureintro; exact hf16
      iexact H16
    isplitl [H17]; · iexists _; iexact H17
    isplitl [H18]
    · iexists _; isplitr; swap; · iexact H18
      ipureintro; exact read_writes_cons_whole _ _ hz2 _ _ _
    isplitl [H19]; · iexists _; iexact H19
    iexists _; isplitr; · ipureintro; exact harg20.read_unread _
    iexact H20

end Cert.KernelIdeal.Hand

end
-- ==== Proof.KVRunC.lean ====
import proofs.«119914_g24988119728772_cont_9to1_1483_19_alg».proof.Proof.KVCommon
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at grid point t0_2, with what it leaves NAMED: from the fifteen input blocks and what the points before left
    in the scratch buffers, the contents each store leaves, as the payloads of the body's own arithmetic. -/
theorem vrunC (c : Dev nD) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) (hA hB : Vec F S5000x128 .bf16) (s2 : Vec F S1x128 .f32) (c0 : Vec F S1x128 .f32) (ha0 : Vec F S32x128 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d)
            ∗ (∃ f, arg17.view.loc (c : Thread nD τ) ↦[arg17.view.set]{fullShare} arg17.view.writes (Elt F) f [⟨RB, hB⟩, ⟨RA, hA⟩])
            ∗ owns (c : Thread nD τ) arg18 fullShare s2
            ∗ (∃ f, arg19.view.loc (c : Thread nD τ) ↦[arg19.view.set]{fullShare} arg19.view.writes (Elt F) f [⟨row0, c0⟩])
            ∗ owns (c : Thread nD τ) arg20 fullShare ha0
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ owns (c : Thread nD τ) arg16 fullShare (k0_pay9 hA x13 (k0_pay8 s2 x6 ha0 x7 x8 x10 (View.ld x11 row1)) x14 x15)
                ∗ (∃ f, arg17.view.loc (c : Thread nD τ) ↦[arg17.view.set]{fullShare} arg17.view.writes (Elt F) f [⟨RB, hB⟩, ⟨RA, hA⟩])
                ∗ owns (c : Thread nD τ) arg18 fullShare s2
                ∗ (∃ f, arg19.view.loc (c : Thread nD τ) ↦[arg19.view.set]{fullShare} arg19.view.writes (Elt F) f [⟨row1, (k0_pay8 s2 x6 ha0 x7 x8 x10 (View.ld x11 row1))⟩, ⟨row0, c0⟩])
                ∗ owns (c : Thread nD τ) arg20 fullShare ha0) -∗ K ⟨⟩))
          ⊢ wp frame (wpE (defs₀ (F := F)) Variants.none c none) E (cc0__fused_kernel (grid0.coords t0_2) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    have hc0 : ¬cond0 (grid0.coords t0_2) := by decide +kernel
    have hc1 : ¬cond1 (grid0.coords t0_2) := by decide +kernel
    have hc2 : cond2 (grid0.coords t0_2) := by decide +kernel
    have hc3 : cond3 (grid0.coords t0_2) := by decide +kernel
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, H17⟩, ⟨%f18, %hf18, H18⟩, ⟨%f19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    obtain rfl := harg18.eq_unread hf18; obtain rfl := harg20.eq_unread hf20
    sl_exec (disch := first | exact hc0 | exact hc1 | exact hc2 | exact hc3)
    sl_step
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg20.read_unread, View.ld_unit_zero (S := S5000x256) hz2, View.ld_unit_zero (S := S32x1) hz2, View.ld_unit_zero (S := S512x128) hz2, View.ld_unit_zero (S := S256x128) hz2, View.ld_unit_zero (S := S1x128) hz2, View.ld_unit_zero (S := S128x128) hz2, View.ld_unit_zero (S := S128x256) hz2, View.ld_unit_zero (S := S1x256) hz2, View.ld_unit_zero (S := S32x128) hz2, View.readCov_unit_zero (S := S1x128) _ hz2, View.readCov_cons_toLoadRect]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; swap; · iexact H16
      ipureintro
      refine (read_writes_cons_whole _ _ hz2 _ _ _).trans ?_
      exact congrArg (fun z => k0_pay9 z x13 _ x14 x15)
        ((View.readCov_cons_of_rows_disjoint (m := 10000) (n := 128) (k := 5000) (k' := 5000) arg17.view 5000 0 (Or.inr (by decide)) hB [⟨RA, hA⟩] inbRB inbRA).trans
          (View.readCov_cons_toLoadRect arg17.view RA hA []))
    isplitl [H17]; · iexists _; iexact H17
    isplitl [H18]
    · iexists _; isplitr; · ipureintro; exact harg18.read_unread _
      iexact H18
    isplitl [H19]; · iexists _; iexact H19
    iexists _; isplitr; · ipureintro; exact harg20.read_unread _
    iexact H20

end Cert.KernelIdeal.Hand

end
-- ==== Proof.KVRunD.lean ====
import proofs.«119914_g24988119728772_cont_9to1_1483_19_alg».proof.Proof.KVCommon
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at grid point t0_3, with what it leaves NAMED: from the fifteen input blocks and what the points before left
    in the scratch buffers, the contents each store leaves, as the payloads of the body's own arithmetic. -/
theorem vrunD (c : Dev nD) (arg1 : Memref sig .tc .vmem S5000x256 .f32) (harg1 : arg1.IsWhole) (arg2 : Memref sig .tc .vmem S32x1 .i32) (harg2 : arg2.IsWhole) (arg3 : Memref sig .tc .vmem S512x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S5000x256 .f32) (harg16 : arg16.IsWhole) (arg17 : Memref sig .tc .vmem S10000x128 .bf16) (harg17 : arg17.IsWhole) (arg18 : Memref sig .tc .vmem S1x128 .f32) (harg18 : arg18.IsWhole) (arg19 : Memref sig .tc .vmem S2x128 .f32) (harg19 : arg19.IsWhole) (arg20 : Memref sig .tc .vmem S32x128 .f32) (harg20 : arg20.IsWhole)
    (x1 : Vec F S5000x256 .f32) (x2 : Vec F S32x1 .i32) (x3 : Vec F S512x128 .f32) (x4 : Vec F S256x128 .f32) (x5 : Vec F S1x128 .f32) (x6 : Vec F S128x128 .f32) (x7 : Vec F S128x128 .f32) (x8 : Vec F S1x128 .f32) (x9 : Vec F S128x128 .f32) (x10 : Vec F S128x128 .f32) (x11 : Vec F S2x128 .f32) (x12 : Vec F S128x128 .f32) (x13 : Vec F S128x128 .f32) (x14 : Vec F S128x256 .f32) (x15 : Vec F S1x256 .f32) (hA hB : Vec F S5000x128 .bf16) (s2 : Vec F S1x128 .f32) (c0 c1 : Vec F S1x128 .f32) (ha0 : Vec F S32x128 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (∃ d, owns (c : Thread nD τ) arg16 fullShare d)
            ∗ (∃ f, arg17.view.loc (c : Thread nD τ) ↦[arg17.view.set]{fullShare} arg17.view.writes (Elt F) f [⟨RB, hB⟩, ⟨RA, hA⟩])
            ∗ owns (c : Thread nD τ) arg18 fullShare s2
            ∗ (∃ f, arg19.view.loc (c : Thread nD τ) ↦[arg19.view.set]{fullShare} arg19.view.writes (Elt F) f [⟨row1, c1⟩, ⟨row0, c0⟩])
            ∗ owns (c : Thread nD τ) arg20 fullShare ha0
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
                ∗ owns (c : Thread nD τ) arg16 fullShare (k0_pay9 hB x13 c1 x14 x15)
                ∗ (∃ f, arg17.view.loc (c : Thread nD τ) ↦[arg17.view.set]{fullShare} arg17.view.writes (Elt F) f [⟨RB, hB⟩, ⟨RA, hA⟩])
                ∗ owns (c : Thread nD τ) arg18 fullShare s2
                ∗ (∃ f, arg19.view.loc (c : Thread nD τ) ↦[arg19.view.set]{fullShare} arg19.view.writes (Elt F) f [⟨row1, c1⟩, ⟨row0, c0⟩])
                ∗ owns (c : Thread nD τ) arg20 fullShare ha0) -∗ K ⟨⟩))
          ⊢ wp frame (wpE (defs₀ (F := F)) Variants.none c none) E (cc0__fused_kernel (grid0.coords t0_3) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    have hc0 : ¬cond0 (grid0.coords t0_3) := by decide +kernel
    have hc1 : ¬cond1 (grid0.coords t0_3) := by decide +kernel
    have hc2 : ¬cond2 (grid0.coords t0_3) := by decide +kernel
    have hc3 : cond3 (grid0.coords t0_3) := by decide +kernel
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, H17⟩, ⟨%f18, %hf18, H18⟩, ⟨%f19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    obtain rfl := harg18.eq_unread hf18; obtain rfl := harg20.eq_unread hf20
    sl_exec (disch := first | exact hc0 | exact hc1 | exact hc2 | exact hc3)
    sl_step
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg20.read_unread, View.ld_unit_zero (S := S5000x256) hz2, View.ld_unit_zero (S := S32x1) hz2, View.ld_unit_zero (S := S512x128) hz2, View.ld_unit_zero (S := S256x128) hz2, View.ld_unit_zero (S := S1x128) hz2, View.ld_unit_zero (S := S128x128) hz2, View.ld_unit_zero (S := S128x256) hz2, View.ld_unit_zero (S := S1x256) hz2, View.ld_unit_zero (S := S32x128) hz2, View.readCov_unit_zero (S := S1x128) _ hz2, View.readCov_cons_toLoadRect]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; swap; · iexact H16
      ipureintro
      refine (read_writes_cons_whole _ _ hz2 _ _ _).trans ?_
      exact congrArg (fun z => k0_pay9 z x13 c1 x14 x15) (View.readCov_cons_toLoadRect arg17.view RB hB [⟨RA, hA⟩])
    isplitl [H17]; · iexists _; iexact H17
    isplitl [H18]
    · iexists _; isplitr; · ipureintro; exact harg18.read_unread _
      iexact H18
    isplitl [H19]; · iexists _; iexact H19
    iexists _; isplitr; · ipureintro; exact harg20.read_unread _
    iexact H20

end Cert.KernelIdeal.Hand

end
-- ==== Proof.KVFrame.lean ====
import proofs.«119914_g24988119728772_cont_9to1_1483_19_alg».proof.Proof.KVDat
import proofs.«119914_g24988119728772_cont_9to1_1483_19_alg».proof.Proof.KVRunA
import proofs.«119914_g24988119728772_cont_9to1_1483_19_alg».proof.Proof.KVRunB
import proofs.«119914_g24988119728772_cont_9to1_1483_19_alg».proof.Proof.KVRunC
import proofs.«119914_g24988119728772_cont_9to1_1483_19_alg».proof.Proof.KVRunD
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation with the results named, one grid point at a time -/

def vbodyPre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d))
    ∗ (∃ d, owns (c : Thread nD τ) (ms5 t) fullShare ((vdats m 0 c).before 5 t d))
    ∗ (∃ d, owns (c : Thread nD τ) (ms6 t) fullShare ((vdats m 0 c).before 6 t d))
    ∗ (∃ d, owns (c : Thread nD τ) (ms7 t) fullShare ((vdats m 0 c).before 7 t d))
    ∗ (∃ d, owns (c : Thread nD τ) (ms8 t) fullShare ((vdats m 0 c).before 8 t d))
    ∗ (∃ d, owns (c : Thread nD τ) (ms9 t) fullShare ((vdats m 0 c).before 9 t d))
    ∗ (∃ d, owns (c : Thread nD τ) (ms10 t) fullShare ((vdats m 0 c).before 10 t d))
    ∗ (∃ d, owns (c : Thread nD τ) (ms11 t) fullShare ((vdats m 0 c).before 11 t d))
    ∗ (∃ d, owns (c : Thread nD τ) (ms12 t) fullShare ((vdats m 0 c).before 12 t d))
    ∗ (∃ d, owns (c : Thread nD τ) (ms13 t) fullShare ((vdats m 0 c).before 13 t d))
    ∗ (∃ d, owns (c : Thread nD τ) (ms14 t) fullShare ((vdats m 0 c).before 14 t d))
    ∗ (∃ d, owns (c : Thread nD τ) (ms15 t) fullShare ((vdats m 0 c).before 15 t d)))

def vbodyPost (c : Dev nD) (t : Fin cfg0.N) : sProp 𝕄 :=
  iprop((vdats m 0 c).Φ t.succ ∗ (vdats m 0 c).owesAt () t.succ
    ∗ (vdats m 0 c).leavesExact 0 t
    ∗ (vdats m 0 c).leavesExact 1 t
    ∗ (vdats m 0 c).leavesExact 2 t
    ∗ (vdats m 0 c).leavesExact 3 t
    ∗ (vdats m 0 c).leavesExact 4 t
    ∗ (vdats m 0 c).leavesExact 5 t
    ∗ (vdats m 0 c).leavesExact 6 t
    ∗ (vdats m 0 c).leavesExact 7 t
    ∗ (vdats m 0 c).leavesExact 8 t
    ∗ (vdats m 0 c).leavesExact 9 t
    ∗ (vdats m 0 c).leavesExact 10 t
    ∗ (vdats m 0 c).leavesExact 11 t
    ∗ (vdats m 0 c).leavesExact 12 t
    ∗ (vdats m 0 c).leavesExact 13 t
    ∗ (vdats m 0 c).leavesExact 14 t
    ∗ (vdats m 0 c).leavesExact 15 t)

set_option maxHeartbeats 4000000 in
/-- The body obligation at grid point t0_0. -/
theorem vsoundA (c : Dev nD) :
    vbodyPre m c t0_0 ⊢ wp frame (wpE (defs₀ (F := F)) Variants.none c none) Set.univ (bodyAt0 t0_0) (fun _ => vbodyPost m c t0_0) := by
  unfold vbodyPre vbodyPost bodyAt0
  simp only [vbefore0, vbefore1, vbefore2, vbefore3, vbefore4, vbefore5, vbefore6, vbefore7, vbefore8, vbefore9, vbefore10, vbefore11, vbefore12, vbefore13, vbefore14]
  rw [show (vdats m 0 c).owesAt () (t0_0).succ = (vdats m 0 c).owesAt () (t0_0).castSucc from rfl]
  rw [vleaves0, vleaves1, vleaves2, vleaves3, vleaves4, vleaves5, vleaves6, vleaves7, vleaves8, vleaves9, vleaves10, vleaves11, vleaves12, vleaves13, vleaves14]
  rw [show (vdats m 0 c).Φ (t0_0).castSucc = Pipeline.ΦA spec0 c from rfl, PhiA_eq, show (vdats m 0 c).Φ (t0_0).succ = P1 m c from rfl]
  rw [Dat.leavesExact_idle (vdats m 0 c) 15 t0_0 (idle15 t0_0 (by decide)) (noflush15 t0_0 (by decide))]
  unfold P1
  unfold W17 W19
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (vrunA c _ _ _ _ _ _ _ _ _ _ _ _ _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) ((vdats m 0 c).before 15 t0_0 d15) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · isplitr [Hg]
    · isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

set_option maxHeartbeats 4000000 in
/-- The body obligation at grid point t0_1. -/
theorem vsoundB (c : Dev nD) :
    vbodyPre m c t0_1 ⊢ wp frame (wpE (defs₀ (F := F)) Variants.none c none) Set.univ (bodyAt0 t0_1) (fun _ => vbodyPost m c t0_1) := by
  unfold vbodyPre vbodyPost bodyAt0
  simp only [vbefore0, vbefore1, vbefore2, vbefore3, vbefore4, vbefore5, vbefore6, vbefore7, vbefore8, vbefore9, vbefore10, vbefore11, vbefore12, vbefore13, vbefore14]
  rw [show (vdats m 0 c).owesAt () (t0_1).succ = (vdats m 0 c).owesAt () (t0_1).castSucc from rfl]
  rw [vleaves0, vleaves1, vleaves2, vleaves3, vleaves4, vleaves5, vleaves6, vleaves7, vleaves8, vleaves9, vleaves10, vleaves11, vleaves12, vleaves13, vleaves14]
  rw [show (vdats m 0 c).Φ (t0_1).castSucc = P1 m c from rfl, show (vdats m 0 c).Φ (t0_1).succ = P2 m c from rfl]
  rw [Dat.leavesExact_idle (vdats m 0 c) 15 t0_1 (idle15 t0_1 (by decide)) (noflush15 t0_1 (by decide))]
  unfold P1 P2
  unfold W17 W19
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (vrunB c _ _ _ _ _ _ _ _ _ _ _ _ _ _ _ _ _ _ _ _ _ _ _ _ _ _ _ _ _ _ _ _ _ _ _ _ _ _ _ _ (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (iblk m c 12 t0_1) (iblk m c 13 t0_1) (iblk m c 14 t0_1) ((vdats m 0 c).before 15 t0_1 d15) (vHA m c) (vS1 m c) (vC0 m c) (vHA0 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · isplitr [Hg]
    · isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

set_option maxHeartbeats 4000000 in
/-- The body obligation at grid point t0_2. -/
theorem vsoundC (c : Dev nD) :
    vbodyPre m c t0_2 ⊢ wp frame (wpE (defs₀ (F := F)) Variants.none c none) Set.univ (bodyAt0 t0_2) (fun _ => vbodyPost m c t0_2) := by
  unfold vbodyPre vbodyPost bodyAt0
  simp only [vbefore0, vbefore1, vbefore2, vbefore3, vbefore4, vbefore5, vbefore6, vbefore7, vbefore8, vbefore9, vbefore10, vbefore11, vbefore12, vbefore13, vbefore14]
  rw [show (vdats m 0 c).owesAt () (t0_2).succ = (vdats m 0 c).owesAt () (t0_2).castSucc from rfl]
  rw [vleaves0, vleaves1, vleaves2, vleaves3, vleaves4, vleaves5, vleaves6, vleaves7, vleaves8, vleaves9, vleaves10, vleaves11, vleaves12, vleaves13, vleaves14]
  rw [show (vdats m 0 c).Φ (t0_2).castSucc = P2 m c from rfl, show (vdats m 0 c).Φ (t0_2).succ = P3 m c from rfl]
  rw [show (vdats m 0 c).leavesExact 15 t0_2 = owns (c : Thread nD τ) (ms15 t0_2) fullShare (vOUT0 m c) from by
    unfold Dat.leavesExact; rw [live15 t0_2 (by decide), vafter15]; rfl]
  unfold P2 P3
  unfold W17 W19
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (vrunC c _ _ _ _ _ _ _ _ _ _ _ _ _ _ _ _ _ _ _ _ _ _ _ _ _ _ _ _ _ _ _ _ _ _ _ _ _ _ _ _ (iblk m c 0 t0_2) (iblk m c 1 t0_2) (iblk m c 2 t0_2) (iblk m c 3 t0_2) (iblk m c 4 t0_2) (iblk m c 5 t0_2) (iblk m c 6 t0_2) (iblk m c 7 t0_2) (iblk m c 8 t0_2) (iblk m c 9 t0_2) (iblk m c 10 t0_2) (iblk m c 11 t0_2) (iblk m c 12 t0_2) (iblk m c 13 t0_2) (iblk m c 14 t0_2) (vHA m c) (vHB m c) (vS2 m c) (vC0 m c) (vHA0 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · isplitr [Hg]
    · isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 4000000 in
/-- The body obligation at grid point t0_3. -/
theorem vsoundD (c : Dev nD) :
    vbodyPre m c t0_3 ⊢ wp frame (wpE (defs₀ (F := F)) Variants.none c none) Set.univ (bodyAt0 t0_3) (fun _ => vbodyPost m c t0_3) := by
  unfold vbodyPre vbodyPost bodyAt0
  simp only [vbefore0, vbefore1, vbefore2, vbefore3, vbefore4, vbefore5, vbefore6, vbefore7, vbefore8, vbefore9, vbefore10, vbefore11, vbefore12, vbefore13, vbefore14]
  rw [show (vdats m 0 c).owesAt () (t0_3).succ = (vdats m 0 c).owesAt () (t0_3).castSucc from rfl]
  rw [vleaves0, vleaves1, vleaves2, vleaves3, vleaves4, vleaves5, vleaves6, vleaves7, vleaves8, vleaves9, vleaves10, vleaves11, vleaves12, vleaves13, vleaves14]
  rw [show (vdats m 0 c).Φ (t0_3).castSucc = P3 m c from rfl, show (vdats m 0 c).Φ (t0_3).succ = P3 m c from rfl]
  rw [show (vdats m 0 c).leavesExact 15 t0_3 = owns (c : Thread nD τ) (ms15 t0_3) fullShare (vOUT1 m c) from by
    unfold Dat.leavesExact; rw [live15 t0_3 (by decide), vafter15]; rfl]
  unfold P3
  unfold W17 W19
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (vrunD c _ _ _ _ _ _ _ _ _ _ _ _ _ _ _ _ _ _ _ _ _ _ _ _ _ _ _ _ _ _ _ _ _ _ _ _ _ _ _ _ (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (iblk m c 14 t0_3) (vHA m c) (vHB m c) (vS2 m c) (vC0 m c) (vC1 m c) (vHA0 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · isplitr [Hg]
    · isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem vbody_obligation (c : Dev nD) : BodyObligation (vdats (F := F) m 0 c) (defs₀ (F := F)) Variants.none () Set.univ := fun t => by
  rw [bigSep_W0, bigSep_W0]
  rcases fin_N0 t with rfl | rfl | rfl | rfl
  · exact vsoundA m c
  · exact vsoundB m c
  · exact vsoundC m c
  · exact vsoundD m c

/-- What the launch hands the region is the invariant before the first point. -/
theorem vhin (c : Dev nD) : Pipeline.ΦA spec0 c ⊢ (vdats m 0 c).Φ 0 := by
  rw [show (vdats m 0 c).Φ 0 = Pipeline.ΦA spec0 c from rfl]

/-- After the last point the invariant gives the launch's back: what the scratch buffers hold is forgotten. -/
theorem vhout (c : Dev nD) : (vdats m 0 c).Φ (Fin.last cfg0.N) ⊢ Pipeline.ΦA spec0 c := by
  rw [show (vdats m 0 c).Φ (Fin.last cfg0.N) = P3 m c from rfl, PhiA_eq]
  unfold P3 W17 W19 owns
  iintro ⟨⟨⟨%f0, S0⟩, ⟨%f1, %h1, S1⟩, ⟨%f2, S2⟩, ⟨%f3, %h3, S3⟩⟩, Hg⟩
  isplitr [Hg]
  · isplitl [S0]
    · iexists _, _; isplitr; swap; · iexact S0
      ipureintro; rfl
    isplitl [S1]
    · iexists _, _; isplitr; swap; · iexact S1
      ipureintro; rfl
    isplitl [S2]
    · iexists _, _; isplitr; swap; · iexact S2
      ipureintro; rfl
    iexists _, _; isplitr; swap; · iexact S3
    ipureintro; rfl
  · iexact Hg

set_option backward.isDefEq.respectTransparency.types false in
/-- The run with the results named: every weakly fair execution terminates, and every array of the pipeline ends at what
    the library computes from the proof data. -/
theorem vrun_main : θ_run defs (onTc (τ := τ) (main (F := F))) (s₀ m ρ) (Pipeline.FramePost cfgs (vdats m) 0 (V m)) :=
  Pipeline.θ_run_frame_track cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m) (hin := vhin m) (hout := vhout m)

end Cert.KernelIdeal.Hand

end
-- ==== Proof.KVFinal.lean ====
/-
  From the two blocks of results to the whole result array. The output window writes back rows [0, 5000) at grid
  point 2 and rows [5000, 10000) at grid point 3, so the array ends as the function that reads the first block at a
  row below 5000 and the second block, 5000 rows up, at the others: every index lies in exactly the block of point
  2 + row / 5000.
-/
import proofs.«119914_g24988119728772_cont_9to1_1483_19_alg».proof.Proof.KVDat
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The whole result array from the two blocks: the first block at a row below 5000, the second block 5000 rows up
    at the others. -/
def kOutArr (c : Dev nD) : S10000x256.Idx → EReal := fun i =>
  if h : (i 0).val < 5000 then vOUT0 (F := Ideal) m c (ix2 ⟨(i 0).val, h⟩ (i 1))
  else vOUT1 (F := Ideal) m c (ix2 ⟨(i 0).val - 5000, by have h' : (i 0).val < 10000 := (i 0).isLt; omega⟩ (i 1))

/-- The same as contents of the result buffer. -/
def kOut (c : Dev nD) : Buf (Elt Ideal) ((c.tc : Thread nD τ).loc main_v0) := kOutArr m c

/-- At an index whose row is row r of the first block. -/
theorem kOutArr_lo (c : Dev nD) (i : S10000x256.Idx) (j : S5000x256.Idx) (e0 : (i 0).val = (j 0).val)
    (e1 : (i 1).val = (j 1).val) : kOutArr m c i = vOUT0 (F := Ideal) m c j := by
  have hj : (j 0).val < 5000 := (j 0).isLt
  unfold kOutArr
  rw [dif_pos (by rw [e0]; exact hj)]
  refine congrArg (vOUT0 (F := Ideal) m c) ?_
  funext a; apply Fin.ext
  match a with
  | ⟨0, _⟩ => exact e0
  | ⟨1, _⟩ => exact e1

/-- At an index whose row is 5000 plus row r of the second block. -/
theorem kOutArr_hi (c : Dev nD) (i : S10000x256.Idx) (j : S5000x256.Idx) (e0 : (i 0).val = 5000 + (j 0).val)
    (e1 : (i 1).val = (j 1).val) : kOutArr m c i = vOUT1 (F := Ideal) m c j := by
  unfold kOutArr
  rw [dif_neg (by rw [e0]; omega)]
  refine congrArg (vOUT1 (F := Ideal) m c) ?_
  funext a; apply Fin.ext
  match a with
  | ⟨0, _⟩ => show (i 0).val - 5000 = (j 0).val; omega
  | ⟨1, _⟩ => exact e1

/-- The output window's block index at the two points that write back: block 0 at point 2, block 1 at point 3. -/
theorem idx15_2 : win0_15.index t0_2 (0 : Fin 2) = 0 ∧ win0_15.index t0_2 (1 : Fin 2) = 0 := by decide +kernel
theorem idx15_3 : win0_15.index t0_3 (0 : Fin 2) = 1 ∧ win0_15.index t0_3 (1 : Fin 2) = 0 := by decide +kernel

/-- WHAT A POINT WRITES BACK is its block of the whole-array function. -/
theorem flushed15_eq (c : Dev nD) (t : Fin cfg0.N) (hf : (cfg0.win 15).flush t = true) :
    (vdats (F := Ideal) m 0 c).flushed 15 t = ((cfg0.win 15).blk t).view.read (Elt Ideal) (kOut m c) := by
  have h2 := (flush15 t).mp hf
  rcases fin_N0 t with rfl | rfl | rfl | rfl
  · exact absurd h2 (by decide)
  · exact absurd h2 (by decide)
  · show (cfg0.win 15).cut (grid0.coords t0_2) ((vdats (F := Ideal) m 0 c).after 15 t0_2) = _
    rw [vafter15, if_neg (by decide)]
    funext j
    show vOUT0 (F := Ideal) m c j = kOutArr m c (((cfg0.win 15).blk t0_2).view.emb j)
    refine (kOutArr_lo m c _ j ?_ ?_).symm
    · show win0_15.index t0_2 (0 : Fin 2) * 5000 + 1 * (j 0).val = (j 0).val
      rw [idx15_2.1]; omega
    · show win0_15.index t0_2 (1 : Fin 2) * 256 + 1 * (j 1).val = (j 1).val
      rw [idx15_2.2]; omega
  · show (cfg0.win 15).cut (grid0.coords t0_3) ((vdats (F := Ideal) m 0 c).after 15 t0_3) = _
    rw [vafter15, if_pos (by decide)]
    funext j
    show vOUT1 (F := Ideal) m c j = kOutArr m c (((cfg0.win 15).blk t0_3).view.emb j)
    refine (kOutArr_hi m c _ j ?_ ?_).symm
    · show win0_15.index t0_3 (0 : Fin 2) * 5000 + 1 * (j 0).val = 5000 + (j 0).val
      rw [idx15_3.1]; omega
    · show win0_15.index t0_3 (1 : Fin 2) * 256 + 1 * (j 1).val = (j 1).val
      rw [idx15_3.2]; omega

/-- The extents of the two written-back blocks inside the array. -/
theorem ext15_2 : win0_15.index t0_2 0 * win0_15.size 0 = 0 ∧ win0_15.xsize (grid0.coords t0_2) 0 = 5000
    ∧ win0_15.index t0_2 1 * win0_15.size 1 = 0 ∧ win0_15.xsize (grid0.coords t0_2) 1 = 256 := by decide +kernel
theorem ext15_3 : win0_15.index t0_3 0 * win0_15.size 0 = 5000 ∧ win0_15.xsize (grid0.coords t0_3) 0 = 5000
    ∧ win0_15.index t0_3 1 * win0_15.size 1 = 0 ∧ win0_15.xsize (grid0.coords t0_3) 1 = 256 := by decide +kernel

/-- THE WHOLE ARRAY after the run: the two blocks tile it, so it ends as the whole-array function. -/
theorem final15 (c : Dev nD) : (vdats (F := Ideal) m 0 c).arrAt 15 cfg0.N = kOut m c :=
  (vdats (F := Ideal) m 0 c).arrAt_eq_of_cover 15 (kOut m c) (flushed15_eq m c) fun i => by
    have h0 : (i 0 : Nat) < 10000 := (i 0).isLt
    have h1 : (i 1 : Nat) < 256 := (i 1).isLt
    by_cases hlo : (i 0 : Nat) < 5000
    · refine ⟨t0_2, (flush15 t0_2).mpr (by decide), ?_⟩
      show i ∈ ((View.whole main_v0).slice (win0_15.rect t0_2)).set
      rw [View.set_slice_whole, Rect.mem_set_unit]
      intro a
      obtain ⟨f0, f1, f2, f3⟩ := ext15_2
      match a with
      | ⟨0, _⟩ =>
        show win0_15.index t0_2 0 * win0_15.size 0 ≤ (i 0 : Nat) ∧ (i 0 : Nat) < win0_15.index t0_2 0 * win0_15.size 0 + win0_15.xsize (grid0.coords t0_2) 0
        rw [f0, f1]; omega
      | ⟨1, _⟩ =>
        show win0_15.index t0_2 1 * win0_15.size 1 ≤ (i 1 : Nat) ∧ (i 1 : Nat) < win0_15.index t0_2 1 * win0_15.size 1 + win0_15.xsize (grid0.coords t0_2) 1
        rw [f2, f3]; omega
    · refine ⟨t0_3, (flush15 t0_3).mpr (by decide), ?_⟩
      show i ∈ ((View.whole main_v0).slice (win0_15.rect t0_3)).set
      rw [View.set_slice_whole, Rect.mem_set_unit]
      intro a
      obtain ⟨f0, f1, f2, f3⟩ := ext15_3
      match a with
      | ⟨0, _⟩ =>
        show win0_15.index t0_3 0 * win0_15.size 0 ≤ (i 0 : Nat) ∧ (i 0 : Nat) < win0_15.index t0_3 0 * win0_15.size 0 + win0_15.xsize (grid0.coords t0_3) 0
        rw [f0, f1]; omega
      | ⟨1, _⟩ =>
        show win0_15.index t0_3 1 * win0_15.size 1 ≤ (i 1 : Nat) ∧ (i 1 : Nat) < win0_15.index t0_3 1 * win0_15.size 1 + win0_15.xsize (grid0.coords t0_3) 1
        rw [f2, f3]; omega

end Cert.KernelIdeal.Hand

end
-- ==== Proof.KVValue.lean ====
import proofs.«119914_g24988119728772_cont_9to1_1483_19_alg».proof.Proof.KVFrame
import proofs.«119914_g24988119728772_cont_9to1_1483_19_alg».proof.Proof.KVFinal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The idealized kernel's run with its result named: every weakly fair execution terminates; the result array ends
    holding `kOut` — the two blocks of results the last two grid points wrote back — and every argument array is
    unchanged (a staged input's block is never written back; an argument no window stages is not touched by the region). -/
theorem vrun (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 15).trans (final15 m c),
      ((h c).1 0).trans (((vdats m 0 c).arrAt_in 0 rfl _).trans ((vA_eq m c 0).trans (V_main_arg0 m c))),
      ((h c).2 main_arg1 (Pipeline.mem_restRefs_of main_arg1 (by decide) (by decide))).trans (V_main_arg1 m c),
      ((h c).1 2).trans (((vdats m 0 c).arrAt_in 2 rfl _).trans ((vA_eq m c 2).trans (V_main_arg2 m c))),
      ((h c).1 3).trans (((vdats m 0 c).arrAt_in 3 rfl _).trans ((vA_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 10).trans (((vdats m 0 c).arrAt_in 10 rfl _).trans ((vA_eq m c 10).trans (V_main_arg10 m c))),
      ((h c).1 13).trans (((vdats m 0 c).arrAt_in 13 rfl _).trans ((vA_eq m c 13).trans (V_main_arg11 m c))),
      ((h c).2 main_arg12 (Pipeline.mem_restRefs_of main_arg12 (by decide) (by decide))).trans (V_main_arg12 m c)⟩)
    (vrun_main (F := Ideal) m ρ)

end Cert.KernelIdeal.Hand

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.KIWindows.lean ====
/-
  What each input window's block is, as entries of the argument arrays. Before the region the host reshapes the
  attribute indices to one column, the input and output biases to one row each, and takes the matrices of the stacked
  weight arrays (and row 0 of the attribute biases) apart by a slice and a flattening; every input window but the
  first stages its whole array at every grid point, and the first stages 5000 rows of the node features, from row
  5000 · min(t, 1) at point t. So each block entry is one entry of an argument array as launched: a reshape keeps the
  row-major position, a slice shifts the first coordinate by its offset, and a block's entry sits at block index times
  block size plus the coordinate inside the block.
-/
import proofs.«119914_g24988119728772_cont_9to1_1483_19_alg».proof.Proof.Gen.KernelIdeal.Frame
import proofs.«119914_g24988119728772_cont_9to1_1483_19_alg».proof.Proof.LibDense
import Idealize.ShloMosaic.Lib.ValueLayout

noncomputable section

namespace Cert.KernelIdeal.Win

open Idealize.ShloMosaic Idealize.ShloMosaic.TcCoe Idealize.ShloMosaic.ValueIdx Idealize.ShloMosaic.Tactic
open Idealize.SL.Sem
open Cert.KernelIdeal Cert.KernelIdeal.Gen

variable (m : (ℓ : Loc nD τ sig) → Buf (Elt Ideal) ℓ) (c : Dev nD)

/-! ## A slice along the first axis of a rank-3 array -/

/-- A rank-3 array cut along axis 0 from `o` reads, at (j, a, e), the source at (k, a, e) with k = o + j. -/
theorem slice3_axis0_apply {α : Type} {n0 n1 n2 mm : Nat} (o : Nat) (X : (⟨3, ![n0, n1, n2]⟩ : Shape).Idx → α)
    (h : (⟨3, ![n0, n1, n2]⟩ : Shape).Slices ![o, 0, 0] ⟨3, ![mm, n1, n2]⟩)
    (j : Fin mm) (a : Fin n1) (e : Fin n2) (k : Fin n0) (hk : k.val = o + j.val) :
    extractStridedSlice ⟨3, ![mm, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## What the host operations before the region leave in the arrays the windows stage -/

theorem V_v0 : (V m c main_call0_v0 : S32x1.Idx → BitVec 32)
    = shapeCast S32x1 (m ((c : Thread nD τ).loc main_arg1) : S32.Idx → BitVec 32) shapeCasts_S32_S32x1 := by
  dsimp only [Gen.V, Gen.hostOps0]
  after_results
  rfl

theorem V_v1 : (V m c main_call0_v1 : S1x128.Idx → EReal)
    = shapeCast S1x128 (m ((c : Thread nD τ).loc main_arg4) : S128.Idx → EReal) shapeCasts_S128_S1x128 := by
  dsimp only [Gen.V, Gen.hostOps0]
  after_results
  rfl

theorem V_v4 : (V m c main_call0_v4 : S1x128.Idx → EReal)
    = shapeCast S1x128 (shapeCast S128 (extractStridedSlice S1x128 ![0, 0] (m ((c : Thread nD τ).loc main_arg7) : S2x128.Idx → EReal)
        slices_S2x128_S1x128_0_0) shapeCasts_S1x128_S128) shapeCasts_S128_S1x128 := by
  dsimp only [Gen.V, Gen.hostOps0]
  after_results
  rfl

theorem V_v5 : (V m c main_call0_v5 : S1x256.Idx → EReal)
    = shapeCast S1x256 (m ((c : Thread nD τ).loc main_arg12) : S256.Idx → EReal) shapeCasts_S256_S1x256 := by
  dsimp only [Gen.V, Gen.hostOps0]
  after_results
  rfl

theorem V_v7 : (V m c main_call0_v7 : S128x128.Idx → EReal)
    = shapeCast S128x128 (extractStridedSlice S1x128x128 ![0, 0, 0] (m ((c : Thread nD τ).loc main_arg5) : S2x128x128.Idx → EReal)
        slices_S2x128x128_S1x128x128_0_0_0) shapeCasts_S1x128x128_S128x128 := by
  dsimp only [Gen.V, Gen.hostOps0]
  after_results
  rfl

theorem V_v9 : (V m c main_call0_v9 : S128x128.Idx → EReal)
    = shapeCast S128x128 (extractStridedSlice S1x128x128 ![0, 0, 0] (m ((c : Thread nD τ).loc main_arg6) : S2x128x128.Idx → EReal)
        slices_S2x128x128_S1x128x128_0_0_0) shapeCasts_S1x128x128_S128x128 := by
  dsimp only [Gen.V, Gen.hostOps0]
  after_results
  rfl

theorem V_v11 : (V m c main_call0_v11 : S128x128.Idx → EReal)
    = shapeCast S128x128 (extractStridedSlice S1x128x128 ![0, 0, 0] (m ((c : Thread nD τ).loc main_arg8) : S2x128x128.Idx → EReal)
        slices_S2x128x128_S1x128x128_0_0_0) shapeCasts_S1x128x128_S128x128 := by
  dsimp only [Gen.V, Gen.hostOps0]
  after_results
  rfl

theorem V_v13 : (V m c main_call0_v13 : S128x128.Idx → EReal)
    = shapeCast S128x128 (extractStridedSlice S1x128x128 ![1, 0, 0] (m ((c : Thread nD τ).loc main_arg8) : S2x128x128.Idx → EReal)
        slices_S2x128x128_S1x128x128_1_0_0) shapeCasts_S1x128x128_S128x128 := by
  dsimp only [Gen.V, Gen.hostOps0]
  after_results
  rfl

theorem V_v15 : (V m c main_call0_v15 : S128x128.Idx → EReal)
    = shapeCast S128x128 (extractStridedSlice S1x128x128 ![0, 0, 0] (m ((c : Thread nD τ).loc main_arg9) : S2x128x128.Idx → EReal)
        slices_S2x128x128_S1x128x128_0_0_0) shapeCasts_S1x128x128_S128x128 := by
  dsimp only [Gen.V, Gen.hostOps0]
  after_results
  rfl

theorem V_v17 : (V m c main_call0_v17 : S128x128.Idx → EReal)
    = shapeCast S128x128 (extractStridedSlice S1x128x128 ![1, 0, 0] (m ((c : Thread nD τ).loc main_arg9) : S2x128x128.Idx → EReal)
        slices_S2x128x128_S1x128x128_1_0_0) shapeCasts_S1x128x128_S128x128 := by
  dsimp only [Gen.V, Gen.hostOps0]
  after_results
  rfl

/-- A slice of one of the two stacked matrices, flattened to a matrix, reads at (j, k) the stack at (o, j, k). -/
theorem stack_read (X : S2x128x128.Idx → EReal) (o : Nat) (oo : Fin 2) (ho : oo.val = o)
    (h : S2x128x128.Slices ![o, 0, 0] S1x128x128) (j k : Fin 128) :
    shapeCast S128x128 (extractStridedSlice S1x128x128 ![o, 0, 0] X h) shapeCasts_S1x128x128_S128x128 (ix2 j k)
      = X (ix3 oo j k) :=
  (shapeCast_1ab_ab_apply _ _ j k).trans (slice3_axis0_apply o X h (0 : Fin 1) j k oo (by rw [ho]; rfl))

/-! ## Every input window's block is its array as the region finds it -/

/-- Window 1 stages its whole array at every point. -/
theorem blk1 (t : Fin cfg0.N) (y : S32x1.Idx) : (iblk m c 1 t : S32x1.Idx → BitVec 32) y = V m c main_call0_v0 y := by
  show V m c main_call0_v0 (((cfg0.win 1).blk t).view.emb y) = V m c main_call0_v0 y
  refine congrArg _ (funext fun a => Fin.ext ?_)
  match a with
  | ⟨0, _⟩ => show 0 * 32 + 1 * (y 0).val = (y 0).val; omega
  | ⟨1, _⟩ => show 0 * 1 + 1 * (y 1).val = (y 1).val; omega

/-- Window 2 stages its whole array at every point. -/
theorem blk2 (t : Fin cfg0.N) (y : S512x128.Idx) : (iblk m c 2 t : S512x128.Idx → EReal) y = V m c main_arg2 y := by
  show V m c main_arg2 (((cfg0.win 2).blk t).view.emb y) = V m c main_arg2 y
  refine congrArg _ (funext fun a => Fin.ext ?_)
  match a with
  | ⟨0, _⟩ => show 0 * 512 + 1 * (y 0).val = (y 0).val; omega
  | ⟨1, _⟩ => show 0 * 128 + 1 * (y 1).val = (y 1).val; omega

/-- Window 3 stages its whole array at every point. -/
theorem blk3 (t : Fin cfg0.N) (y : S256x128.Idx) : (iblk m c 3 t : S256x128.Idx → EReal) y = V m c main_arg3 y := by
  show V m c main_arg3 (((cfg0.win 3).blk t).view.emb y) = V m c main_arg3 y
  refine congrArg _ (funext fun a => Fin.ext ?_)
  match a with
  | ⟨0, _⟩ => show 0 * 256 + 1 * (y 0).val = (y 0).val; omega
  | ⟨1, _⟩ => show 0 * 128 + 1 * (y 1).val = (y 1).val; omega

/-- Window 4 stages its whole array at every point. -/
theorem blk4 (t : Fin cfg0.N) (y : S1x128.Idx) : (iblk m c 4 t : S1x128.Idx → EReal) y = V m c main_call0_v1 y := by
  show V m c main_call0_v1 (((cfg0.win 4).blk t).view.emb y) = V m c main_call0_v1 y
  refine congrArg _ (funext fun a => Fin.ext ?_)
  match a with
  | ⟨0, _⟩ => show 0 * 1 + 1 * (y 0).val = (y 0).val; omega
  | ⟨1, _⟩ => show 0 * 128 + 1 * (y 1).val = (y 1).val; omega

/-- Window 5 stages its whole array at every point. -/
theorem blk5 (t : Fin cfg0.N) (y : S128x128.Idx) : (iblk m c 5 t : S128x128.Idx → EReal) y = V m c main_call0_v7 y := by
  show V m c main_call0_v7 (((cfg0.win 5).blk t).view.emb y) = V m c main_call0_v7 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 6 stages its whole array at every point. -/
theorem blk6 (t : Fin cfg0.N) (y : S128x128.Idx) : (iblk m c 6 t : S128x128.Idx → EReal) y = V m c main_call0_v9 y := by
  show V m c main_call0_v9 (((cfg0.win 6).blk t).view.emb y) = V m c main_call0_v9 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 7 stages its whole array at every point. -/
theorem blk7 (t : Fin cfg0.N) (y : S1x128.Idx) : (iblk m c 7 t : S1x128.Idx → EReal) y = V m c main_call0_v4 y := by
  show V m c main_call0_v4 (((cfg0.win 7).blk t).view.emb y) = V m c main_call0_v4 y
  refine congrArg _ (funext fun a => Fin.ext ?_)
  match a with
  | ⟨0, _⟩ => show 0 * 1 + 1 * (y 0).val = (y 0).val; omega
  | ⟨1, _⟩ => show 0 * 128 + 1 * (y 1).val = (y 1).val; omega

/-- Window 8 stages its whole array at every point. -/
theorem blk8 (t : Fin cfg0.N) (y : S128x128.Idx) : (iblk m c 8 t : S128x128.Idx → EReal) y = V m c main_call0_v11 y := by
  show V m c main_call0_v11 (((cfg0.win 8).blk t).view.emb y) = V m c main_call0_v11 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 9 stages its whole array at every point. -/
theorem blk9 (t : Fin cfg0.N) (y : S128x128.Idx) : (iblk m c 9 t : S128x128.Idx → EReal) y = V m c main_call0_v13 y := by
  show V m c main_call0_v13 (((cfg0.win 9).blk t).view.emb y) = V m c main_call0_v13 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 10 stages its whole array at every point. -/
theorem blk10 (t : Fin cfg0.N) (y : S2x128.Idx) : (iblk m c 10 t : S2x128.Idx → EReal) y = V m c main_arg10 y := by
  show V m c main_arg10 (((cfg0.win 10).blk t).view.emb y) = V m c main_arg10 y
  refine congrArg _ (funext fun a => Fin.ext ?_)
  match a with
  | ⟨0, _⟩ => show 0 * 2 + 1 * (y 0).val = (y 0).val; omega
  | ⟨1, _⟩ => show 0 * 128 + 1 * (y 1).val = (y 1).val; omega

/-- Window 11 stages its whole array at every point. -/
theorem blk11 (t : Fin cfg0.N) (y : S128x128.Idx) : (iblk m c 11 t : S128x128.Idx → EReal) y = V m c main_call0_v15 y := by
  show V m c main_call0_v15 (((cfg0.win 11).blk t).view.emb y) = V m c main_call0_v15 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 12 stages its whole array at every point. -/
theorem blk12 (t : Fin cfg0.N) (y : S128x128.Idx) : (iblk m c 12 t : S128x128.Idx → EReal) y = V m c main_call0_v17 y := by
  show V m c main_call0_v17 (((cfg0.win 12).blk t).view.emb y) = V m c main_call0_v17 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 13 stages its whole array at every point. -/
theorem blk13 (t : Fin cfg0.N) (y : S128x256.Idx) : (iblk m c 13 t : S128x256.Idx → EReal) y = V m c main_arg11 y := by
  show V m c main_arg11 (((cfg0.win 13).blk t).view.emb y) = V m c main_arg11 y
  refine congrArg _ (funext fun a => Fin.ext ?_)
  match a with
  | ⟨0, _⟩ => show 0 * 128 + 1 * (y 0).val = (y 0).val; omega
  | ⟨1, _⟩ => show 0 * 256 + 1 * (y 1).val = (y 1).val; omega

/-- Window 14 stages its whole array at every point. -/
theorem blk14 (t : Fin cfg0.N) (y : S1x256.Idx) : (iblk m c 14 t : S1x256.Idx → EReal) y = V m c main_call0_v5 y := by
  show V m c main_call0_v5 (((cfg0.win 14).blk t).view.emb y) = V m c main_call0_v5 y
  refine congrArg _ (funext fun a => Fin.ext ?_)
  match a with
  | ⟨0, _⟩ => show 0 * 1 + 1 * (y 0).val = (y 0).val; omega
  | ⟨1, _⟩ => show 0 * 256 + 1 * (y 1).val = (y 1).val; omega

/-! ## The windows' blocks as entries of the argument arrays -/

/-- The node-feature window's block index, decided over the grid: block 0 at the first point, block 1 afterwards. -/
theorem idx0 : ∀ t : Fin cfg0.N, win0_0.index t (0 : Fin 2) = min t.val 1 ∧ win0_0.index t (1 : Fin 2) = 0 :=
  (by decide +kernel : ∀ t : Fin grid0.N, _)

/-- Window 0 at point t holds the 5000 rows of the node features from row 5000 · min(t, 1). -/
theorem win0_blk (t : Fin cfg0.N) (r : Fin 5000) (j : Fin 256) :
    (iblk m c 0 t : S5000x256.Idx → EReal) (ix2 r j)
      = m ((c : Thread nD τ).loc main_arg0) (ix2 (⟨5000 * min t.val 1 + r.val, by have := r.isLt; omega⟩ : Fin 10000) j) := by
  rw [← V_main_arg0 m c]
  show V m c main_arg0 (((cfg0.win 0).blk t).view.emb (ix2 r j)) = V m c main_arg0 _
  obtain ⟨e0, e1⟩ := idx0 t
  refine congrArg _ (funext fun a => Fin.ext ?_)
  match a with
  | ⟨0, _⟩ =>
    show win0_0.index t (0 : Fin 2) * 5000 + 1 * r.val = 5000 * min t.val 1 + r.val
    rw [e0]; omega
  | ⟨1, _⟩ =>
    show win0_0.index t (1 : Fin 2) * 256 + 1 * j.val = j.val
    rw [e1]; omega

/-- At the first point: rows 0 … 4999. -/
theorem win0_t0 (r : Fin 5000) (j : Fin 256) :
    (iblk m c 0 t0_0 : S5000x256.Idx → EReal) (ix2 r j)
      = m ((c : Thread nD τ).loc main_arg0) (ix2 (⟨r.val, by have := r.isLt; omega⟩ : Fin 10000) j) :=
  (win0_blk m c t0_0 r j).trans (congrArg (fun i : Fin 10000 => m ((c : Thread nD τ).loc main_arg0) (ix2 i j)) (Fin.ext (by
    show 5000 * min 0 1 + r.val = r.val
    omega)))

/-- At the second point: rows 5000 … 9999. -/
theorem win0_t1 (r : Fin 5000) (j : Fin 256) :
    (iblk m c 0 t0_1 : S5000x256.Idx → EReal) (ix2 r j)
      = m ((c : Thread nD τ).loc main_arg0) (ix2 (⟨5000 + r.val, by have := r.isLt; omega⟩ : Fin 10000) j) :=
  (win0_blk m c t0_1 r j).trans (congrArg (fun i : Fin 10000 => m ((c : Thread nD τ).loc main_arg0) (ix2 i j)) (Fin.ext (by
    show 5000 * min 1 1 + r.val = 5000 + r.val
    omega)))

/-- At the third and fourth points the window still holds rows 5000 … 9999. -/
theorem win0_t2 (r : Fin 5000) (j : Fin 256) :
    (iblk m c 0 t0_2 : S5000x256.Idx → EReal) (ix2 r j)
      = m ((c : Thread nD τ).loc main_arg0) (ix2 (⟨5000 + r.val, by have := r.isLt; omega⟩ : Fin 10000) j) :=
  (win0_blk m c t0_2 r j).trans (congrArg (fun i : Fin 10000 => m ((c : Thread nD τ).loc main_arg0) (ix2 i j)) (Fin.ext (by
    show 5000 * min 2 1 + r.val = 5000 + r.val
    omega)))

theorem win0_t3 (r : Fin 5000) (j : Fin 256) :
    (iblk m c 0 t0_3 : S5000x256.Idx → EReal) (ix2 r j)
      = m ((c : Thread nD τ).loc main_arg0) (ix2 (⟨5000 + r.val, by have := r.isLt; omega⟩ : Fin 10000) j) :=
  (win0_blk m c t0_3 r j).trans (congrArg (fun i : Fin 10000 => m ((c : Thread nD τ).loc main_arg0) (ix2 i j)) (Fin.ext (by
    show 5000 * min 3 1 + r.val = 5000 + r.val
    omega)))

/-- Window 1 holds the attribute indices as one column. -/
theorem win1 (t : Fin cfg0.N) (a : Fin 32) (u : Fin 1) :
    (iblk m c 1 t : S32x1.Idx → BitVec 32) (ix2 a u) = m ((c : Thread nD τ).loc main_arg1) (ix1 a) :=
  (blk1 m c t (ix2 a u)).trans ((congrFun (V_v0 m c) (ix2 a u)).trans (Cert.LibDense.shapeCast_a_a1_apply _ _ a u))

/-- Window 2 holds the embedding table. -/
theorem win2 (t : Fin cfg0.N) (p : Fin 512) (q : Fin 128) :
    (iblk m c 2 t : S512x128.Idx → EReal) (ix2 p q) = m ((c : Thread nD τ).loc main_arg2) (ix2 p q) :=
  (blk2 m c t (ix2 p q)).trans (congrFun (V_main_arg2 m c) (ix2 p q))

/-- Window 3 holds the input weights. -/
theorem win3 (t : Fin cfg0.N) (p : Fin 256) (q : Fin 128) :
    (iblk m c 3 t : S256x128.Idx → EReal) (ix2 p q) = m ((c : Thread nD τ).loc main_arg3) (ix2 p q) :=
  (blk3 m c t (ix2 p q)).trans (congrFun (V_main_arg3 m c) (ix2 p q))

/-- Window 4 holds the input bias as one row. -/
theorem win4 (t : Fin cfg0.N) (u : Fin 1) (k : Fin 128) :
    (iblk m c 4 t : S1x128.Idx → EReal) (ix2 u k) = m ((c : Thread nD τ).loc main_arg4) (ix1 k) :=
  (blk4 m c t (ix2 u k)).trans ((congrFun (V_v1 m c) (ix2 u k)).trans (shapeCast_a_1a_apply _ _ u k))

/-- Window 5 holds the matrix 0 of the stack `main_arg5`. -/
theorem win5 (t : Fin cfg0.N) (j k : Fin 128) :
    (iblk m c 5 t : S128x128.Idx → EReal) (ix2 j k) = m ((c : Thread nD τ).loc main_arg5) (ix3 (0 : Fin 2) j k) :=
  (blk5 m c t (ix2 j k)).trans ((congrFun (V_v7 m c) (ix2 j k)).trans (stack_read _ 0 (0 : Fin 2) rfl _ j k))

/-- Window 6 holds the matrix 0 of the stack `main_arg6`. -/
theorem win6 (t : Fin cfg0.N) (j k : Fin 128) :
    (iblk m c 6 t : S128x128.Idx → EReal) (ix2 j k) = m ((c : Thread nD τ).loc main_arg6) (ix3 (0 : Fin 2) j k) :=
  (blk6 m c t (ix2 j k)).trans ((congrFun (V_v9 m c) (ix2 j k)).trans (stack_read _ 0 (0 : Fin 2) rfl _ j k))

/-- Window 7 holds row 0 of the attribute biases as one row. -/
theorem win7 (t : Fin cfg0.N) (u : Fin 1) (k : Fin 128) :
    (iblk m c 7 t : S1x128.Idx → EReal) (ix2 u k) = m ((c : Thread nD τ).loc main_arg7) (ix2 (0 : Fin 2) k) :=
  (blk7 m c t (ix2 u k)).trans ((congrFun (V_v4 m c) (ix2 u k)).trans
    ((shapeCast_a_1a_apply _ _ u k).trans ((shapeCast_1a_a_apply _ _ k).trans
      (slice2_axis0_apply 0 _ _ (0 : Fin 1) k (0 : Fin 2) rfl))))

/-- Window 8 holds the matrix 0 of the stack `main_arg8`. -/
theorem win8 (t : Fin cfg0.N) (j k : Fin 128) :
    (iblk m c 8 t : S128x128.Idx → EReal) (ix2 j k) = m ((c : Thread nD τ).loc main_arg8) (ix3 (0 : Fin 2) j k) :=
  (blk8 m c t (ix2 j k)).trans ((congrFun (V_v11 m c) (ix2 j k)).trans (stack_read _ 0 (0 : Fin 2) rfl _ j k))

/-- Window 9 holds the matrix 1 of the stack `main_arg8`. -/
theorem win9 (t : Fin cfg0.N) (j k : Fin 128) :
    (iblk m c 9 t : S128x128.Idx → EReal) (ix2 j k) = m ((c : Thread nD τ).loc main_arg8) (ix3 (1 : Fin 2) j k) :=
  (blk9 m c t (ix2 j k)).trans ((congrFun (V_v13 m c) (ix2 j k)).trans (stack_read _ 1 (1 : Fin 2) rfl _ j k))

/-- Window 10 holds the two node bias rows. -/
theorem win10 (t : Fin cfg0.N) (p : Fin 2) (q : Fin 128) :
    (iblk m c 10 t : S2x128.Idx → EReal) (ix2 p q) = m ((c : Thread nD τ).loc main_arg10) (ix2 p q) :=
  (blk10 m c t (ix2 p q)).trans (congrFun (V_main_arg10 m c) (ix2 p q))

/-- Window 11 holds the matrix 0 of the stack `main_arg9`. -/
theorem win11 (t : Fin cfg0.N) (j k : Fin 128) :
    (iblk m c 11 t : S128x128.Idx → EReal) (ix2 j k) = m ((c : Thread nD τ).loc main_arg9) (ix3 (0 : Fin 2) j k) :=
  (blk11 m c t (ix2 j k)).trans ((congrFun (V_v15 m c) (ix2 j k)).trans (stack_read _ 0 (0 : Fin 2) rfl _ j k))

/-- Window 12 holds the matrix 1 of the stack `main_arg9`. -/
theorem win12 (t : Fin cfg0.N) (j k : Fin 128) :
    (iblk m c 12 t : S128x128.Idx → EReal) (ix2 j k) = m ((c : Thread nD τ).loc main_arg9) (ix3 (1 : Fin 2) j k) :=
  (blk12 m c t (ix2 j k)).trans ((congrFun (V_v17 m c) (ix2 j k)).trans (stack_read _ 1 (1 : Fin 2) rfl _ j k))

/-- Window 13 holds the output weights. -/
theorem win13 (t : Fin cfg0.N) (p : Fin 128) (q : Fin 256) :
    (iblk m c 13 t : S128x256.Idx → EReal) (ix2 p q) = m ((c : Thread nD τ).loc main_arg11) (ix2 p q) :=
  (blk13 m c t (ix2 p q)).trans (congrFun (V_main_arg11 m c) (ix2 p q))

/-- Window 14 holds the output bias as one row. -/
theorem win14 (t : Fin cfg0.N) (u : Fin 1) (q : Fin 256) :
    (iblk m c 14 t : S1x256.Idx → EReal) (ix2 u q) = m ((c : Thread nD τ).loc main_arg12) (ix1 q) :=
  (blk14 m c t (ix2 u q)).trans ((congrFun (V_v5 m c) (ix2 u q)).trans (shapeCast_a_1a_apply _ _ u q))

end Cert.KernelIdeal.Win

end
-- ==== Proof.KPayOps.lean ====
/-
  The kernel's elementary operations at the exact instance (floats as extended reals), each read at an index given by
  its coordinates: the constant words the kernel spells and its named reciprocal, a sum down the columns of a matrix,
  the one-hot matrix of the attribute indices, and the six matrix products into a zero accumulator, each the sum over
  the contracted coordinate of the products of a row's and a column's entries.
-/
import proofs.«119914_g24988119728772_cont_9to1_1483_19_alg».proof.Proof.Gen.KernelIdeal.Skeleton
import proofs.«119914_g24988119728772_cont_9to1_1483_19_alg».proof.Proof.LibDense

noncomputable section

open Idealize.ShloMosaic Idealize.ShloMosaic.ValueIdx
open scoped BigOperators

namespace Cert.KernelIdeal.Pay

open Cert.KernelIdeal Cert.KernelIdeal.Gen

/-- The f32 zero word denotes 0. -/
theorem ofBits_zero : Ideal.ofBits .f32 0x00000000#32 = 0 := Ideal.ofBits_zero_f32

/-- The f32 word 0x3D000000 denotes the real 1/32 (a power of two: the word is exact). -/
theorem ofBits_inv32 : Ideal.ofBits .f32 0x3D000000#32 = ((1 / 32 : ℝ) : EReal) := by
  simp [Ideal.ofBits, Ideal.ieee, -EReal.coe_mul]; norm_num

/-- The named reciprocal denotes the rational 1/10000 at the exact instance, by the certificate's table. -/
theorem inv_10000 : Named.named (F := Ideal) Cert.KernelIdeal.κ "inv_10000" (φ := .f32) 0x38D1B717#32 = ((1 / 10000 : ℝ) : EReal) :=
  IdealRules.named_const.ideal_named_scalar _ _ _ _ rfl

/-- The index of an [M, N] matrix that drops to q when the first axis is reduced, with p put on that axis, is (p, q). -/
theorem lift_col {M N : Nat} (h : (⟨2, ![M, N]⟩ : Shape).Reduces [0] ⟨1, ![N]⟩) (q : Fin N) (p : Fin M) :
    h.lift (ix1 q) p = ix2 p q := by
  funext a
  apply Fin.ext
  match a with
  | ⟨0, _⟩ => rfl
  | ⟨1, _⟩ => rfl

/-- The sum over the first axis of an [M, N] matrix, read at column q: the sum of the column's entries. -/
theorem colSum_apply {M N : Nat} (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ p : Fin M, src (ix2 p q) := by
  refine (Ideal.multiReduction_add_single src 0x00000000#32 h hφ hacc (ix1 q)).trans ?_
  exact Finset.sum_congr rfl fun p _ => congrArg src (lift_col h q p)

/-- The one-hot matrix of the attribute indices, read at (a, j): 1 where j is attribute a's table row, 0 elsewhere.
    The comparison of the column number with the index is made on 32-bit words; both are below 512, so the words
    are equal exactly when the numbers are. -/
theorem onehot_apply (qa : Vec Ideal S32x1 .i32) (row : Fin 32 → Fin 512)
    (hrow : ∀ a : Fin 32, qa (ix2 a 0) = BitVec.ofNat 32 (row a).val) (a : Fin 32) (j : Fin 512) :
    (sitofp .f32 (extui 32 (cmpi .eq (iota .tc S32x512 32 [1] iota_S32x512_d1_w32)
      (broadcastTo S32x512 (shapeCast S32x1 qa shapeCasts_S32x1_S32x1) broadcasts_S32x1_S32x512)) natLt_1_32)
        : FVec Ideal S32x512 .f32) (ix2 a j) = if j = row a then 1 else 0 := by
  show ((((IntOp.cmpi .eq (iota .tc S32x512 32 [1] iota_S32x512_d1_w32 (ix2 a j))
      (broadcastTo S32x512 (shapeCast S32x1 qa shapeCasts_S32x1_S32x1) broadcasts_S32x1_S32x512 (ix2 a j))).setWidth 32).toInt : ℝ) : EReal) = _
  rw [iota_single_apply, Cert.LibDense.broadcastTo_a1_ab_apply, shapeCast_self, hrow a]
  show (((BitVec.setWidth 32 (IntOp.cmpi .eq (BitVec.ofNat 32 j.val) (BitVec.ofNat 32 (row a).val))).toInt : ℝ) : EReal) = _
  by_cases hj : j = row a
  · have h1 : IntOp.cmpi .eq (BitVec.ofNat 32 j.val) (BitVec.ofNat 32 (row a).val) = 1#1 := by
      rw [hj]; simp [IntOp.cmpi]
    have h2 : (BitVec.setWidth 32 (1#1 : BitVec 1)).toInt = 1 := by decide
    rw [if_pos hj, h1, h2]; norm_num
  · have hne : BitVec.ofNat 32 j.val ≠ BitVec.ofNat 32 (row a).val := by
      intro h
      have h' := congrArg BitVec.toNat h
      simp only [BitVec.toNat_ofNat] at h'
      have hjlt := j.isLt
      have hrlt := (row a).isLt
      rw [Nat.mod_eq_of_lt (by omega), Nat.mod_eq_of_lt (by omega)] at h'
      exact hj (Fin.ext h')
    have h1 : IntOp.cmpi .eq (BitVec.ofNat 32 j.val) (BitVec.ofNat 32 (row a).val) = 0#1 := by
      show BitVec.ofBool (BitVec.ofNat 32 j.val == BitVec.ofNat 32 (row a).val) = 0#1
      rw [beq_eq_false_iff_ne.mpr hne]; rfl
    have h2 : (BitVec.setWidth 32 (0#1 : BitVec 1)).toInt = 0 := by decide
    rw [if_neg hj, h1, h2]; norm_num

/-! ## The matrix products -/

/-- [32, 512] by [512, 128]. -/
theorem mm_32x512 {φ₁ φ₂ : FTy} (x : FVec Ideal S32x512 φ₁) (w : FVec Ideal S512x128 φ₂) (p : Fin 32) (q : Fin 128) :
    matmul dot_S32x512_S512x128_S32x128_1_0_0_1_n_n none x w (constant S32x128 .f32 0x00000000#32) (ix2 p q)
      = ∑ k : Fin 512, x (ix2 p k) * w (ix2 k q) :=
  Cert.LibDense.matmul_zero_rc _ rfl rfl (fun _ _ => rfl) (fun _ _ => rfl) (fun _ _ => rfl) (fun _ _ => rfl) none x w p q

/-- [1, 128] by [128, 128]. -/
theorem mm_1x128 {φ₁ φ₂ : FTy} (x : FVec Ideal S1x128 φ₁) (w : FVec Ideal S128x128 φ₂) (p : Fin 1) (q : Fin 128) :
    matmul dot_S1x128_S128x128_S1x128_1_0_0_1_n_n none x w (constant S1x128 .f32 0x00000000#32) (ix2 p q)
      = ∑ k : Fin 128, x (ix2 p k) * w (ix2 k q) :=
  Cert.LibDense.matmul_zero_rc _ rfl rfl (fun _ _ => rfl) (fun _ _ => rfl) (fun _ _ => rfl) (fun _ _ => rfl) none x w p q

/-- [5000, 256] by [256, 128]. -/
theorem mm_5000x256 {φ₁ φ₂ : FTy} (x : FVec Ideal S5000x256 φ₁) (w : FVec Ideal S256x128 φ₂) (p : Fin 5000) (q : Fin 128) :
    matmul dot_S5000x256_S256x128_S5000x128_1_0_0_1_n_n none x w (constant S5000x128 .f32 0x00000000#32) (ix2 p q)
      = ∑ k : Fin 256, x (ix2 p k) * w (ix2 k q) :=
  Cert.LibDense.matmul_zero_rc _ rfl rfl (fun _ _ => rfl) (fun _ _ => rfl) (fun _ _ => rfl) (fun _ _ => rfl) none x w p q

/-- [5000, 128] by [128, 128]. -/
theorem mm_5000x128 {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  Cert.LibDense.matmul_zero_rc _ rfl rfl (fun _ _ => rfl) (fun _ _ => rfl) (fun _ _ => rfl) (fun _ _ => rfl) none x w p q

/-- [32, 128] by [128, 128]. -/
theorem mm_32x128 {φ₁ φ₂ : FTy} (x : FVec Ideal S32x128 φ₁) (w : FVec Ideal S128x128 φ₂) (p : Fin 32) (q : Fin 128) :
    matmul dot_S32x128_S128x128_S32x128_1_0_0_1_n_n none x w (constant S32x128 .f32 0x00000000#32) (ix2 p q)
      = ∑ k : Fin 128, x (ix2 p k) * w (ix2 k q) :=
  Cert.LibDense.matmul_zero_rc _ rfl rfl (fun _ _ => rfl) (fun _ _ => rfl) (fun _ _ => rfl) (fun _ _ => rfl) none x w p q

/-- [5000, 128] by [128, 256]. -/
theorem mm_5000x128x256 {φ₁ φ₂ : FTy} (x : FVec Ideal S5000x128 φ₁) (w : FVec Ideal S128x256 φ₂) (p : Fin 5000) (q : Fin 256) :
    matmul dot_S5000x128_S128x256_S5000x256_1_0_0_1_n_n none x w (constant S5000x256 .f32 0x00000000#32) (ix2 p q)
      = ∑ k : Fin 128, x (ix2 p k) * w (ix2 k q) :=
  Cert.LibDense.matmul_zero_rc _ rfl rfl (fun _ _ => rfl) (fun _ _ => rfl) (fun _ _ => rfl) (fun _ _ => rfl) none x w p q

/-! ## One row under a unit first coordinate -/

/-- A [1, N] row read at (u, q) is the row read at (0, q): the first axis has one coordinate. -/
theorem row_unit {α : Type} {N : Nat} (b : (⟨2, ![1, N]⟩ : Shape).Idx → α) (u : Fin 1) (q : Fin N) :
    b (ix2 u q) = b (ix2 (0 : Fin 1) q) := by
  rw [Subsingleton.elim u 0]

end Cert.KernelIdeal.Pay

end
-- ==== Proof.KPayRead.lean ====
/-
  Each of the kernel's nine pure payloads at the exact instance (floats as extended reals), read at an index given by
  its coordinates, as finite sums over the plain index types: the embedding lookup as the table's row, the affine
  maps as row-by-column sums plus a bias row, the column-sum accumulator, the rectified layers.
-/
import proofs.«119914_g24988119728772_cont_9to1_1483_19_alg».proof.Proof.Gen.KernelIdeal.Skeleton
import proofs.«119914_g24988119728772_cont_9to1_1483_19_alg».proof.Proof.LibDense
import proofs.«119914_g24988119728772_cont_9to1_1483_19_alg».proof.Proof.KPayOps

noncomputable section

open Idealize.ShloMosaic Idealize.ShloMosaic.ValueIdx
open scoped BigOperators

namespace Cert.KernelIdeal.Pay

open Cert.KernelIdeal Cert.KernelIdeal.Gen

/-- The accumulator's reset: zero everywhere. -/
theorem pay1_apply (i : S1x128.Idx) : k0_pay1 (F := Ideal) i = 0 := by
  unfold k0_pay1
  exact (congrFun (shapeCast_self _ _) i).trans ofBits_zero

/-- The embedding lookup, a one-hot matrix times the table: row a of the result is the table's row `row a`, because
    1 · x = x and 0 · x = 0 for every extended real x. -/
theorem pay2_apply (v17 : Vec Ideal S32x1 .i32) (v23 : Vec Ideal S512x128 .f32) (row : Fin 32 → Fin 512)
    (hrow : ∀ a : Fin 32, v17 (ix2 a 0) = BitVec.ofNat 32 (row a).val) (a : Fin 32) (k : Fin 128) :
    k0_pay2 (F := Ideal) v17 v23 (ix2 a k) = v23 (ix2 (row a) k) := by
  unfold k0_pay2
  refine (mm_32x512 _ _ a k).trans ?_
  refine (Finset.sum_congr rfl fun j _ => congrArg (· * v23 (ix2 j k)) (onehot_apply v17 row hrow a j)).trans ?_
  rw [Finset.sum_eq_single (row a)]
  · rw [if_pos rfl, one_mul]
  · intro j _ hj
    rw [if_neg hj, zero_mul]
  · intro h
    exact absurd (Finset.mem_univ _) h

/-- The stored embedding rows are the lookup itself. -/
theorem pay3_eq (v17 : Vec Ideal S32x1 .i32) (v23 : Vec Ideal S512x128 .f32) :
    k0_pay3 (F := Ideal) v17 v23 = k0_pay2 (F := Ideal) v17 v23 := by
  unfold k0_pay3
  exact shapeCast_self _ _

theorem pay3_apply (v17 : Vec Ideal S32x1 .i32) (v23 : Vec Ideal S512x128 .f32) (row : Fin 32 → Fin 512)
    (hrow : ∀ a : Fin 32, v17 (ix2 a 0) = BitVec.ofNat 32 (row a).val) (a : Fin 32) (k : Fin 128) :
    k0_pay3 (F := Ideal) v17 v23 (ix2 a k) = v23 (ix2 (row a) k) :=
  (congrFun (pay3_eq v17 v23) _).trans (pay2_apply v17 v23 row hrow a k)

/-- The first layer's constant row: the mean over the 32 attributes of the embedding rows, times the weights, plus the bias. -/
theorem pay4_apply' (v17 : Vec Ideal S32x1 .i32) (v23 : Vec Ideal S512x128 .f32) (v32 : Vec Ideal S128x128 .f32)
    (v35 : Vec Ideal S1x128 .f32) (u : Fin 1) (k : Fin 128) :
    k0_pay4 (F := Ideal) v17 v23 v32 v35 (ix2 u k)
      = (∑ j : Fin 128, ((∑ a : Fin 32, k0_pay2 (F := Ideal) v17 v23 (ix2 a j)) * ((1 / 32 : ℝ) : EReal)) * v32 (ix2 j k))
          + v35 (ix2 0 k) := by
  unfold k0_pay4
  refine (congrFun (shapeCast_self _ _) (ix2 u k)).trans ?_
  refine (addf_apply _ _ _).trans ?_
  refine congrArg₂ (· + ·) ?_ (row_unit v35 u k)
  refine (mm_1x128 _ _ u k).trans (Finset.sum_congr rfl fun j _ => ?_)
  refine congrArg₂ (· * ·) ?_ (congrFun (shapeCast_self v32 _) (ix2 j k))
  refine (mulf_apply _ _ _).trans ?_
  exact congrArg₂ (· * ·) ((shapeCast_a_1a_apply _ _ u j).trans (colSum_apply _ _ _ _ j)) ofBits_inv32

theorem pay4_apply (v17 : Vec Ideal S32x1 .i32) (v23 : Vec Ideal S512x128 .f32) (v32 : Vec Ideal S128x128 .f32)
    (v35 : Vec Ideal S1x128 .f32) (row : Fin 32 → Fin 512)
    (hrow : ∀ a : Fin 32, v17 (ix2 a 0) = BitVec.ofNat 32 (row a).val) (u : Fin 1) (k : Fin 128) :
    k0_pay4 (F := Ideal) v17 v23 v32 v35 (ix2 u k)
      = (∑ j : Fin 128, ((∑ a : Fin 32, v23 (ix2 (row a) j)) * ((1 / 32 : ℝ) : EReal)) * v32 (ix2 j k))
          + v35 (ix2 0 k) := by
  refine (pay4_apply' v17 v23 v32 v35 u k).trans ?_
  refine congrArg (· + v35 (ix2 0 k)) (Finset.sum_congr rfl fun j _ => ?_)
  refine congrArg (· * v32 (ix2 j k)) (congrArg (· * ((1 / 32 : ℝ) : EReal)) ?_)
  exact Finset.sum_congr rfl fun a _ => pay2_apply v17 v23 row hrow a j

/-- The input projection of one block of 5000 rows: row p of the block times the weights, plus the bias. -/
theorem pay5_apply (v12 : Vec Ideal S5000x256 .f32) (v14 : Vec Ideal S256x128 .f32) (v17 : Vec Ideal S1x128 .f32)
    (p : Fin 5000) (k : Fin 128) :
    k0_pay5 (F := Ideal) v12 v14 v17 (ix2 p k) = (∑ j : Fin 256, v12 (ix2 p j) * v14 (ix2 j k)) + v17 (ix2 0 k) := by
  unfold k0_pay5
  refine (addf_apply _ _ _).trans ?_
  refine congrArg₂ (· + ·) (mm_5000x256 _ _ p k) ?_
  exact (broadcastTo_1b_ab_apply _ _ p k).trans (congrFun (shapeCast_self v17 _) _)

/-- The accumulator after one block: what it held plus the block's column sums of the input projection. -/
theorem pay6_apply (v12 : Vec Ideal S5000x256 .f32) (v14 : Vec Ideal S256x128 .f32) (v17 : Vec Ideal S1x128 .f32)
    (v21 : Vec Ideal S1x128 .f32) (u : Fin 1) (k : Fin 128) :
    k0_pay6 (F := Ideal) v12 v14 v17 v21 (ix2 u k)
      = v21 (ix2 0 k) + ∑ p : Fin 5000, k0_pay5 (F := Ideal) v12 v14 v17 (ix2 p k) := by
  unfold k0_pay6
  refine (congrFun (shapeCast_self _ _) (ix2 u k)).trans ?_
  refine (addf_apply _ _ _).trans ?_
  exact congrArg₂ (· + ·) (row_unit v21 u k) ((shapeCast_a_1a_apply _ _ u k).trans (colSum_apply _ _ _ _ k))

/-- The first layer on one block: the input projection's row times the weights, plus the constant row, rectified. -/
theorem pay7_apply (v12 : Vec Ideal S5000x256 .f32) (v14 : Vec Ideal S256x128 .f32) (v17 : Vec Ideal S1x128 .f32)
    (v29 : Vec Ideal S128x128 .f32) (v33 : Vec Ideal S1x128 .f32) (p : Fin 5000) (k : Fin 128) :
    (k0_pay7 (F := Ideal) v12 v14 v17 v29 v33 (ix2 p k) : EReal)
      = max ((∑ j : Fin 128, k0_pay5 (F := Ideal) v12 v14 v17 (ix2 p j) * v29 (ix2 j k)) + v33 (ix2 0 k)) 0 := by
  unfold k0_pay7
  refine (congrFun (shapeCast_self _ _) (ix2 p k)).trans ?_
  refine (truncf_apply (φ := .f32) (ψ := .bf16) _ bitsLt_bf16_f32 _).trans ?_
  refine (maximumf_apply _ _ _).trans ?_
  refine congrArg₂ max ?_ ofBits_zero
  refine (addf_apply _ _ _).trans ?_
  refine congrArg₂ (· + ·) ?_ (broadcastTo_1b_ab_apply _ _ p k)
  refine (mm_5000x128 _ _ p k).trans (Finset.sum_congr rfl fun j _ => ?_)
  exact congrArg₂ (· * ·) (truncf_apply (φ := .f32) (ψ := .bf16) _ bitsLt_bf16_f32 _) ((truncf_apply (φ := .f32) (ψ := .bf16) _ bitsLt_bf16_f32 _).trans (congrFun (shapeCast_self v29 _) _))

/-- The second layer's constant row: the mean over all nodes of the input projection (the accumulated column sums times
    1/10000) times the attribute weights, plus each attribute's embedding row times its weights, plus the bias, rectified;
    the mean of that over the 32 attributes, times the node weights, plus the bias. -/
theorem pay8_apply (v12 : Vec Ideal S1x128 .f32) (v15 : Vec Ideal S128x128 .f32) (v18 : Vec Ideal S32x128 .f32)
    (v19 : Vec Ideal S128x128 .f32) (v24 : Vec Ideal S1x128 .f32) (v34 : Vec Ideal S128x128 .f32) (v37 : Vec Ideal S1x128 .f32)
    (u : Fin 1) (k : Fin 128) :
    k0_pay8 (F := Ideal) v12 v15 v18 v19 v24 v34 v37 (ix2 u k)
      = (∑ j : Fin 128, ((∑ a : Fin 32,
            max (((∑ i : Fin 128, (v12 (ix2 0 i) * ((1 / 10000 : ℝ) : EReal)) * v15 (ix2 i j))
                  + (∑ i : Fin 128, v18 (ix2 a i) * v19 (ix2 i j))) + v24 (ix2 0 j)) 0)
          * ((1 / 32 : ℝ) : EReal)) * v34 (ix2 j k)) + v37 (ix2 0 k) := by
  unfold k0_pay8
  refine (congrFun (shapeCast_self _ _) (ix2 u k)).trans ?_
  refine (addf_apply _ _ _).trans ?_
  refine congrArg₂ (· + ·) ?_ (row_unit v37 u k)
  refine (mm_1x128 _ _ u k).trans (Finset.sum_congr rfl fun j _ => ?_)
  refine congrArg₂ (· * ·) ?_ (congrFun (shapeCast_self v34 _) (ix2 j k))
  refine (mulf_apply _ _ _).trans ?_
  refine congrArg₂ (· * ·) ?_ ofBits_inv32
  refine (shapeCast_a_1a_apply _ _ u j).trans ?_
  refine (colSum_apply _ _ _ _ j).trans (Finset.sum_congr rfl fun a _ => ?_)
  refine (maximumf_apply _ _ _).trans ?_
  refine congrArg₂ max ?_ ofBits_zero
  refine (addf_apply _ _ _).trans ?_
  refine congrArg₂ (· + ·) ?_ ((broadcastTo_1b_ab_apply _ _ a j).trans (congrFun (shapeCast_self v24 _) _))
  refine (addf_apply _ _ _).trans ?_
  refine congrArg₂ (· + ·) ?_ ?_
  · refine (broadcastTo_1b_ab_apply _ _ a j).trans ?_
    refine (mm_1x128 _ _ 0 j).trans (Finset.sum_congr rfl fun i _ => ?_)
    refine congrArg₂ (· * ·) ?_ (congrFun (shapeCast_self v15 _) (ix2 i j))
    refine (mulf_apply _ _ _).trans ?_
    exact congrArg (v12 (ix2 0 i) * ·) inv_10000
  · refine (mm_32x128 _ _ a j).trans (Finset.sum_congr rfl fun i _ => ?_)
    exact congrArg (v18 (ix2 a i) * ·) (congrFun (shapeCast_self v19 _) (ix2 i j))

/-- The output on one block: the first layer's row times the weights, plus the constant row, rectified; that times the
    output weights, plus the output bias. -/
theorem pay9_apply (v15 : Vec Ideal S5000x128 .bf16) (v16 : Vec Ideal S128x128 .f32) (v20 : Vec Ideal S1x128 .f32)
    (v26 : Vec Ideal S128x256 .f32) (v29 : Vec Ideal S1x256 .f32) (r : Fin 5000) (q : Fin 256) :
    k0_pay9 (F := Ideal) v15 v16 v20 v26 v29 (ix2 r q)
      = (∑ k : Fin 128, max ((∑ j : Fin 128, (v15 (ix2 r j) : EReal) * v16 (ix2 j k)) + v20 (ix2 0 k)) 0 * v26 (ix2 k q))
          + v29 (ix2 0 q) := by
  unfold k0_pay9
  refine (addf_apply _ _ _).trans ?_
  refine congrArg₂ (· + ·) ?_ ((broadcastTo_1b_ab_apply _ _ r q).trans (congrFun (shapeCast_self v29 _) _))
  refine (mm_5000x128x256 _ _ r q).trans (Finset.sum_congr rfl fun k _ => ?_)
  refine congrArg₂ (· * ·) ?_ (truncf_apply (φ := .f32) (ψ := .bf16) _ bitsLt_bf16_f32 _)
  refine (truncf_apply (φ := .f32) (ψ := .bf16) _ bitsLt_bf16_f32 _).trans ?_
  refine (maximumf_apply _ _ _).trans ?_
  refine congrArg₂ max ?_ ofBits_zero
  refine (addf_apply _ _ _).trans ?_
  refine congrArg₂ (· + ·) ?_ (broadcastTo_1b_ab_apply _ _ r k)
  refine (mm_5000x128 _ _ r k).trans (Finset.sum_congr rfl fun j _ => ?_)
  exact congrArg ((v15 (ix2 r j) : EReal) * ·) ((truncf_apply (φ := .f32) (ψ := .bf16) _ bitsLt_bf16_f32 _).trans (congrFun (shapeCast_self v16 _) _))

end Cert.KernelIdeal.Pay

end
-- ==== Proof.KPayIsSpec.lean ====
/-
  The kernel's payloads, composed as the run composes them, compute the shared specification: each stage — the input
  projection, the embedding rows, the two constant rows, the accumulated column sums, the first layer, the output —
  equals the specification's function of the same name at the node or attribute the index stands for. The only laws
  used are finite-sum congruence, the split of a sum over 10000 nodes into the two blocks of 5000, 0 + x = x, and the
  commutativity and associativity of addition on the extended reals.
-/
import proofs.«119914_g24988119728772_cont_9to1_1483_19_alg».proof.Proof.Gen.KernelIdeal.Skeleton
import proofs.«119914_g24988119728772_cont_9to1_1483_19_alg».proof.Proof.Spec
import proofs.«119914_g24988119728772_cont_9to1_1483_19_alg».proof.Proof.KPayRead

noncomputable section

open Idealize.ShloMosaic Idealize.ShloMosaic.ValueIdx
open scoped BigOperators

namespace Cert.KernelIdeal.Pay

open Cert.KernelIdeal Cert.KernelIdeal.Gen

/-- The node that row r of block b stands for. -/
abbrev node (b : Fin 2) (r : Fin 5000) : Fin 10000 :=
  ⟨5000 * b.val + r.val, by have := b.isLt; have := r.isLt; omega⟩

variable (v : Fin 10000 → Fin 256 → EReal) (row : Fin 32 → Fin 512) (emb : Fin 512 → Fin 128 → EReal)
  (Win : Fin 256 → Fin 128 → EReal) (bin : Fin 128 → EReal)
  (Wa Ua : Fin 2 → Fin 128 → Fin 128 → EReal) (ba : Fin 2 → Fin 128 → EReal)
  (Wv Uv : Fin 2 → Fin 128 → Fin 128 → EReal) (bv : Fin 2 → Fin 128 → EReal)
  (Wout : Fin 128 → Fin 256 → EReal) (bout : Fin 256 → EReal)

/-- The first node layer's constant row: the attributes' mean embedding times the weights, plus the bias. -/
def c0 (k : Fin 128) : EReal := (∑ j, Cert.Spec.meanA0 row emb j * Wv 0 j k) + bv 0 k

/-- The second node layer's constant row: the attributes' mean layer-0 features times the weights, plus the bias. -/
def c1 (k : Fin 128) : EReal := (∑ j, Cert.Spec.meanA1 v row emb Win bin Wa Ua ba j * Wv 1 j k) + bv 1 k

section Stages

variable {v row emb Win bin Wa Ua ba Wv Uv bv Wout bout}

/-- The input projection of a block's row is the specification's at the row's node. -/
theorem h0_eq (vb : Vec Ideal S5000x256 .f32) (WinA : Vec Ideal S256x128 .f32) (binA : Vec Ideal S1x128 .f32)
    (n : Fin 10000) (p : Fin 5000) (hvb : ∀ j, vb (ix2 p j) = v n j) (hWin : ∀ j k, WinA (ix2 j k) = Win j k)
    (hbin : ∀ k, binA (ix2 0 k) = bin k) (k : Fin 128) :
    k0_pay5 (F := Ideal) vb WinA binA (ix2 p k) = Cert.Spec.hv0 v Win bin n k := by
  refine (pay5_apply vb WinA binA p k).trans ?_
  unfold Cert.Spec.hv0
  rw [hbin k]
  refine congrArg (· + bin k) (Finset.sum_congr rfl fun j _ => ?_)
  rw [hvb j, hWin j k]

/-- The stored embedding rows are the specification's. -/
theorem ha0_eq (qa : Vec Ideal S32x1 .i32) (hrow : ∀ a : Fin 32, qa (ix2 a 0) = BitVec.ofNat 32 (row a).val)
    (embA : Vec Ideal S512x128 .f32) (hemb : ∀ r k, embA (ix2 r k) = emb r k) (a : Fin 32) (k : Fin 128) :
    k0_pay3 (F := Ideal) qa embA (ix2 a k) = Cert.Spec.ha0 row emb a k :=
  (pay3_apply qa embA row hrow a k).trans (hemb (row a) k)

/-- The first constant row. -/
theorem c0_eq (qa : Vec Ideal S32x1 .i32) (hrow : ∀ a : Fin 32, qa (ix2 a 0) = BitVec.ofNat 32 (row a).val)
    (embA : Vec Ideal S512x128 .f32) (hemb : ∀ r k, embA (ix2 r k) = emb r k)
    (Wv0A : Vec Ideal S128x128 .f32) (hWv0 : ∀ j k, Wv0A (ix2 j k) = Wv 0 j k)
    (bvrow0 : Vec Ideal S1x128 .f32) (hbv0 : ∀ k, bvrow0 (ix2 0 k) = bv 0 k) (u : Fin 1) (k : Fin 128) :
    k0_pay4 (F := Ideal) qa embA Wv0A bvrow0 (ix2 u k) = c0 row emb Wv bv k := by
  refine (pay4_apply qa embA Wv0A bvrow0 row hrow u k).trans ?_
  unfold c0 Cert.Spec.meanA0 Cert.Spec.ha0
  rw [hbv0 k]
  refine congrArg (· + bv 0 k) (Finset.sum_congr rfl fun j _ => ?_)
  rw [hWv0 j k]
  refine congrArg (· * Wv 0 j k) (congrArg (· * ((1 / 32 : ℝ) : EReal)) ?_)
  exact Finset.sum_congr rfl fun a _ => hemb (row a) j

/-- The accumulator after block 0: the block's column sums of the input projection. -/
theorem sum1_eq (vb0 : Vec Ideal S5000x256 .f32) (hvb0 : ∀ r j, vb0 (ix2 r j) = v (node 0 r) j)
    (WinA : Vec Ideal S256x128 .f32) (hWin : ∀ j k, WinA (ix2 j k) = Win j k)
    (binA : Vec Ideal S1x128 .f32) (hbin : ∀ k, binA (ix2 0 k) = bin k) (u : Fin 1) (k : Fin 128) :
    k0_pay6 (F := Ideal) vb0 WinA binA (k0_pay1 (F := Ideal)) (ix2 u k)
      = ∑ p : Fin 5000, Cert.Spec.hv0 v Win bin (node 0 p) k := by
  refine (pay6_apply vb0 WinA binA _ u k).trans ?_
  rw [pay1_apply, zero_add]
  exact Finset.sum_congr rfl fun p _ => h0_eq vb0 WinA binA (node 0 p) p (hvb0 p) hWin hbin k

/-- The sum over all 10000 nodes is the sum over block 0 plus the sum over block 1. -/
theorem sum_nodes (f : Fin 10000 → EReal) :
    ∑ n : Fin 10000, f n = (∑ p : Fin 5000, f (node 0 p)) + ∑ p : Fin 5000, f (node 1 p) := by
  refine (Fin.sum_univ_add (a := 5000) (b := 5000) f).trans ?_
  refine congrArg₂ (· + ·) (Finset.sum_congr rfl fun p _ => congrArg f (Fin.ext ?_))
    (Finset.sum_congr rfl fun p _ => congrArg f (Fin.ext ?_))
  · show p.val = 5000 * 0 + p.val
    omega
  · show 5000 + p.val = 5000 * 1 + p.val
    omega

/-- The accumulator after block 1, from block 0's column sums: the sum over all nodes of the input projection. -/
theorem sum2_eq (vb1 : Vec Ideal S5000x256 .f32) (hvb1 : ∀ r j, vb1 (ix2 r j) = v (node 1 r) j)
    (WinA : Vec Ideal S256x128 .f32) (hWin : ∀ j k, WinA (ix2 j k) = Win j k)
    (binA : Vec Ideal S1x128 .f32) (hbin : ∀ k, binA (ix2 0 k) = bin k)
    (acc : Vec Ideal S1x128 .f32) (hacc : ∀ k, acc (ix2 0 k) = ∑ p : Fin 5000, Cert.Spec.hv0 v Win bin (node 0 p) k)
    (u : Fin 1) (k : Fin 128) :
    k0_pay6 (F := Ideal) vb1 WinA binA acc (ix2 u k) = ∑ n : Fin 10000, Cert.Spec.hv0 v Win bin n k := by
  refine (pay6_apply vb1 WinA binA acc u k).trans ?_
  rw [hacc k, sum_nodes fun n => Cert.Spec.hv0 v Win bin n k]
  refine congrArg ((∑ p : Fin 5000, Cert.Spec.hv0 v Win bin (node 0 p) k) + ·) ?_
  exact Finset.sum_congr rfl fun p _ => h0_eq vb1 WinA binA (node 1 p) p (hvb1 p) hWin hbin k

/-- The first layer on a block's row is the specification's at the row's node: the kernel adds the row's own term to
    the constant row, the specification adds the bias last. -/
theorem h1_eq (vb : Vec Ideal S5000x256 .f32) (n : Fin 10000) (r : Fin 5000) (hvb : ∀ j, vb (ix2 r j) = v n j)
    (WinA : Vec Ideal S256x128 .f32) (hWin : ∀ j k, WinA (ix2 j k) = Win j k)
    (binA : Vec Ideal S1x128 .f32) (hbin : ∀ k, binA (ix2 0 k) = bin k)
    (Uv0A : Vec Ideal S128x128 .f32) (hUv0 : ∀ j k, Uv0A (ix2 j k) = Uv 0 j k)
    (c0A : Vec Ideal S1x128 .f32) (hc0 : ∀ k, c0A (ix2 0 k) = c0 row emb Wv bv k) (k : Fin 128) :
    (k0_pay7 (F := Ideal) vb WinA binA Uv0A c0A (ix2 r k) : EReal)
      = Cert.Spec.hv1 v row emb Win bin Wv Uv bv n k := by
  refine (pay7_apply vb WinA binA Uv0A c0A r k).trans ?_
  unfold Cert.Spec.hv1
  refine congrArg (max · 0) ?_
  rw [hc0 k]
  unfold c0
  have hs : (∑ j : Fin 128, k0_pay5 (F := Ideal) vb WinA binA (ix2 r j) * Uv0A (ix2 j k))
      = ∑ j : Fin 128, Cert.Spec.hv0 v Win bin n j * Uv 0 j k :=
    Finset.sum_congr rfl fun j _ => by rw [h0_eq vb WinA binA n r hvb hWin hbin j, hUv0 j k]
  rw [hs]
  exact (add_left_comm _ _ _).trans (add_assoc _ _ _).symm

/-- The second constant row. -/
theorem c1_eq (sumA : Vec Ideal S1x128 .f32) (hsum : ∀ k, sumA (ix2 0 k) = ∑ n : Fin 10000, Cert.Spec.hv0 v Win bin n k)
    (Wa0A : Vec Ideal S128x128 .f32) (hWa0 : ∀ j k, Wa0A (ix2 j k) = Wa 0 j k)
    (ha0A : Vec Ideal S32x128 .f32) (hha0 : ∀ a k, ha0A (ix2 a k) = Cert.Spec.ha0 row emb a k)
    (Ua0A : Vec Ideal S128x128 .f32) (hUa0 : ∀ j k, Ua0A (ix2 j k) = Ua 0 j k)
    (ba0A : Vec Ideal S1x128 .f32) (hba0 : ∀ k, ba0A (ix2 0 k) = ba 0 k)
    (Wv1A : Vec Ideal S128x128 .f32) (hWv1 : ∀ j k, Wv1A (ix2 j k) = Wv 1 j k)
    (bvrow1 : Vec Ideal S1x128 .f32) (hbv1 : ∀ k, bvrow1 (ix2 0 k) = bv 1 k) (u : Fin 1) (k : Fin 128) :
    k0_pay8 (F := Ideal) sumA Wa0A ha0A Ua0A ba0A Wv1A bvrow1 (ix2 u k) = c1 v row emb Win bin Wa Ua ba Wv bv k := by
  refine (pay8_apply sumA Wa0A ha0A Ua0A ba0A Wv1A bvrow1 u k).trans ?_
  unfold c1 Cert.Spec.meanA1 Cert.Spec.ha1 Cert.Spec.meanV0
  rw [hbv1 k]
  refine congrArg (· + bv 1 k) (Finset.sum_congr rfl fun j _ => ?_)
  rw [hWv1 j k]
  refine congrArg (· * Wv 1 j k) (congrArg (· * ((1 / 32 : ℝ) : EReal)) (Finset.sum_congr rfl fun a _ => ?_))
  rw [hba0 j]
  refine congrArg (max · 0) (congrArg (· + ba 0 j) (congrArg₂ (· + ·) ?_ ?_))
  · refine Finset.sum_congr rfl fun i _ => ?_
    rw [hsum i, hWa0 i j]
  · refine Finset.sum_congr rfl fun i _ => ?_
    rw [hha0 a i, hUa0 i j]

/-- The output on a block's row is the specification's at the row's node. -/
theorem out_eq (h1A : Vec Ideal S5000x128 .bf16) (n : Fin 10000) (r : Fin 5000)
    (hh1 : ∀ j, (h1A (ix2 r j) : EReal) = Cert.Spec.hv1 v row emb Win bin Wv Uv bv n j)
    (Uv1A : Vec Ideal S128x128 .f32) (hUv1 : ∀ j k, Uv1A (ix2 j k) = Uv 1 j k)
    (c1A : Vec Ideal S1x128 .f32) (hc1 : ∀ k, c1A (ix2 0 k) = c1 v row emb Win bin Wa Ua ba Wv bv k)
    (WoutA : Vec Ideal S128x256 .f32) (hWout : ∀ k q, WoutA (ix2 k q) = Wout k q)
    (boutA : Vec Ideal S1x256 .f32) (hbout : ∀ q, boutA (ix2 0 q) = bout q) (q : Fin 256) :
    k0_pay9 (F := Ideal) h1A Uv1A c1A WoutA boutA (ix2 r q)
      = Cert.Spec.out v row emb Win bin Wa Ua ba Wv Uv bv Wout bout n q := by
  refine (pay9_apply h1A Uv1A c1A WoutA boutA r q).trans ?_
  unfold Cert.Spec.out Cert.Spec.hv2
  rw [hbout q]
  refine congrArg (· + bout q) (Finset.sum_congr rfl fun k _ => ?_)
  rw [hWout k q]
  refine congrArg (· * Wout k q) (congrArg (max · 0) ?_)
  rw [hc1 k]
  unfold c1
  have hs : (∑ j : Fin 128, (h1A (ix2 r j) : EReal) * Uv1A (ix2 j k))
      = ∑ j : Fin 128, Cert.Spec.hv1 v row emb Win bin Wv Uv bv n j * Uv 1 j k :=
    Finset.sum_congr rfl fun j _ => by rw [hh1 j, hUv1 j k]
  rw [hs]
  exact (add_left_comm _ _ _).trans (add_assoc _ _ _).symm

end Stages

/-! ## The block theorem -/

section Block

variable {v row emb Win bin Wa Ua ba Wv Uv bv Wout bout}

/-- The kernel's payloads composed as the run composes them — the embedding rows and the first constant row from the
    attribute indices and the table; the accumulator reset, then block 0's and block 1's column sums added; the first
    layer on block b from the first constant row; the second constant row from the final accumulator and the embedding
    rows; the output on block b from both — give, at row r and column q of block b, the specification's output at node
    5000 · b + r. The kernel-side arrays are variables tied to the specification's arguments entry by entry; `vbb` is
    the block of node features the first layer of block b was computed from (block 0's or block 1's). -/
theorem out_block_eq (b : Fin 2)
    (vb0 vb1 vbb : Vec Ideal S5000x256 .f32)
    (hvb0 : ∀ r j, vb0 (ix2 r j) = v (node 0 r) j) (hvb1 : ∀ r j, vb1 (ix2 r j) = v (node 1 r) j)
    (hvbb : ∀ r j, vbb (ix2 r j) = v (node b r) j)
    (qa : Vec Ideal S32x1 .i32) (hrow : ∀ a : Fin 32, qa (ix2 a 0) = BitVec.ofNat 32 (row a).val)
    (embA : Vec Ideal S512x128 .f32) (hemb : ∀ r k, embA (ix2 r k) = emb r k)
    (WinA : Vec Ideal S256x128 .f32) (hWin : ∀ j k, WinA (ix2 j k) = Win j k)
    (binA : Vec Ideal S1x128 .f32) (hbin : ∀ k, binA (ix2 0 k) = bin k)
    (Wa0A Ua0A : Vec Ideal S128x128 .f32) (hWa0 : ∀ j k, Wa0A (ix2 j k) = Wa 0 j k) (hUa0 : ∀ j k, Ua0A (ix2 j k) = Ua 0 j k)
    (ba0A : Vec Ideal S1x128 .f32) (hba0 : ∀ k, ba0A (ix2 0 k) = ba 0 k)
    (Wv0A Wv1A : Vec Ideal S128x128 .f32) (hWv0 : ∀ j k, Wv0A (ix2 j k) = Wv 0 j k) (hWv1 : ∀ j k, Wv1A (ix2 j k) = Wv 1 j k)
    (bvrow0 bvrow1 : Vec Ideal S1x128 .f32) (hbv0 : ∀ k, bvrow0 (ix2 0 k) = bv 0 k) (hbv1 : ∀ k, bvrow1 (ix2 0 k) = bv 1 k)
    (Uv0A Uv1A : Vec Ideal S128x128 .f32) (hUv0 : ∀ j k, Uv0A (ix2 j k) = Uv 0 j k) (hUv1 : ∀ j k, Uv1A (ix2 j k) = Uv 1 j k)
    (WoutA : Vec Ideal S128x256 .f32) (hWout : ∀ k q, WoutA (ix2 k q) = Wout k q)
    (boutA : Vec Ideal S1x256 .f32) (hbout : ∀ q, boutA (ix2 0 q) = bout q)
    (r : Fin 5000) (q : Fin 256) :
    k0_pay9 (F := Ideal)
        (k0_pay7 (F := Ideal) vbb WinA binA Uv0A (k0_pay4 (F := Ideal) qa embA Wv0A bvrow0))
        Uv1A
        (k0_pay8 (F := Ideal)
          (k0_pay6 (F := Ideal) vb1 WinA binA (k0_pay6 (F := Ideal) vb0 WinA binA (k0_pay1 (F := Ideal))))
          Wa0A (k0_pay3 (F := Ideal) qa embA) Ua0A ba0A Wv1A bvrow1)
        WoutA boutA (ix2 r q)
      = Cert.Spec.out v row emb Win bin Wa Ua ba Wv Uv bv Wout bout (node b r) q := by
  refine out_eq _ (node b r) r (fun j => ?_) Uv1A hUv1 _ (fun k => ?_) WoutA hWout boutA hbout q
  · exact h1_eq vbb (node b r) r (hvbb r) WinA hWin binA hbin Uv0A hUv0 _
      (fun k => c0_eq qa hrow embA hemb Wv0A hWv0 bvrow0 hbv0 0 k) j
  · exact c1_eq _
      (fun k => sum2_eq vb1 hvb1 WinA hWin binA hbin _ (fun k => sum1_eq vb0 hvb0 WinA hWin binA hbin 0 k) 0 k)
      Wa0A hWa0 _ (fun a k => ha0_eq qa hrow embA hemb a k) Ua0A hUa0 ba0A hba0 Wv1A hWv1 bvrow1 hbv1 0 k

end Block

end Cert.KernelIdeal.Pay

end
-- ==== Proof.KVIsSpec.lean ====
/-
  The named values the four grid points compute are the shared specification's stages: each payload's inputs are
  window blocks, every window block entry is an entry of an argument array as launched, and the payloads composed as
  the points compose them — the embedding rows and the first constant row at the first point, the two blocks' column
  sums, the first layer on each block, the second constant row, the output on each block — equal the specification's
  functions of the same arrays, block b's row r standing for node 5000 · b + r. The same weight window is read at
  different grid points by different stages; it holds the same array at every point.
-/
import proofs.«119914_g24988119728772_cont_9to1_1483_19_alg».proof.Proof.KVDat
import proofs.«119914_g24988119728772_cont_9to1_1483_19_alg».proof.Proof.KIWindows
import proofs.«119914_g24988119728772_cont_9to1_1483_19_alg».proof.Proof.KPayIsSpec
import proofs.«119914_g24988119728772_cont_9to1_1483_19_alg».proof.Proof.Spec

set_option maxRecDepth 16384

noncomputable section

namespace Cert.KernelIdeal.Hand

open Cert.KernelIdeal Cert.KernelIdeal.Gen Cert.KernelIdeal.Win
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-! ## The specification's arguments, read off the argument arrays as launched -/

abbrev aV : Fin 10000 → Fin 256 → EReal := fun n j => m ((c : Thread nD τ).loc main_arg0) (ix2 n j)
abbrev aEmb : Fin 512 → Fin 128 → EReal := fun r k => m ((c : Thread nD τ).loc main_arg2) (ix2 r k)
abbrev aWin : Fin 256 → Fin 128 → EReal := fun j k => m ((c : Thread nD τ).loc main_arg3) (ix2 j k)
abbrev aBin : Fin 128 → EReal := fun k => m ((c : Thread nD τ).loc main_arg4) (ix1 k)
abbrev aWa : Fin 2 → Fin 128 → Fin 128 → EReal := fun l j k => m ((c : Thread nD τ).loc main_arg5) (ix3 l j k)
abbrev aUa : Fin 2 → Fin 128 → Fin 128 → EReal := fun l j k => m ((c : Thread nD τ).loc main_arg6) (ix3 l j k)
abbrev aBa : Fin 2 → Fin 128 → EReal := fun l k => m ((c : Thread nD τ).loc main_arg7) (ix2 l k)
abbrev aWv : Fin 2 → Fin 128 → Fin 128 → EReal := fun l j k => m ((c : Thread nD τ).loc main_arg8) (ix3 l j k)
abbrev aUv : Fin 2 → Fin 128 → Fin 128 → EReal := fun l j k => m ((c : Thread nD τ).loc main_arg9) (ix3 l j k)
abbrev aBv : Fin 2 → Fin 128 → EReal := fun l k => m ((c : Thread nD τ).loc main_arg10) (ix2 l k)
abbrev aWout : Fin 128 → Fin 256 → EReal := fun k q => m ((c : Thread nD τ).loc main_arg11) (ix2 k q)
abbrev aBout : Fin 256 → EReal := fun q => m ((c : Thread nD τ).loc main_arg12) (ix1 q)

/-! ## The two node-bias rows, loaded one row at a time from their window -/

theorem bvrow0_read (t : Fin cfg0.N) (k : Fin 128) :
    View.ld (iblk m c 10 t : Vec Ideal S2x128 .f32) row0 (ix2 (0 : Fin 1) k) = aBv m c 0 k := by
  show (iblk m c 10 t : S2x128.Idx → EReal) (row0.emb (ix2 (0 : Fin 1) k)) = _
  have e : row0.emb (ix2 (0 : Fin 1) k) = ix2 (0 : Fin 2) k := funext fun a => Fin.ext (by
    match a with
    | ⟨0, _⟩ => rfl
    | ⟨1, _⟩ => show 0 + 1 * k.val = k.val; omega)
  rw [e]
  exact win10 m c t 0 k

theorem bvrow1_read (t : Fin cfg0.N) (k : Fin 128) :
    View.ld (iblk m c 10 t : Vec Ideal S2x128 .f32) row1 (ix2 (0 : Fin 1) k) = aBv m c 1 k := by
  show (iblk m c 10 t : S2x128.Idx → EReal) (row1.emb (ix2 (0 : Fin 1) k)) = _
  have e : row1.emb (ix2 (0 : Fin 1) k) = ix2 (1 : Fin 2) k := funext fun a => Fin.ext (by
    match a with
    | ⟨0, _⟩ => rfl
    | ⟨1, _⟩ => show 0 + 1 * k.val = k.val; omega)
  rw [e]
  exact win10 m c t 1 k

/-! ## The node-feature window's two blocks at the nodes they stand for -/

theorem vblk0 (r : Fin 5000) (j : Fin 256) :
    (iblk m c 0 t0_0 : S5000x256.Idx → EReal) (ix2 r j) = aV m c (Pay.node 0 r) j :=
  (win0_t0 m c r j).trans (congrArg (fun i : Fin 10000 => m ((c : Thread nD τ).loc main_arg0) (ix2 i j)) (Fin.ext (by
    show r.val = 5000 * 0 + r.val
    omega)))

theorem vblk1 (r : Fin 5000) (j : Fin 256) :
    (iblk m c 0 t0_1 : S5000x256.Idx → EReal) (ix2 r j) = aV m c (Pay.node 1 r) j :=
  (win0_t1 m c r j).trans (congrArg (fun i : Fin 10000 => m ((c : Thread nD τ).loc main_arg0) (ix2 i j)) (Fin.ext (by
    show 5000 + r.val = 5000 * 1 + r.val
    omega)))

section Values

variable (row : Fin 32 → Fin 512)
  (hrow : ∀ a : Fin 32, m ((c : Thread nD τ).loc main_arg1) (ix1 a) = BitVec.ofNat 32 (row a).val)
include hrow

theorem qa_read (t : Fin cfg0.N) (a : Fin 32) :
    (iblk m c 1 t : S32x1.Idx → BitVec 32) (ix2 a 0) = BitVec.ofNat 32 (row a).val :=
  (win1 m c t a 0).trans (hrow a)

/-- The first constant row. -/
theorem vC0_eq (k : Fin 128) :
    vC0 (F := Ideal) m c (ix2 0 k) = Pay.c0 row (aEmb m c) (aWv m c) (aBv m c) k :=
  Pay.c0_eq (row := row) (emb := aEmb m c) (Wv := aWv m c) (bv := aBv m c)
    _ (qa_read m c row hrow t0_0) _ (win2 m c t0_0) _ (win8 m c t0_0) _ (bvrow0_read m c t0_0) 0 k

/-- The stored embedding rows. -/
theorem vHA0_eq (a : Fin 32) (k : Fin 128) :
    vHA0 (F := Ideal) m c (ix2 a k) = Cert.Spec.ha0 row (aEmb m c) a k :=
  Pay.ha0_eq (row := row) (emb := aEmb m c) _ (qa_read m c row hrow t0_0) _ (win2 m c t0_0) a k

omit hrow in
/-- The accumulator after the first block. -/
theorem vS1_eq (k : Fin 128) :
    vS1 (F := Ideal) m c (ix2 0 k)
      = ∑ p : Fin 5000, Cert.Spec.hv0 (aV m c) (aWin m c) (aBin m c) (Pay.node 0 p) k :=
  Pay.sum1_eq (v := aV m c) (Win := aWin m c) (bin := aBin m c)
    _ (vblk0 m c) _ (win3 m c t0_0) _ (win4 m c t0_0 0) 0 k

omit hrow in
/-- The accumulator after the second block: the sum over all nodes. -/
theorem vS2_eq (k : Fin 128) :
    vS2 (F := Ideal) m c (ix2 0 k) = ∑ n : Fin 10000, Cert.Spec.hv0 (aV m c) (aWin m c) (aBin m c) n k :=
  Pay.sum2_eq (v := aV m c) (Win := aWin m c) (bin := aBin m c)
    _ (vblk1 m c) _ (win3 m c t0_1) _ (win4 m c t0_1 0) _ (vS1_eq m c) 0 k

/-- The first layer on the first block. -/
theorem vHA_eq (r : Fin 5000) (j : Fin 128) :
    (vHA (F := Ideal) m c (ix2 r j) : EReal)
      = Cert.Spec.hv1 (aV m c) row (aEmb m c) (aWin m c) (aBin m c) (aWv m c) (aUv m c) (aBv m c) (Pay.node 0 r) j :=
  Pay.h1_eq (v := aV m c) (row := row) (emb := aEmb m c) (Win := aWin m c) (bin := aBin m c) (Wv := aWv m c)
    (Uv := aUv m c) (bv := aBv m c)
    _ (Pay.node 0 r) r (vblk0 m c r) _ (win3 m c t0_0) _ (win4 m c t0_0 0) _ (win11 m c t0_0) _ (vC0_eq m c row hrow) j

/-- The first layer on the second block. -/
theorem vHB_eq (r : Fin 5000) (j : Fin 128) :
    (vHB (F := Ideal) m c (ix2 r j) : EReal)
      = Cert.Spec.hv1 (aV m c) row (aEmb m c) (aWin m c) (aBin m c) (aWv m c) (aUv m c) (aBv m c) (Pay.node 1 r) j :=
  Pay.h1_eq (v := aV m c) (row := row) (emb := aEmb m c) (Win := aWin m c) (bin := aBin m c) (Wv := aWv m c)
    (Uv := aUv m c) (bv := aBv m c)
    _ (Pay.node 1 r) r (vblk1 m c r) _ (win3 m c t0_1) _ (win4 m c t0_1 0) _ (win11 m c t0_1) _ (vC0_eq m c row hrow) j

/-- The second constant row. -/
theorem vC1_eq (k : Fin 128) :
    vC1 (F := Ideal) m c (ix2 0 k)
      = Pay.c1 (aV m c) row (aEmb m c) (aWin m c) (aBin m c) (aWa m c) (aUa m c) (aBa m c) (aWv m c) (aBv m c) k :=
  Pay.c1_eq (v := aV m c) (row := row) (emb := aEmb m c) (Win := aWin m c) (bin := aBin m c) (Wa := aWa m c)
    (Ua := aUa m c) (ba := aBa m c) (Wv := aWv m c) (bv := aBv m c)
    _ (vS2_eq m c) _ (win5 m c t0_2) _ (vHA0_eq m c row hrow) _ (win6 m c t0_2) _ (win7 m c t0_2 0)
    _ (win9 m c t0_2) _ (bvrow1_read m c t0_2) 0 k

/-- THE FIRST BLOCK OF RESULTS is the specification's output at nodes 0 … 4999. -/
theorem vOUT0_eq (r : Fin 5000) (q : Fin 256) :
    vOUT0 (F := Ideal) m c (ix2 r q)
      = Cert.Spec.out (fun n j => m ((c : Thread nD τ).loc main_arg0) (ix2 n j)) row
          (fun r k => m ((c : Thread nD τ).loc main_arg2) (ix2 r k)) (fun j k => m ((c : Thread nD τ).loc main_arg3) (ix2 j k))
          (fun k => m ((c : Thread nD τ).loc main_arg4) (ix1 k))
          (fun l j k => m ((c : Thread nD τ).loc main_arg5) (ix3 l j k)) (fun l j k => m ((c : Thread nD τ).loc main_arg6) (ix3 l j k))
          (fun l k => m ((c : Thread nD τ).loc main_arg7) (ix2 l k))
          (fun l j k => m ((c : Thread nD τ).loc main_arg8) (ix3 l j k)) (fun l j k => m ((c : Thread nD τ).loc main_arg9) (ix3 l j k))
          (fun l k => m ((c : Thread nD τ).loc main_arg10) (ix2 l k))
          (fun k q => m ((c : Thread nD τ).loc main_arg11) (ix2 k q)) (fun q => m ((c : Thread nD τ).loc main_arg12) (ix1 q))
          (Pay.node 0 r) q :=
  Pay.out_eq (v := aV m c) (row := row) (emb := aEmb m c) (Win := aWin m c) (bin := aBin m c) (Wa := aWa m c)
    (Ua := aUa m c) (ba := aBa m c) (Wv := aWv m c) (Uv := aUv m c) (bv := aBv m c) (Wout := aWout m c) (bout := aBout m c)
    _ (Pay.node 0 r) r (vHA_eq m c row hrow r) _ (win12 m c t0_2) _ (vC1_eq m c row hrow) _ (win13 m c t0_2)
    _ (win14 m c t0_2 0) q

/-- THE SECOND BLOCK OF RESULTS is the specification's output at nodes 5000 … 9999. -/
theorem vOUT1_eq (r : Fin 5000) (q : Fin 256) :
    vOUT1 (F := Ideal) m c (ix2 r q)
      = Cert.Spec.out (fun n j => m ((c : Thread nD τ).loc main_arg0) (ix2 n j)) row
          (fun r k => m ((c : Thread nD τ).loc main_arg2) (ix2 r k)) (fun j k => m ((c : Thread nD τ).loc main_arg3) (ix2 j k))
          (fun k => m ((c : Thread nD τ).loc main_arg4) (ix1 k))
          (fun l j k => m ((c : Thread nD τ).loc main_arg5) (ix3 l j k)) (fun l j k => m ((c : Thread nD τ).loc main_arg6) (ix3 l j k))
          (fun l k => m ((c : Thread nD τ).loc main_arg7) (ix2 l k))
          (fun l j k => m ((c : Thread nD τ).loc main_arg8) (ix3 l j k)) (fun l j k => m ((c : Thread nD τ).loc main_arg9) (ix3 l j k))
          (fun l k => m ((c : Thread nD τ).loc main_arg10) (ix2 l k))
          (fun k q => m ((c : Thread nD τ).loc main_arg11) (ix2 k q)) (fun q => m ((c : Thread nD τ).loc main_arg12) (ix1 q))
          (Pay.node 1 r) q :=
  Pay.out_eq (v := aV m c) (row := row) (emb := aEmb m c) (Win := aWin m c) (bin := aBin m c) (Wa := aWa m c)
    (Ua := aUa m c) (ba := aBa m c) (Wv := aWv m c) (Uv := aUv m c) (bv := aBv m c) (Wout := aWout m c) (bout := aBout m c)
    _ (Pay.node 1 r) r (vHB_eq m c row hrow r) _ (win12 m c t0_3) _ (vC1_eq m c row hrow) _ (win13 m c t0_3)
    _ (win14 m c t0_3 0) q

end Values

section At

variable (row : Fin 32 → Fin 512)

/-- The specification's output over the argument arrays as launched. -/
abbrev specOut (n : Fin 10000) (q : Fin 256) : EReal :=
  Cert.Spec.out (aV m c) row (aEmb m c) (aWin m c) (aBin m c) (aWa m c) (aUa m c) (aBa m c) (aWv m c) (aUv m c) (aBv m c)
    (aWout m c) (aBout m c) n q

variable (hrow : ∀ a : Fin 32, m ((c : Thread nD τ).loc main_arg1) (ix1 a) = BitVec.ofNat 32 (row a).val)
include hrow

/-- The first block at any spelling of its node. -/
theorem vOUT0_at (r : Fin 5000) (q : Fin 256) (n : Fin 10000) (hn : n.val = r.val) :
    vOUT0 (F := Ideal) m c (ix2 r q) = specOut m c row n q :=
  (vOUT0_eq m c row hrow r q).trans (congrArg (fun i : Fin 10000 => specOut m c row i q) (Fin.ext (by
    show 5000 * 0 + r.val = n.val
    omega)))

/-- The second block at any spelling of its node. -/
theorem vOUT1_at (r : Fin 5000) (q : Fin 256) (n : Fin 10000) (hn : n.val = 5000 + r.val) :
    vOUT1 (F := Ideal) m c (ix2 r q) = specOut m c row n q :=
  (vOUT1_eq m c row hrow r q).trans (congrArg (fun i : Fin 10000 => specOut m c row i q) (Fin.ext (by
    show 5000 * 1 + r.val = n.val
    omega)))

end At

end Cert.KernelIdeal.Hand

end
-- ==== Proof.KVOutEq.lean ====
/-
  The whole result array of the idealized kernel is the shared specification, entry by entry: a row below 5000 is a
  row of the first block of results, any other row is 5000 plus a row of the second block, and each block is the
  specification's at its rows.
-/
import proofs.«119914_g24988119728772_cont_9to1_1483_19_alg».proof.Proof.KVFinal
import proofs.«119914_g24988119728772_cont_9to1_1483_19_alg».proof.Proof.KVIsSpec
import proofs.«119914_g24988119728772_cont_9to1_1483_19_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- THE KERNEL'S RESULT IS THE SPECIFICATION, entry by entry, when every queried attribute is a row of the table. -/
theorem kOut_eq (m : (ℓ : Loc nD τ sig) → Buf (Elt Ideal) ℓ) (c : Dev nD) (row : Fin 32 → Fin 512)
    (hrow : ∀ a : Fin 32, m ((c.tc : Thread nD τ).loc main_arg1) (ix1 a) = BitVec.ofNat 32 (row a).val) (p : Fin 10000) (q : Fin 256) :
    kOut m c (ix2 p q) = Cert.Spec.out (fun n j => m ((c.tc : Thread nD τ).loc main_arg0) (ix2 n j)) row (fun r k => m ((c.tc : Thread nD τ).loc main_arg2) (ix2 r k)) (fun j k => m ((c.tc : Thread nD τ).loc main_arg3) (ix2 j k)) (fun k => m ((c.tc : Thread nD τ).loc main_arg4) (ix1 k)) (fun l j k => m ((c.tc : Thread nD τ).loc main_arg5) (ix3 l j k)) (fun l j k => m ((c.tc : Thread nD τ).loc main_arg6) (ix3 l j k)) (fun l k => m ((c.tc : Thread nD τ).loc main_arg7) (ix2 l k)) (fun l j k => m ((c.tc : Thread nD τ).loc main_arg8) (ix3 l j k)) (fun l j k => m ((c.tc : Thread nD τ).loc main_arg9) (ix3 l j k)) (fun l k => m ((c.tc : Thread nD τ).loc main_arg10) (ix2 l k)) (fun k q => m ((c.tc : Thread nD τ).loc main_arg11) (ix2 k q)) (fun q => m ((c.tc : Thread nD τ).loc main_arg12) (ix1 q)) p q := by
  show kOutArr m c (ix2 p q) = _
  have hp' : p.val < 10000 := p.isLt
  by_cases hp : p.val < 5000
  · rw [kOutArr_lo m c (ix2 p q) (ix2 ⟨p.val, hp⟩ q) rfl rfl]
    exact vOUT0_at m c row hrow ⟨p.val, hp⟩ q p rfl
  · rw [kOutArr_hi m c (ix2 p q) (ix2 ⟨p.val - 5000, by omega⟩ q) (by show p.val = 5000 + (p.val - 5000); omega) rfl]
    exact vOUT1_at m c row hrow ⟨p.val - 5000, by omega⟩ q p (by show p.val = 5000 + (p.val - 5000); omega)

end Cert.KernelIdeal.Hand

end
-- ==== Proof.lean ====
/-
  A fused bipartite message-passing kernel against its jnp reference.

  The reference builds the COMPLETE bipartite graph between 10000 nodes and 32 attributes and runs two rounds of message
  passing with explicit gathers and segment sums over its 320000 edges. Over a complete bipartite graph every segment sum
  is a sum over ALL senders — the same vector for every receiver — so both programs compute (`Cert.Spec.out`, Proof/Spec.lean)

      hv0 = v·W_in + b_in,   ha0 = emb[query_attrs],
      ha1 = relu(mean_n hv0 · Wa₀ + ha0 · Ua₀ + ba₀),   hv1 = relu(mean_a ha0 · Wv₀ + hv0 · Uv₀ + bv₀),
      hv2 = relu(mean_a ha1 · Wv₁ + hv1 · Uv₁ + bv₁),   out = hv2 · W_out + b_out.

  The kernel is one pallas_call over four grid points. Point 0 looks the embeddings up as a one-hot matrix product and
  computes the attribute-side vector of layer 0; points 0 and 1 stream the two blocks of 5000 rows in, accumulate the column
  sums of hv0 and keep hv1 in a scratch buffer; point 2 finishes the attribute side from the accumulated mean; points 2
  and 3 stream the two blocks of results out. On the extended reals the two sides agree by commutativity and
  associativity of addition, by x / 10000 = x · (1/10000) and x / 32 = x · (1/32), and because a one-hot row times a
  table is the table's row (0 · x = 0 for every extended real): finiteness of the float inputs is never used. The lookup
  is the table's row only for an index inside the table, which is the precondition's last conjunct: outside it the
  reference's own lookup is undefined.

  Where the parts are:
  * the two kernels' frames, generic in the float instance: Proof/KBRuns … KBFrame (as printed) and Proof/KIRuns … KIFrame
    (idealized) — at every grid point the body runs from any contents of its scratch buffers and of the output's buffer
    and hands its input blocks back untouched;
  * the idealized kernel's run with its result named: Proof/KVCommon, KVRunA … KVRunD (one grid point each), KVDat (the
    values the scratch buffers carry from point to point), KVFrame (the body obligation and the run), KVFinal (the two
    blocks written back are the result array), KVValue;
  * the kernel's arithmetic read at an index and identified with the specification: Proof/KPayOps, KPayRead, KPayIsSpec,
    KIWindows (each input block as entries of the argument arrays), KVIsSpec, KVOutEq;
  * the reference's run and its result read at an index: Proof/RefOps, RefTerms, RefRun, RefRead, RefBipartite (a gather
    followed by a segment sum over the complete bipartite edge list is a sum over all senders), RefIsSpec;
  * the claims: Proof/Claims.
-/
import proofs.«119914_g24988119728772_cont_9to1_1483_19_alg».proof.Defs
import proofs.«119914_g24988119728772_cont_9to1_1483_19_alg».proof.Proof.Gen.Kernel
import proofs.«119914_g24988119728772_cont_9to1_1483_19_alg».proof.Proof.Gen.KernelIdeal
import proofs.«119914_g24988119728772_cont_9to1_1483_19_alg».proof.Proof.Gen.ReferenceIdeal
import proofs.«119914_g24988119728772_cont_9to1_1483_19_alg».proof.Proof.Gen.Pre_finite_inputs
import proofs.«119914_g24988119728772_cont_9to1_1483_19_alg».proof.Proof.Claims
import proofs.«119914_g24988119728772_cont_9to1_1483_19_alg».proof.Proof.KVValue
import proofs.«119914_g24988119728772_cont_9to1_1483_19_alg».proof.Proof.KVOutEq
import Idealize.ShloMosaic.Adequacy
import Idealize.ShloMosaic.Init

noncomputable section

namespace Cert.Proof

open Idealize.ShloMosaic Idealize.SL.Sem

/-- The five claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of Cert.KernelIdeal.Hand.kOut Cert.KernelIdeal.Hand.vrun Cert.KernelIdeal.Hand.kOut_eq⟩

end Cert.Proof

end
